-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg26 : FVec F S32x1 .f32) (main_arg27 : FVec F S1 .f32) (main_v118 : IVec S_ 1) (main_v119 : FVec F S32 .f32) : IVec S_ 1 :=
  let main_cst_46 : FVec F S_ .f32 := constant S_ .f32 0x7F800000#32
  let main_v120 : FVec F S32 .f32 := broadcastInDim S32 ![] bcast_S_S32 main_cst_46
  let main_v121 : IVec S32 1 := cmpf .olt main_v119 main_v120
  let main_c_47 : IVec S_ 1 := constantI S_ 1 1#1
  let main_v122 : IVec S_ 1 := (fun x v => Host.reduce IntOp.andi x v reducesTo_S32_S_d0 h_S_) main_v121 main_c_47
  let main_v123 : IVec S_ 1 := andi main_v118 main_v122
  let main_v124 : FVec F S32x1 .f32 := Host.absf main_arg26
  let main_cst_48 : FVec F S_ .f32 := constant S_ .f32 0x7F800000#32
  let main_v125 : FVec F S32x1 .f32 := broadcastInDim S32x1 ![] bcast_S_S32x1 main_cst_48
  let main_v126 : IVec S32x1 1 := cmpf .olt main_v124 main_v125
  let main_c_49 : IVec S_ 1 := constantI S_ 1 1#1
  let main_v127 : IVec S_ 1 := (fun x v => Host.reduce IntOp.andi x v reducesTo_S32x1_S_d0_1 h_S_) main_v126 main_c_49
  let main_v128 : IVec S_ 1 := andi main_v123 main_v127
  let main_v129 : FVec F S1 .f32 := Host.absf main_arg27
  let main_cst_50 : FVec F S_ .f32 := constant S_ .f32 0x7F800000#32
  let main_v130 : FVec F S1 .f32 := broadcastInDim S1 ![] bcast_S_S1 main_cst_50
  let main_v131 : IVec S1 1 := cmpf .olt main_v129 main_v130
  let main_c_51 : IVec S_ 1 := constantI S_ 1 1#1
  let main_v132 : IVec S_ 1 := (fun x v => Host.reduce IntOp.andi x v reducesTo_S1_S_d0 h_S_) main_v131 main_c_51
  let main_v133 : IVec S_ 1 := andi main_v128 main_v132
  main_v133

def fn_part6 {F : FTy → Type} [FloatOps F] (main_arg22 : FVec F S32x32 .f32) (main_arg23 : FVec F S32 .f32) (main_arg24 : FVec F S32x32 .f32) (main_arg25 : FVec F S32 .f32) (main_arg26 : FVec F S32x1 .f32) (main_arg27 : FVec F S1 .f32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_v104 : FVec F S32x32 .f32 := Host.absf main_arg22
  let main_cst_40 : FVec F S_ .f32 := constant S_ .f32 0x7F800000#32
  let main_v105 : FVec F S32x32 .f32 := broadcastInDim S32x32 ![] bcast_S_S32x32 main_cst_40
  let main_v106 : IVec S32x32 1 := cmpf .olt main_v104 main_v105
  let main_c_41 : IVec S_ 1 := constantI S_ 1 1#1
  let main_v107 : IVec S_ 1 := (fun x v => Host.reduce IntOp.andi x v reducesTo_S32x32_S_d0_1 h_S_) main_v106 main_c_41
  let main_v108 : IVec S_ 1 := andi main_v103 main_v107
  let main_v109 : FVec F S32 .f32 := Host.absf main_arg23
  let main_cst_42 : FVec F S_ .f32 := constant S_ .f32 0x7F800000#32
  let main_v110 : FVec F S32 .f32 := broadcastInDim S32 ![] bcast_S_S32 main_cst_42
  let main_v111 : IVec S32 1 := cmpf .olt main_v109 main_v110
  let main_c_43 : IVec S_ 1 := constantI S_ 1 1#1
  let main_v112 : IVec S_ 1 := (fun x v => Host.reduce IntOp.andi x v reducesTo_S32_S_d0 h_S_) main_v111 main_c_43
  let main_v113 : IVec S_ 1 := andi main_v108 main_v112
  let main_v114 : FVec F S32x32 .f32 := Host.absf main_arg24
  let main_cst_44 : FVec F S_ .f32 := constant S_ .f32 0x7F800000#32
  let main_v115 : FVec F S32x32 .f32 := broadcastInDim S32x32 ![] bcast_S_S32x32 main_cst_44
  let main_v116 : IVec S32x32 1 := cmpf .olt main_v114 main_v115
  let main_c_45 : IVec S_ 1 := constantI S_ 1 1#1
  let main_v117 : IVec S_ 1 := (fun x v => Host.reduce IntOp.andi x v reducesTo_S32x32_S_d0_1 h_S_) main_v116 main_c_45
  let main_v118 : IVec S_ 1 := andi main_v113 main_v117
  let main_v119 : FVec F S32 .f32 := Host.absf main_arg25
  fn_part7 (F := F) main_arg26 main_arg27 main_v118 main_v119

def fn_part5 {F : FTy → Type} [FloatOps F] (main_arg19 : FVec F S32 .f32) (main_arg20 : FVec F S32x32 .f32) (main_arg21 : FVec F S32 .f32) (main_arg22 : FVec F S32x32 .f32) (main_arg23 : FVec F S32 .f32) (main_arg24 : FVec F S32x32 .f32) (main_arg25 : FVec F S32 .f32) (main_arg26 : FVec F S32x1 .f32) (main_arg27 : FVec F S1 .f32) (main_v83 : IVec S_ 1) (main_v84 : FVec F S32x32 .f32) (main_cst_32 : FVec F S_ .f32) : IVec S_ 1 :=
  let main_v85 : FVec F S32x32 .f32 := broadcastInDim S32x32 ![] bcast_S_S32x32 main_cst_32
  let main_v86 : IVec S32x32 1 := cmpf .olt main_v84 main_v85
  let main_c_33 : IVec S_ 1 := constantI S_ 1 1#1
  let main_v87 : IVec S_ 1 := (fun x v => Host.reduce IntOp.andi x v reducesTo_S32x32_S_d0_1 h_S_) main_v86 main_c_33
  let main_v88 : IVec S_ 1 := andi main_v83 main_v87
  let main_v89 : FVec F S32 .f32 := Host.absf main_arg19
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x32 .f32 := Host.absf main_arg20
  let main_cst_36 : FVec F S_ .f32 := constant S_ .f32 0x7F800000#32
  let main_v95 : FVec F S32x32 .f32 := broadcastInDim S32x32 ![] bcast_S_S32x32 main_cst_36
  let main_v96 : IVec S32x32 1 := cmpf .olt main_v94 main_v95
  let main_c_37 : IVec S_ 1 := constantI S_ 1 1#1
  let main_v97 : IVec S_ 1 := (fun x v => Host.reduce IntOp.andi x v reducesTo_S32x32_S_d0_1 h_S_) main_v96 main_c_37
  let main_v98 : IVec S_ 1 := andi main_v93 main_v97
  let main_v99 : FVec F S32 .f32 := Host.absf main_arg21
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg22 main_arg23 main_arg24 main_arg25 main_arg26 main_arg27 main_v98 main_v101 main_c_39

def fn_part4 {F : FTy → Type} [FloatOps F] (main_arg15 : FVec F S32 .f32) (main_arg16 : FVec F S32x32 .f32) (main_arg17 : FVec F S32 .f32) (main_arg18 : FVec F S32x32 .f32) (main_arg19 : FVec F S32 .f32) (main_arg20 : FVec F S32x32 .f32) (main_arg21 : FVec F S32 .f32) (main_arg22 : FVec F S32x32 .f32) (main_arg23 : FVec F S32 .f32) (main_arg24 : FVec F S32x32 .f32) (main_arg25 : FVec F S32 .f32) (main_arg26 : FVec F S32x1 .f32) (main_arg27 : FVec F S1 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x32 .f32 := Host.absf main_arg16
  let main_cst_28 : FVec F S_ .f32 := constant S_ .f32 0x7F800000#32
  let main_v75 : FVec F S32x32 .f32 := broadcastInDim S32x32 ![] bcast_S_S32x32 main_cst_28
  let main_v76 : IVec S32x32 1 := cmpf .olt main_v74 main_v75
  let main_c_29 : IVec S_ 1 := constantI S_ 1 1#1
  let main_v77 : IVec S_ 1 := (fun x v => Host.reduce IntOp.andi x v reducesTo_S32x32_S_d0_1 h_S_) main_v76 main_c_29
  let main_v78 : IVec S_ 1 := andi main_v73 main_v77
  let main_v79 : FVec F S32 .f32 := Host.absf main_arg17
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x32 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_v83 main_v84 main_cst_32

def fn_part3 {F : FTy → Type} [FloatOps F] (main_arg12 : FVec F S128x32 .f32) (main_arg13 : FVec F S32 .f32) (main_arg14 : FVec F S32x32 .f32) (main_arg15 : FVec F S32 .f32) (main_arg16 : FVec F S32x32 .f32) (main_arg17 : FVec F S32 .f32) (main_arg18 : FVec F S32x32 .f32) (main_arg19 : FVec F S32 .f32) (main_arg20 : FVec F S32x32 .f32) (main_arg21 : FVec F S32 .f32) (main_arg22 : FVec F S32x32 .f32) (main_arg23 : FVec F S32 .f32) (main_arg24 : FVec F S32x32 .f32) (main_arg25 : FVec F S32 .f32) (main_arg26 : FVec F S32x1 .f32) (main_arg27 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S128x32 .f32 := Host.absf main_arg12
  let main_cst_20 : FVec F S_ .f32 := constant S_ .f32 0x7F800000#32
  let main_v55 : FVec F S128x32 .f32 := broadcastInDim S128x32 ![] bcast_S_S128x32 main_cst_20
  let main_v56 : IVec S128x32 1 := cmpf .olt main_v54 main_v55
  let main_c_21 : IVec S_ 1 := constantI S_ 1 1#1
  let main_v57 : IVec S_ 1 := (fun x v => Host.reduce IntOp.andi x v reducesTo_S128x32_S_d0_1 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x32 .f32 := Host.absf main_arg14
  let main_cst_24 : FVec F S_ .f32 := constant S_ .f32 0x7F800000#32
  let main_v65 : FVec F S32x32 .f32 := broadcastInDim S32x32 ![] bcast_S_S32x32 main_cst_24
  let main_v66 : IVec S32x32 1 := cmpf .olt main_v64 main_v65
  let main_c_25 : IVec S_ 1 := constantI S_ 1 1#1
  let main_v67 : IVec S_ 1 := (fun x v => Host.reduce IntOp.andi x v reducesTo_S32x32_S_d0_1 h_S_) main_v66 main_c_25
  fn_part4 (F := F) main_arg15 main_arg16 main_arg17 main_arg18 main_arg19 main_arg20 main_arg21 main_arg22 main_arg23 main_arg24 main_arg25 main_arg26 main_arg27 main_v63 main_v67

def fn_part2 {F : FTy → Type} [FloatOps F] (main_arg8 : FVec F S128x32 .f32) (main_arg9 : FVec F S32 .f32) (main_arg10 : FVec F S128x32 .f32) (main_arg11 : FVec F S32 .f32) (main_arg12 : FVec F S128x32 .f32) (main_arg13 : FVec F S32 .f32) (main_arg14 : FVec F S32x32 .f32) (main_arg15 : FVec F S32 .f32) (main_arg16 : FVec F S32x32 .f32) (main_arg17 : FVec F S32 .f32) (main_arg18 : FVec F S32x32 .f32) (main_arg19 : FVec F S32 .f32) (main_arg20 : FVec F S32x32 .f32) (main_arg21 : FVec F S32 .f32) (main_arg22 : FVec F S32x32 .f32) (main_arg23 : FVec F S32 .f32) (main_arg24 : FVec F S32x32 .f32) (main_arg25 : FVec F S32 .f32) (main_arg26 : FVec F S32x1 .f32) (main_arg27 : FVec F S1 .f32) (main_v33 : IVec S_ 1) : IVec S_ 1 :=
  let main_v34 : FVec F S128x32 .f32 := Host.absf main_arg8
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S128x32 .f32 := Host.absf main_arg10
  let main_cst_16 : FVec F S_ .f32 := constant S_ .f32 0x7F800000#32
  let main_v45 : FVec F S128x32 .f32 := broadcastInDim S128x32 ![] bcast_S_S128x32 main_cst_16
  let main_v46 : IVec S128x32 1 := cmpf .olt main_v44 main_v45
  let main_c_17 : IVec S_ 1 := constantI S_ 1 1#1
  let main_v47 : IVec S_ 1 := (fun x v => Host.reduce IntOp.andi x v reducesTo_S128x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg5 : FVec F S32 .f32) (main_arg6 : FVec F S32x32 .f32) (main_arg7 : FVec F S32 .f32) (main_arg8 : FVec F S128x32 .f32) (main_arg9 : FVec F S32 .f32) (main_arg10 : FVec F S128x32 .f32) (main_arg11 : FVec F S32 .f32) (main_arg12 : FVec F S128x32 .f32) (main_arg13 : FVec F S32 .f32) (main_arg14 : FVec F S32x32 .f32) (main_arg15 : FVec F S32 .f32) (main_arg16 : FVec F S32x32 .f32) (main_arg17 : FVec F S32 .f32) (main_arg18 : FVec F S32x32 .f32) (main_arg19 : FVec F S32 .f32) (main_arg20 : FVec F S32x32 .f32) (main_arg21 : FVec F S32 .f32) (main_arg22 : FVec F S32x32 .f32) (main_arg23 : FVec F S32 .f32) (main_arg24 : FVec F S32x32 .f32) (main_arg25 : FVec F S32 .f32) (main_arg26 : FVec F S32x1 .f32) (main_arg27 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S100000x128 .f32) (main_arg1 : IVec S2x3200000 32) (main_arg2 : FVec F S128x32 .f32) (main_arg3 : FVec F S32 .f32) (main_arg4 : FVec F S32x32 .f32) (main_arg5 : FVec F S32 .f32) (main_arg6 : FVec F S32x32 .f32) (main_arg7 : FVec F S32 .f32) (main_arg8 : FVec F S128x32 .f32) (main_arg9 : FVec F S32 .f32) (main_arg10 : FVec F S128x32 .f32) (main_arg11 : FVec F S32 .f32) (main_arg12 : FVec F S128x32 .f32) (main_arg13 : FVec F S32 .f32) (main_arg14 : FVec F S32x32 .f32) (main_arg15 : FVec F S32 .f32) (main_arg16 : FVec F S32x32 .f32) (main_arg17 : FVec F S32 .f32) (main_arg18 : FVec F S32x32 .f32) (main_arg19 : FVec F S32 .f32) (main_arg20 : FVec F S32x32 .f32) (main_arg21 : FVec F S32 .f32) (main_arg22 : FVec F S32x32 .f32) (main_arg23 : FVec F S32 .f32) (main_arg24 : FVec F S32x32 .f32) (main_arg25 : FVec F S32 .f32) (main_arg26 : FVec F S32x1 .f32) (main_arg27 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S1x32 : Shape := ⟨2, ![1, 32]⟩
abbrev S100000x32 : Shape := ⟨2, ![100000, 32]⟩
abbrev S5000x128 : Shape := ⟨2, ![5000, 128]⟩
abbrev S5000x32 : Shape := ⟨2, ![5000, 32]⟩
abbrev S_ : Shape := ⟨0, ![]⟩
abbrev S3200000x1 : Shape := ⟨2, ![3200000, 1]⟩
abbrev S3200000x32 : Shape := ⟨2, ![3200000, 32]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 97
  | .vmem => 78
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S128x32, .f32⟩
  | .hbm, ⟨9, _⟩ => ⟨S32, .f32⟩
  | .hbm, ⟨10, _⟩ => ⟨S128x32, .f32⟩
  | .hbm, ⟨11, _⟩ => ⟨S32, .f32⟩
  | .hbm, ⟨12, _⟩ => ⟨S128x32, .f32⟩
  | .hbm, ⟨13, _⟩ => ⟨S32, .f32⟩
  | .hbm, ⟨14, _⟩ => ⟨S32x32, .f32⟩
  | .hbm, ⟨15, _⟩ => ⟨S32, .f32⟩
  | .hbm, ⟨16, _⟩ => ⟨S32x32, .f32⟩
  | .hbm, ⟨17, _⟩ => ⟨S32, .f32⟩
  | .hbm, ⟨18, _⟩ => ⟨S32x32, .f32⟩
  | .hbm, ⟨19, _⟩ => ⟨S32, .f32⟩
  | .hbm, ⟨20, _⟩ => ⟨S32x32, .f32⟩
  | .hbm, ⟨21, _⟩ => ⟨S32, .f32⟩
  | .hbm, ⟨22, _⟩ => ⟨S32x32, .f32⟩
  | .hbm, ⟨23, _⟩ => ⟨S32, .f32⟩
  | .hbm, ⟨24, _⟩ => ⟨S32x32, .f32⟩
  | .hbm, ⟨25, _⟩ => ⟨S32, .f32⟩
  | .hbm, ⟨26, _⟩ => ⟨S32x1, .f32⟩
  | .hbm, ⟨27, _⟩ => ⟨S1, .f32⟩
  | .hbm, ⟨28, _⟩ => ⟨S1x3200000, .i32⟩
  | .hbm, ⟨29, _⟩ => ⟨S3200000, .i32⟩
  | .hbm, ⟨30, _⟩ => ⟨S1x3200000, .i32⟩
  | .hbm, ⟨31, _⟩ => ⟨S3200000, .i32⟩
  | .hbm, ⟨32, _⟩ => ⟨S1x32, .f32⟩
  | .hbm, ⟨33, _⟩ => ⟨S1x32, .f32⟩
  | .hbm, ⟨34, _⟩ => ⟨S1x32, .f32⟩
  | .hbm, ⟨35, _⟩ => ⟨S100000x32, .f32⟩
  | .hbm, ⟨36, _⟩ => ⟨S100000x32, .f32⟩
  | .hbm, ⟨37, _⟩ => ⟨S100000x32, .f32⟩
  | .hbm, ⟨38, _⟩ => ⟨S_, .i32⟩
  | .hbm, ⟨39, _⟩ => ⟨S3200000, .i32⟩
  | .hbm, ⟨40, _⟩ => ⟨S3200000, .i1⟩
  | .hbm, ⟨41, _⟩ => ⟨S_, .i32⟩
  | .hbm, ⟨42, _⟩ => ⟨S3200000, .i32⟩
  | .hbm, ⟨43, _⟩ => ⟨S3200000, .i32⟩
  | .hbm, ⟨44, _⟩ => ⟨S3200000, .i32⟩
  | .hbm, ⟨45, _⟩ => ⟨S3200000x1, .i32⟩
  | .hbm, ⟨46, _⟩ => ⟨S3200000x32, .f32⟩
  | .hbm, ⟨47, _⟩ => ⟨S_, .f32⟩
  | .hbm, ⟨48, _⟩ => ⟨S100000x32, .f32⟩
  | .hbm, ⟨49, _⟩ => ⟨S3200000x1, .i32⟩
  | .hbm, ⟨50, _⟩ => ⟨S100000x32, .f32⟩
  | .hbm, ⟨51, _⟩ => ⟨S1x32, .f32⟩
  | .hbm, ⟨52, _⟩ => ⟨S100000x32, .f32⟩
  | .hbm, ⟨53, _⟩ => ⟨S1x32, .f32⟩
  | .hbm, ⟨54, _⟩ => ⟨S1x32, .f32⟩
  | .hbm, ⟨55, _⟩ => ⟨S1x32, .f32⟩
  | .hbm, ⟨56, _⟩ => ⟨S100000x32, .f32⟩
  | .hbm, ⟨57, _⟩ => ⟨S100000x32, .f32⟩
  | .hbm, ⟨58, _⟩ => ⟨S100000x32, .f32⟩
  | .hbm, ⟨59, _⟩ => ⟨S_, .i32⟩
  | .hbm, ⟨60, _⟩ => ⟨S3200000, .i32⟩
  | .hbm, ⟨61, _⟩ => ⟨S3200000, .i1⟩
  | .hbm, ⟨62, _⟩ => ⟨S_, .i32⟩
  | .hbm, ⟨63, _⟩ => ⟨S3200000, .i32⟩
  | .hbm, ⟨64, _⟩ => ⟨S3200000, .i32⟩
  | .hbm, ⟨65, _⟩ => ⟨S3200000, .i32⟩
  | .hbm, ⟨66, _⟩ => ⟨S3200000x1, .i32⟩
  | .hbm, ⟨67, _⟩ => ⟨S3200000x32, .f32⟩
  | .hbm, ⟨68, _⟩ => ⟨S_, .f32⟩
  | .hbm, ⟨69, _⟩ => ⟨S100000x32, .f32⟩
  | .hbm, ⟨70, _⟩ => ⟨S3200000x1, .i32⟩
  | .hbm, ⟨71, _⟩ => ⟨S100000x32, .f32⟩
  | .hbm, ⟨72, _⟩ => ⟨S1x32, .f32⟩
  | .hbm, ⟨73, _⟩ => ⟨S100000x32, .f32⟩
  | .hbm, ⟨74, _⟩ => ⟨S1x32, .f32⟩
  | .hbm, ⟨75, _⟩ => ⟨S1x32, .f32⟩
  | .hbm, ⟨76, _⟩ => ⟨S1x32, .f32⟩
  | .hbm, ⟨77, _⟩ => ⟨S100000x32, .f32⟩
  | .hbm, ⟨78, _⟩ => ⟨S100000x32, .f32⟩
  | .hbm, ⟨79, _⟩ => ⟨S100000x32, .f32⟩
  | .hbm, ⟨80, _⟩ => ⟨S_, .i32⟩
  | .hbm, ⟨81, _⟩ => ⟨S3200000, .i32⟩
  | .hbm, ⟨82, _⟩ => ⟨S3200000, .i1⟩
  | .hbm, ⟨83, _⟩ => ⟨S_, .i32⟩
  | .hbm, ⟨84, _⟩ => ⟨S3200000, .i32⟩
  | .hbm, ⟨85, _⟩ => ⟨S3200000, .i32⟩
  | .hbm, ⟨86, _⟩ => ⟨S3200000, .i32⟩
  | .hbm, ⟨87, _⟩ => ⟨S3200000x1, .i32⟩
  | .hbm, ⟨88, _⟩ => ⟨S3200000x32, .f32⟩
  | .hbm, ⟨89, _⟩ => ⟨S_, .f32⟩
  | .hbm, ⟨90, _⟩ => ⟨S100000x32, .f32⟩
  | .hbm, ⟨91, _⟩ => ⟨S3200000x1, .i32⟩
  | .hbm, ⟨92, _⟩ => ⟨S100000x32, .f32⟩
  | .hbm, ⟨93, _⟩ => ⟨S1x32, .f32⟩
  | .hbm, ⟨94, _⟩ => ⟨S100000x32, .f32⟩
  | .hbm, ⟨95, _⟩ => ⟨S1x1, .f32⟩
  | .hbm, ⟨96, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S1x32, .f32⟩
  | .local _ .vmem, ⟨4, _⟩ => ⟨S128x32, .f32⟩
  | .local _ .vmem, ⟨5, _⟩ => ⟨S128x32, .f32⟩
  | .local _ .vmem, ⟨6, _⟩ => ⟨S1x32, .f32⟩
  | .local _ .vmem, ⟨7, _⟩ => ⟨S128x32, .f32⟩
  | .local _ .vmem, ⟨8, _⟩ => ⟨S1x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S1x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S32x32, .f32⟩
  | .local _ .vmem, ⟨27, _⟩ => ⟨S1x32, .f32⟩
  | .local _ .vmem, ⟨28, _⟩ => ⟨S32x32, .f32⟩
  | .local _ .vmem, ⟨29, _⟩ => ⟨S32x32, .f32⟩
  | .local _ .vmem, ⟨30, _⟩ => ⟨S1x32, .f32⟩
  | .local _ .vmem, ⟨31, _⟩ => ⟨S32x32, .f32⟩
  | .local _ .vmem, ⟨32, _⟩ => ⟨S1x32, .f32⟩
  | .local _ .vmem, ⟨33, _⟩ => ⟨S5000x32, .f32⟩
  | .local _ .vmem, ⟨34, _⟩ => ⟨S5000x32, .f32⟩
  | .local _ .vmem, ⟨35, _⟩ => ⟨S5000x32, .f32⟩
  | .local _ .vmem, ⟨36, _⟩ => ⟨S5000x32, .f32⟩
  | .local _ .vmem, ⟨37, _⟩ => ⟨S5000x32, .f32⟩
  | .local _ .vmem, ⟨38, _⟩ => ⟨S5000x32, .f32⟩
  | .local _ .vmem, ⟨39, _⟩ => ⟨S5000x32, .f32⟩
  | .local _ .vmem, ⟨40, _⟩ => ⟨S5000x32, .f32⟩
  | .local _ .vmem, ⟨41, _⟩ => ⟨S5000x32, .f32⟩
  | .local _ .vmem, ⟨42, _⟩ => ⟨S5000x32, .f32⟩
  | .local _ .vmem, ⟨43, _⟩ => ⟨S5000x32, .f32⟩
  | .local _ .vmem, ⟨44, _⟩ => ⟨S5000x32, .f32⟩
  | .local _ .vmem, ⟨45, _⟩ => ⟨S1x32, .f32⟩
  | .local _ .vmem, ⟨46, _⟩ => ⟨S5000x32, .f32⟩
  | .local _ .vmem, ⟨47, _⟩ => ⟨S5000x32, .f32⟩
  | .local _ .vmem, ⟨48, _⟩ => ⟨S5000x32, .f32⟩
  | .local _ .vmem, ⟨49, _⟩ => ⟨S5000x32, .f32⟩
  | .local _ .vmem, ⟨50, _⟩ => ⟨S32x32, .f32⟩
  | .local _ .vmem, ⟨51, _⟩ => ⟨S1x32, .f32⟩
  | .local _ .vmem, ⟨52, _⟩ => ⟨S32x32, .f32⟩
  | .local _ .vmem, ⟨53, _⟩ => ⟨S32x32, .f32⟩
  | .local _ .vmem, ⟨54, _⟩ => ⟨S1x32, .f32⟩
  | .local _ .vmem, ⟨55, _⟩ => ⟨S32x32, .f32⟩
  | .local _ .vmem, ⟨56, _⟩ => ⟨S1x32, .f32⟩
  | .local _ .vmem, ⟨57, _⟩ => ⟨S5000x32, .f32⟩
  | .local _ .vmem, ⟨58, _⟩ => ⟨S5000x32, .f32⟩
  | .local _ .vmem, ⟨59, _⟩ => ⟨S5000x32, .f32⟩
  | .local _ .vmem, ⟨60, _⟩ => ⟨S5000x32, .f32⟩
  | .local _ .vmem, ⟨61, _⟩ => ⟨S5000x32, .f32⟩
  | .local _ .vmem, ⟨62, _⟩ => ⟨S5000x32, .f32⟩
  | .local _ .vmem, ⟨63, _⟩ => ⟨S5000x32, .f32⟩
  | .local _ .vmem, ⟨64, _⟩ => ⟨S5000x32, .f32⟩
  | .local _ .vmem, ⟨65, _⟩ => ⟨S5000x32, .f32⟩
  | .local _ .vmem, ⟨66, _⟩ => ⟨S5000x32, .f32⟩
  | .local _ .vmem, ⟨67, _⟩ => ⟨S5000x32, .f32⟩
  | .local _ .vmem, ⟨68, _⟩ => ⟨S5000x32, .f32⟩
  | .local _ .vmem, ⟨69, _⟩ => ⟨S1x32, .f32⟩
  | .local _ .vmem, ⟨70, _⟩ => ⟨S5000x32, .f32⟩
  | .local _ .vmem, ⟨71, _⟩ => ⟨S5000x32, .f32⟩
  | .local _ .vmem, ⟨72, _⟩ => ⟨S5000x32, .f32⟩
  | .local _ .vmem, ⟨73, _⟩ => ⟨S5000x32, .f32⟩
  | .local _ .vmem, ⟨74, _⟩ => ⟨S32x1, .f32⟩
  | .local _ .vmem, ⟨75, _⟩ => ⟨S1x1, .f32⟩
  | .local _ .vmem, ⟨76, _⟩ => ⟨S5000x1, .f32⟩
  | .local _ .vmem, ⟨77, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7_0 : Ref sig .tc := ⟨.hbm, 35, rfl⟩
abbrev main_v7_1 : Ref sig .tc := ⟨.hbm, 36, rfl⟩
abbrev main_v7_2 : Ref sig .tc := ⟨.hbm, 37, rfl⟩
abbrev main_c : Ref sig .tc := ⟨.hbm, 38, rfl⟩
abbrev main_v8 : Ref sig .tc := ⟨.hbm, 39, rfl⟩
abbrev main_v9 : Ref sig .tc := ⟨.hbm, 40, rfl⟩
abbrev main_c_0 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23_0 : Ref sig .tc := ⟨.hbm, 56, rfl⟩
abbrev main_v23_1 : Ref sig .tc := ⟨.hbm, 57, rfl⟩
abbrev main_v23_2 : Ref sig .tc := ⟨.hbm, 58, rfl⟩
abbrev main_c_1 : Ref sig .tc := ⟨.hbm, 59, rfl⟩
abbrev main_v24 : Ref sig .tc := ⟨.hbm, 60, rfl⟩
abbrev main_v25 : Ref sig .tc := ⟨.hbm, 61, rfl⟩
abbrev main_c_2 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst_3 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39_0 : Ref sig .tc := ⟨.hbm, 77, rfl⟩
abbrev main_v39_1 : Ref sig .tc := ⟨.hbm, 78, rfl⟩
abbrev main_v39_2 : Ref sig .tc := ⟨.hbm, 79, rfl⟩
abbrev main_c_4 : Ref sig .tc := ⟨.hbm, 80, rfl⟩
abbrev main_v40 : Ref sig .tc := ⟨.hbm, 81, rfl⟩
abbrev main_v41 : Ref sig .tc := ⟨.hbm, 82, rfl⟩
abbrev main_c_5 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_6 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg8_1 : Ref sig .tc := ⟨.vmem, 34, rfl⟩
abbrev cc2_stg9_0 : Ref sig .tc := ⟨.vmem, 35, rfl⟩
abbrev cc2_stg9_1 : Ref sig .tc := ⟨.vmem, 36, rfl⟩
abbrev cc2_stg10_0 : Ref sig .tc := ⟨.vmem, 37, rfl⟩
abbrev cc2_stg10_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg4_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc4_stg7_0 : Ref sig .tc := ⟨.vmem, 56, rfl⟩
abbrev cc4_stg8_0 : Ref sig .tc := ⟨.vmem, 57, rfl⟩
abbrev cc4_stg8_1 : Ref sig .tc := ⟨.vmem, 58, rfl⟩
abbrev cc4_stg9_0 : Ref sig .tc := ⟨.vmem, 59, rfl⟩
abbrev cc4_stg9_1 : Ref sig .tc := ⟨.vmem, 60, rfl⟩
abbrev cc4_stg10_0 : Ref sig .tc := ⟨.vmem, 61, rfl⟩
abbrev cc4_stg10_1 : Ref sig .tc := ⟨.vmem, 62, rfl⟩
abbrev cc5_stg0_0 : Ref sig .tc := ⟨.vmem, 63, rfl⟩
abbrev cc5_stg0_1 : Ref sig .tc := ⟨.vmem, 64, rfl⟩
abbrev cc5_stg1_0 : Ref sig .tc := ⟨.vmem, 65, rfl⟩
abbrev cc5_stg1_1 : Ref sig .tc := ⟨.vmem, 66, rfl⟩
abbrev cc5_stg2_0 : Ref sig .tc := ⟨.vmem, 67, rfl⟩
abbrev cc5_stg2_1 : Ref sig .tc := ⟨.vmem, 68, rfl⟩
abbrev cc5_stg3_0 : Ref sig .tc := ⟨.vmem, 69, rfl⟩
abbrev cc5_stg4_0 : Ref sig .tc := ⟨.vmem, 70, rfl⟩
abbrev cc5_stg4_1 : Ref sig .tc := ⟨.vmem, 71, rfl⟩
abbrev cc6_stg0_0 : Ref sig .tc := ⟨.vmem, 72, rfl⟩
abbrev cc6_stg0_1 : Ref sig .tc := ⟨.vmem, 73, rfl⟩
abbrev cc6_stg1_0 : Ref sig .tc := ⟨.vmem, 74, rfl⟩
abbrev cc6_stg2_0 : Ref sig .tc := ⟨.vmem, 75, rfl⟩
abbrev cc6_stg3_0 : Ref sig .tc := ⟨.vmem, 76, rfl⟩
abbrev cc6_stg3_1 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem4_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem8_1 : DmaSem sig := 34
abbrev cc2_sem9_0 : DmaSem sig := 35
abbrev cc2_sem9_1 : DmaSem sig := 36
abbrev cc2_sem10_0 : DmaSem sig := 37
abbrev cc2_sem10_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem4_0 : DmaSem sig := 46
abbrev cc3_sem4_1 : DmaSem sig := 47
abbrev cc4_sem0_0 : DmaSem sig := 48
abbrev cc4_sem0_1 : DmaSem sig := 49
abbrev cc4_sem1_0 : DmaSem sig := 50
abbrev cc4_sem2_0 : DmaSem sig := 51
abbrev cc4_sem3_0 : DmaSem sig := 52
abbrev cc4_sem4_0 : DmaSem sig := 53
abbrev cc4_sem5_0 : DmaSem sig := 54
abbrev cc4_sem6_0 : DmaSem sig := 55
abbrev cc4_sem7_0 : DmaSem sig := 56
abbrev cc4_sem8_0 : DmaSem sig := 57
abbrev cc4_sem8_1 : DmaSem sig := 58
abbrev cc4_sem9_0 : DmaSem sig := 59
abbrev cc4_sem9_1 : DmaSem sig := 60
abbrev cc4_sem10_0 : DmaSem sig := 61
abbrev cc4_sem10_1 : DmaSem sig := 62
abbrev cc5_sem0_0 : DmaSem sig := 63
abbrev cc5_sem0_1 : DmaSem sig := 64
abbrev cc5_sem1_0 : DmaSem sig := 65
abbrev cc5_sem1_1 : DmaSem sig := 66
abbrev cc5_sem2_0 : DmaSem sig := 67
abbrev cc5_sem2_1 : DmaSem sig := 68
abbrev cc5_sem3_0 : DmaSem sig := 69
abbrev cc5_sem4_0 : DmaSem sig := 70
abbrev cc5_sem4_1 : DmaSem sig := 71
abbrev cc6_sem0_0 : DmaSem sig := 72
abbrev cc6_sem0_1 : DmaSem sig := 73
abbrev cc6_sem1_0 : DmaSem sig := 74
abbrev cc6_sem2_0 : DmaSem sig := 75
abbrev cc6_sem3_0 : DmaSem sig := 76
abbrev cc6_sem3_1 : DmaSem sig := 77

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S5000x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x32 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S5000x32 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S5000x32 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S32x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x32 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S5000x32 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S5000x32 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S5000x32 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  shapeCasts_S32_S1x32 : S32.ShapeCasts S1x32
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x32 : S_.BroadcastsInDim S100000x32 (![] : Fin 0 → Fin S100000x32.rank)
  shapeCasts_S5000x32_S5000x32 : S5000x32.ShapeCasts S5000x32
  inb_S32x32_S32x32_0_0 : ∀ a, (![0, 0] : Fin 2 → Nat) a + S32x32.size a ≤ S32x32.size a
  h_S32x32 : 0 < S32x32.numel
  shapeCasts_S1_S1x1 : S1.ShapeCasts S1x1
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S5000x128_S128x32_S5000x32_1_0_0_1_n_n_wf : DotDims.WF S5000x128 S128x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x32_S5000x32_1_0_0_1_n_n_wf : DotDims.WF S5000x32 S32x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S128x32.size a
  hwx0_4 : ∀ i : grid0.Coords, EltTy.bits .f32 = 32 ∨ (Rect.block (s := S128x32) S128x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x32.size a ≤ S128x32.size a
  hwx0_6 : ∀ i : grid0.Coords, EltTy.bits .f32 = 32 ∨ (Rect.block (s := S128x32) S128x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x32.size a ≤ S100000x32.size a
  hwx0_8 : ∀ i : grid0.Coords, EltTy.bits .f32 = 32 ∨ (Rect.block (s := S100000x32) S5000x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x32.size a ≤ S100000x32.size a
  hwx0_9 : ∀ i : grid0.Coords, EltTy.bits .f32 = 32 ∨ (Rect.block (s := S100000x32) S5000x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x32.size a ≤ S100000x32.size a
  hwx0_10 : ∀ i : grid0.Coords, EltTy.bits .f32 = 32 ∨ (Rect.block (s := S100000x32) S5000x32.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .f32 = 32 ∨ (Rect.block (s := S100000x32) S5000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x32.size a ≤ S32x32.size a
  hwx2_4 : ∀ i : grid2.Coords, EltTy.bits .f32 = 32 ∨ (Rect.block (s := S32x32) S32x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32x32.size a ≤ S32x32.size a
  hwx2_6 : ∀ i : grid2.Coords, EltTy.bits .f32 = 32 ∨ (Rect.block (s := S32x32) S32x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x32.size a ≤ S100000x32.size a
  hwx2_8 : ∀ i : grid2.Coords, EltTy.bits .f32 = 32 ∨ (Rect.block (s := S100000x32) S5000x32.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x32.size a ≤ S100000x32.size a
  hwx2_9 : ∀ i : grid2.Coords, EltTy.bits .f32 = 32 ∨ (Rect.block (s := S100000x32) S5000x32.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x32.size a ≤ S100000x32.size a
  hwx2_10 : ∀ i : grid2.Coords, EltTy.bits .f32 = 32 ∨ (Rect.block (s := S100000x32) S5000x32.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S100000x32.size a
  hwx3_1 : ∀ i : grid3.Coords, EltTy.bits .f32 = 32 ∨ (Rect.block (s := S100000x32) S5000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x32.size a ≤ S100000x32.size a
  hwx3_4 : ∀ i : grid3.Coords, EltTy.bits .f32 = 32 ∨ (Rect.block (s := S100000x32) S5000x32.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x32.size a ≤ S32x32.size a
  hwx4_1 : ∀ i : grid4.Coords, EltTy.bits .f32 = 32 ∨ (Rect.block (s := S32x32) S32x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x32.size a ≤ S32x32.size a
  hwx4_3 : ∀ i : grid4.Coords, EltTy.bits .f32 = 32 ∨ (Rect.block (s := S32x32) S32x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32x32.size a ≤ S32x32.size a
  hwx4_4 : ∀ i : grid4.Coords, EltTy.bits .f32 = 32 ∨ (Rect.block (s := S32x32) S32x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x32.size a ≤ S1x32.size a
  hwx4_5 : ∀ i : grid4.Coords, EltTy.bits .f32 = 32 ∨ (Rect.block (s := S1x32) S1x32.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S32x32.size a ≤ S32x32.size a
  hwx4_6 : ∀ i : grid4.Coords, EltTy.bits .f32 = 32 ∨ (Rect.block (s := S32x32) S32x32.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x32.size a ≤ S1x32.size a
  hwx4_7 : ∀ i : grid4.Coords, EltTy.bits .f32 = 32 ∨ (Rect.block (s := S1x32) S1x32.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x32.size a ≤ S100000x32.size a
  hwx4_8 : ∀ i : grid4.Coords, EltTy.bits .f32 = 32 ∨ (Rect.block (s := S100000x32) S5000x32.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S5000x32.size a ≤ S100000x32.size a
  hwx4_9 : ∀ i : grid4.Coords, EltTy.bits .f32 = 32 ∨ (Rect.block (s := S100000x32) S5000x32.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S5000x32.size a ≤ S100000x32.size a
  hwx4_10 : ∀ i : grid4.Coords, EltTy.bits .f32 = 32 ∨ (Rect.block (s := S100000x32) S5000x32.size (cc4_transform_10 i) (hinb4_10 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x32.size a ≤ S100000x32.size a
  hwx5_1 : ∀ i : grid5.Coords, EltTy.bits .f32 = 32 ∨ (Rect.block (s := S100000x32) S5000x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x32.size a ≤ S100000x32.size a
  hwx5_2 : ∀ i : grid5.Coords, EltTy.bits .f32 = 32 ∨ (Rect.block (s := S100000x32) S5000x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x32.size a ≤ S100000x32.size a
  hwx5_4 : ∀ i : grid5.Coords, EltTy.bits .f32 = 32 ∨ (Rect.block (s := S100000x32) S5000x32.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S100000x32.size a
  hwx6_0 : ∀ i : grid6.Coords, EltTy.bits .f32 = 32 ∨ (Rect.block (s := S100000x32) S5000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x1.size a ≤ S32x1.size a
  hwx6_1 : ∀ i : grid6.Coords, EltTy.bits .f32 = 32 ∨ (Rect.block (s := S32x1) S32x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x1.size a ≤ S100000x1.size a
  hwx6_3 : ∀ i : grid6.Coords, EltTy.bits .f32 = 32 ∨ (Rect.block (s := S100000x1) S5000x1.size (cc6_transform_3 i) (hinb6_3 i)).WholeWords (EltTy.packing .f32)

variable [Facts₀]

def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S128x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg12) S128x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7_0) S5000x32.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_1) S5000x32.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v7_2) S5000x32.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v7_0) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_2) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v19) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg14) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S32x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg18) S32x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v22) S1x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v23_0) S5000x32.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v23_1) S5000x32.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v23_2) S5000x32.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v23_0) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23_2) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v33) S5000x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v34) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v35) S5000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v35) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg20) S32x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v36) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg6) S32x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg22) S32x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v37) S1x32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg24) S32x32.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v38) S1x32.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v39_0) S5000x32.size cc4_transform_8 reads4_8 true false 2 stage4_8 sem4_8
    hrank4 hreads4_8 hinb4_8 nbuf4_8 (Memref.isWhole_whole _) hwx4_8 hstage4_8

abbrev win4_9 : Pipeline.Window sig grid4 :=
  Pipeline.Window.ofSpec (Memref.whole main_v39_1) S5000x32.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v39_2) S5000x32.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v39_0) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v39_2) S5000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v49) S5000x32.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v50) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v51) S5000x32.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v51) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg26) S32x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v52) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v53) S5000x1.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S100000x32 : Shape := ⟨2, ![100000, 32]⟩
abbrev S1x32 : Shape := ⟨2, ![1, 32]⟩
abbrev S_ : Shape := ⟨0, ![]⟩
abbrev S3200000x1 : Shape := ⟨2, ![3200000, 1]⟩
abbrev S3200000x32 : Shape := ⟨2, ![3200000, 32]⟩
abbrev S100000x1 : Shape := ⟨2, ![100000, 1]⟩
abbrev S1x1 : Shape := ⟨2, ![1, 1]⟩

abbrev nBuf : Space → Nat
  | .hbm => 159
  | .vmem => 0
  | .smem => 0
  | _ => 0

abbrev hbmTy0_0 (i : Nat) : BufTy := match i % 128 with
  | 0 => ⟨S100000x128, .f32⟩
  | 1 => ⟨S2x3200000, .i32⟩
  | 2 => ⟨S128x32, .f32⟩
  | 3 => ⟨S32, .f32⟩
  | 4 => ⟨S32x32, .f32⟩
  | 5 => ⟨S32, .f32⟩
  | 6 => ⟨S32x32, .f32⟩
  | 7 => ⟨S32, .f32⟩
  | 8 => ⟨S128x32, .f32⟩
  | 9 => ⟨S32, .f32⟩
  | 10 => ⟨S128x32, .f32⟩
  | 11 => ⟨S32, .f32⟩
  | 12 => ⟨S128x32, .f32⟩
  | 13 => ⟨S32, .f32⟩
  | 14 => ⟨S32x32, .f32⟩
  | 15 => ⟨S32, .f32⟩
  | 16 => ⟨S32x32, .f32⟩
  | 17 => ⟨S32, .f32⟩
  | 18 => ⟨S32x32, .f32⟩
  | 19 => ⟨S32, .f32⟩
  | 20 => ⟨S32x32, .f32⟩
  | 21 => ⟨S32, .f32⟩
  | 22 => ⟨S32x32, .f32⟩
  | 23 => ⟨S32, .f32⟩
  | 24 => ⟨S32x32, .f32⟩
  | 25 => ⟨S32, .f32⟩
  | 26 => ⟨S32x1, .f32⟩
  | 27 => ⟨S1, .f32⟩
  | 28 => ⟨S1x3200000, .i32⟩
  | 29 => ⟨S3200000, .i32⟩
  | 30 => ⟨S1x3200000, .i32⟩
  | 31 => ⟨S3200000, .i32⟩
  | 32 => ⟨S100000x32, .f32⟩
  | 33 => ⟨S1x32, .f32⟩
  | 34 => ⟨S100000x32, .f32⟩
  | 35 => ⟨S100000x32, .f32⟩
  | 36 => ⟨S_, .f32⟩
  | 37 => ⟨S100000x32, .f32⟩
  | 38 => ⟨S100000x32, .f32⟩
  | 39 => ⟨S100000x32, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000x32, .f32⟩
  | 49 => ⟨S_, .f32⟩
  | 50 => ⟨S100000x32, .f32⟩
  | 51 => ⟨S3200000x1, .i32⟩
  | 52 => ⟨S100000x32, .f32⟩
  | 53 => ⟨S1x32, .f32⟩
  | 54 => ⟨S100000x32, .f32⟩
  | 55 => ⟨S100000x32, .f32⟩
  | 56 => ⟨S_, .f32⟩
  | 57 => ⟨S100000x32, .f32⟩
  | 58 => ⟨S100000x32, .f32⟩
  | 59 => ⟨S100000x32, .f32⟩
  | 60 => ⟨S100000x32, .f32⟩
  | 61 => ⟨S1x32, .f32⟩
  | 62 => ⟨S100000x32, .f32⟩
  | 63 => ⟨S100000x32, .f32⟩
  | 64 => ⟨S100000x32, .f32⟩
  | 65 => ⟨S1x32, .f32⟩
  | 66 => ⟨S100000x32, .f32⟩
  | 67 => ⟨S100000x32, .f32⟩
  | 68 => ⟨S100000x32, .f32⟩
  | 69 => ⟨S_, .f32⟩
  | 70 => ⟨S100000x32, .f32⟩
  | 71 => ⟨S100000x32, .f32⟩
  | 72 => ⟨S100000x32, .f32⟩
  | 73 => ⟨S100000x32, .f32⟩
  | 74 => ⟨S1x32, .f32⟩
  | 75 => ⟨S100000x32, .f32⟩
  | 76 => ⟨S100000x32, .f32⟩
  | 77 => ⟨S_, .f32⟩
  | 78 => ⟨S100000x32, .f32⟩
  | 79 => ⟨S100000x32, .f32⟩
  | 80 => ⟨S100000x32, .f32⟩
  | 81 => ⟨S_, .i32⟩
  | 82 => ⟨S3200000, .i32⟩
  | 83 => ⟨S3200000, .i1⟩
  | 84 => ⟨S_, .i32⟩
  | 85 => ⟨S3200000, .i32⟩
  | 86 => ⟨S3200000, .i32⟩
  | 87 => ⟨S3200000, .i32⟩
  | 88 => ⟨S3200000x1, .i32⟩
  | 89 => ⟨S3200000x32, .f32⟩
  | 90 => ⟨S_, .f32⟩
  | 91 => ⟨S100000x32, .f32⟩
  | 92 => ⟨S3200000x1, .i32⟩
  | 93 => ⟨S100000x32, .f32⟩
  | 94 => ⟨S1x32, .f32⟩
  | 95 => ⟨S100000x32, .f32⟩
  | 96 => ⟨S100000x32, .f32⟩
  | 97 => ⟨S_, .f32⟩
  | 98 => ⟨S100000x32, .f32⟩
  | 99 => ⟨S100000x32, .f32⟩
  | 100 => ⟨S100000x32, .f32⟩
  | 101 => ⟨S100000x32, .f32⟩
  | 102 => ⟨S1x32, .f32⟩
  | 103 => ⟨S100000x32, .f32⟩
  | 104 => ⟨S100000x32, .f32⟩
  | 105 => ⟨S100000x32, .f32⟩
  | 106 => ⟨S1x32, .f32⟩
  | 107 => ⟨S100000x32, .f32⟩
  | 108 => ⟨S100000x32, .f32⟩
  | 109 => ⟨S100000x32, .f32⟩
  | 110 => ⟨S_, .f32⟩
  | 111 => ⟨S100000x32, .f32⟩
  | 112 => ⟨S100000x32, .f32⟩
  | 113 => ⟨S100000x32, .f32⟩
  | 114 => ⟨S100000x32, .f32⟩
  | 115 => ⟨S1x32, .f32⟩
  | 116 => ⟨S100000x32, .f32⟩
  | 117 => ⟨S100000x32, .f32⟩
  | 118 => ⟨S_, .f32⟩
  | 119 => ⟨S100000x32, .f32⟩
  | 120 => ⟨S100000x32, .f32⟩
  | 121 => ⟨S100000x32, .f32⟩
  | 122 => ⟨S_, .i32⟩
  | 123 => ⟨S3200000, .i32⟩
  | 124 => ⟨S3200000, .i1⟩
  | 125 => ⟨S_, .i32⟩
  | 126 => ⟨S3200000, .i32⟩
  | 127 => ⟨S3200000, .i32⟩
  | _ => ⟨S100000x128, .f32⟩

abbrev hbmTy0_1 (i : Nat) : BufTy := match i % 128 with
  | 0 => ⟨S3200000, .i32⟩
  | 1 => ⟨S3200000x1, .i32⟩
  | 2 => ⟨S3200000x32, .f32⟩
  | 3 => ⟨S_, .f32⟩
  | 4 => ⟨S100000x32, .f32⟩
  | 5 => ⟨S3200000x1, .i32⟩
  | 6 => ⟨S100000x32, .f32⟩
  | 7 => ⟨S1x32, .f32⟩
  | 8 => ⟨S100000x32, .f32⟩
  | 9 => ⟨S100000x32, .f32⟩
  | 10 => ⟨S_, .f32⟩
  | 11 => ⟨S100000x32, .f32⟩
  | 12 => ⟨S100000x32, .f32⟩
  | 13 => ⟨S100000x32, .f32⟩
  | 14 => ⟨S100000x32, .f32⟩
  | 15 => ⟨S1x32, .f32⟩
  | 16 => ⟨S100000x32, .f32⟩
  | 17 => ⟨S100000x32, .f32⟩
  | 18 => ⟨S100000x32, .f32⟩
  | 19 => ⟨S1x32, .f32⟩
  | 20 => ⟨S100000x32, .f32⟩
  | 21 => ⟨S100000x32, .f32⟩
  | 22 => ⟨S100000x32, .f32⟩
  | 23 => ⟨S_, .f32⟩
  | 24 => ⟨S100000x32, .f32⟩
  | 25 => ⟨S100000x32, .f32⟩
  | 26 => ⟨S100000x32, .f32⟩
  | 27 => ⟨S100000x1, .f32⟩
  | 28 => ⟨S1x1, .f32⟩
  | 29 => ⟨S100000x1, .f32⟩
  | 30 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_call0_cst : Ref sig .tc := ⟨.hbm, 36, rfl⟩
abbrev main_call0_v0 : Ref sig .tc := ⟨.hbm, 37, rfl⟩
abbrev main_v8 : Ref sig .tc := ⟨.hbm, 38, rfl⟩
abbrev main_v9 : Ref sig .tc := ⟨.hbm, 39, rfl⟩
abbrev main_c : Ref sig .tc := ⟨.hbm, 40, rfl⟩
abbrev main_v10 : Ref sig .tc := ⟨.hbm, 41, rfl⟩
abbrev main_v11 : Ref sig .tc := ⟨.hbm, 42, rfl⟩
abbrev main_c_0 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_call1_cst : Ref sig .tc := ⟨.hbm, 56, rfl⟩
abbrev main_call1_v0 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_call2_cst : Ref sig .tc := ⟨.hbm, 69, rfl⟩
abbrev main_call2_v0 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_call3_cst : Ref sig .tc := ⟨.hbm, 77, rfl⟩
abbrev main_call3_v0 : Ref sig .tc := ⟨.hbm, 78, rfl⟩
abbrev main_v40 : Ref sig .tc := ⟨.hbm, 79, rfl⟩
abbrev main_v41 : Ref sig .tc := ⟨.hbm, 80, rfl⟩
abbrev main_c_1 : Ref sig .tc := ⟨.hbm, 81, rfl⟩
abbrev main_v42 : Ref sig .tc := ⟨.hbm, 82, rfl⟩
abbrev main_v43 : Ref sig .tc := ⟨.hbm, 83, rfl⟩
abbrev main_c_2 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_cst_3 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_call4_cst : Ref sig .tc := ⟨.hbm, 97, rfl⟩
abbrev main_call4_v0 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_call5_cst : Ref sig .tc := ⟨.hbm, 110, rfl⟩
abbrev main_call5_v0 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_call6_cst : Ref sig .tc := ⟨.hbm, 118, rfl⟩
abbrev main_call6_v0 : Ref sig .tc := ⟨.hbm, 119, rfl⟩
abbrev main_v72 : Ref sig .tc := ⟨.hbm, 120, rfl⟩
abbrev main_v73 : Ref sig .tc := ⟨.hbm, 121, rfl⟩
abbrev main_c_4 : Ref sig .tc := ⟨.hbm, 122, rfl⟩
abbrev main_v74 : Ref sig .tc := ⟨.hbm, 123, rfl⟩
abbrev main_v75 : Ref sig .tc := ⟨.hbm, 124, rfl⟩
abbrev main_c_5 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_cst_6 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_call7_cst : Ref sig .tc := ⟨.hbm, 138, rfl⟩
abbrev main_call7_v0 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_call8_cst : Ref sig .tc := ⟨.hbm, 151, rfl⟩
abbrev main_call8_v0 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x32_S100000x32_1_0_0_1_n_n_wf : DotDims.WF S100000x128 S128x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x32_S100000x32_1_0_0_1_n_n_wf : DotDims.WF S100000x32 S32x32 S100000x32 [1] [0] [0] [1] [] []
  dot_S100000x32_S32x1_S100000x1_1_0_0_1_n_n_wf : DotDims.WF S100000x32 S32x1 S100000x1 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.Agg.lean ====
/-
  The aggregation over the graph's edges, as the host operations of the kernel's program compute it from the
  edge list `e` (row 0 the source node of each edge, row 1 its destination) and a matrix `hc` with one row per
  node: the source indices are read off row 0 (a negative index wraps around once, as jax indexing does), the rows
  of `hc` at those indices are gathered, one per edge, and scattered, accumulating, into a zero matrix at the
  destination indices of row 1.  The certificate never opens this function: both programs apply it to equal
  matrices.
-/
import proofs.«152414_j64991445123447_1_alg».proof.KernelIdeal
import proofs.«152414_j64991445123447_1_alg».proof.Proof.Gen.KernelIdeal
import Idealize.ShloMosaic.PureOps.Ideal

noncomputable section

namespace Cert.KernelIdeal.Hand

open Cert.KernelIdeal Cert.KernelIdeal.Gen Idealize.ShloMosaic

/-- Row 0 of the edge list as a vector: the source node of each edge. -/
def srcIdx (e : (⟨S2x3200000, .i32⟩ : BufTy).Contents (Elt Ideal)) : (⟨S3200000, .i32⟩ : BufTy).Contents (Elt Ideal) :=
  shapeCast S3200000 (extractStridedSlice S1x3200000 ![0, 0] e slices_S2x3200000_S1x3200000_0_0) shapeCasts_S1x3200000_S3200000

/-- Row 1 of the edge list as a vector: the destination node of each edge. -/
def dstIdx (e : (⟨S2x3200000, .i32⟩ : BufTy).Contents (Elt Ideal)) : (⟨S3200000, .i32⟩ : BufTy).Contents (Elt Ideal) :=
  shapeCast S3200000 (extractStridedSlice S1x3200000 ![1, 0] e slices_S2x3200000_S1x3200000_1_0) shapeCasts_S1x3200000_S3200000

/-- Gather the rows of `hc` at the edges' sources, scatter-add them at the edges' destinations into zeros. -/
def agg (e : (⟨S2x3200000, .i32⟩ : BufTy).Contents (Elt Ideal)) (hc : (⟨S100000x32, .f32⟩ : BufTy).Contents (Elt Ideal)) :
    (⟨S100000x32, .f32⟩ : BufTy).Contents (Elt Ideal) :=
  Host.scatterAdd scatter_S100000x32_S3200000x1_S3200000x32_1_0_0_1
    (broadcastInDim S100000x32 ![] bcast_S_S100000x32 (constant (F := Ideal) S_ .f32 0x00000000#32))
    (broadcastInDim S3200000x1 ![0] bcast_S3200000_S3200000x1_0 (dstIdx e))
    (Host.gather gather_S100000x32_S3200000x1_S3200000x32_1_0_n_n_0_1_132 hc
      (broadcastInDim S3200000x1 ![0] bcast_S3200000_S3200000x1_0
        (select (cmpi .slt (srcIdx e) (broadcastInDim S3200000 ![] bcast_S_S3200000 (constantI S_ 32 0#32)))
          (addi (srcIdx e) (broadcastInDim S3200000 ![] bcast_S_S3200000 (constantI S_ 32 100000#32)))
          (srcIdx e))))

end Cert.KernelIdeal.Hand

end
-- ==== Proof.Chain.lean ====
/-
  The kernel program's run, with what every region finds in its arrays when it is entered.

  The program is seven regions among stretches of host operations.  The contents of the device's buffers at each
  boundary are a fold from the launch memory: a host stretch rewrites the buffers its operations write and
  leaves the rest; a region leaves each of its output arrays at what its write-backs build and everything
  else as entered.  Read backwards through that fold, each array a region reads is one of three things: an
  argument as launched, a reshaped argument, or an earlier region's output — and, for the graph branch, the
  aggregation over the edges of an earlier region's output, which the host computes between the regions.
-/
import proofs.«152414_j64991445123447_1_alg».proof.Proof.KernelIdealFrameP
import proofs.«152414_j64991445123447_1_alg».proof.Proof.Agg
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The run, with the last region's output named -/

set_option backward.isDefEq.respectTransparency.types false in
/-- From any memory with zero counters every weakly fair execution of the program terminates, nothing faulting;
    in every final state the result buffer holds what the last boundary's fold says, and the arguments are as
    launched. -/
theorem run_out : θ_run defs (onTc (τ := τ) (main (F := Ideal))) ⟨m, fun _ => 0, ρ⟩ (fun r => ∀ c : Dev nD,
      r.2.mem ((c.tc : Thread nD τ).loc main_v53) = W14 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v53 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c),
       (h c _ (mem_uc main_arg18 (by decide))).trans (W14_main_arg18 m ρ c),
       (h c _ (mem_uc main_arg19 (by decide))).trans (W14_main_arg19 m ρ c),
       (h c _ (mem_uc main_arg20 (by decide))).trans (W14_main_arg20 m ρ c),
       (h c _ (mem_uc main_arg21 (by decide))).trans (W14_main_arg21 m ρ c),
       (h c _ (mem_uc main_arg22 (by decide))).trans (W14_main_arg22 m ρ c),
       (h c _ (mem_uc main_arg23 (by decide))).trans (W14_main_arg23 m ρ c),
       (h c _ (mem_uc main_arg24 (by decide))).trans (W14_main_arg24 m ρ c),
       (h c _ (mem_uc main_arg25 (by decide))).trans (W14_main_arg25 m ρ c),
       (h c _ (mem_uc main_arg26 (by decide))).trans (W14_main_arg26 m ρ c),
       (h c _ (mem_uc main_arg27 (by decide))).trans (W14_main_arg27 m ρ c)⟩)

/-! ## Steps of the fold -/

/-- A buffer none of a stretch's operations writes keeps its contents through the stretch. -/
local macro "host_keeps " ops:ident b:ident : tactic =>
  `(tactic| exact StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- At launch a buffer holds the launch memory's contents. -/
theorem kW0 (c : Dev nD) (b : Ref sig .tc) : W0 m ρ c (Proc.devRef .tc b) = m ((c : Thread nD τ).loc b) := rfl

/-! ### The arguments a region or a later host stretch reads are still as launched -/

theorem kW1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by host_keeps hostOps0 main_arg0
    _ = m ((c : Thread nD τ).loc main_arg0) := rfl

theorem kW1_arg8 (c : Dev nD) : W1 m ρ c (Proc.devRef .tc main_arg8) = m ((c : Thread nD τ).loc main_arg8) :=
  calc W1 m ρ c (Proc.devRef .tc main_arg8)
    _ = W0 m ρ c (Proc.devRef .tc main_arg8) := by host_keeps hostOps0 main_arg8
    _ = m ((c : Thread nD τ).loc main_arg8) := rfl

theorem kW1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := by host_keeps hostOps0 main_arg2
    _ = m ((c : Thread nD τ).loc main_arg2) := rfl

theorem kW1_arg10 (c : Dev nD) : W1 m ρ c (Proc.devRef .tc main_arg10) = m ((c : Thread nD τ).loc main_arg10) :=
  calc W1 m ρ c (Proc.devRef .tc main_arg10)
    _ = W0 m ρ c (Proc.devRef .tc main_arg10) := by host_keeps hostOps0 main_arg10
    _ = m ((c : Thread nD τ).loc main_arg10) := rfl

theorem kW1_arg12 (c : Dev nD) : W1 m ρ c (Proc.devRef .tc main_arg12) = m ((c : Thread nD τ).loc main_arg12) :=
  calc W1 m ρ c (Proc.devRef .tc main_arg12)
    _ = W0 m ρ c (Proc.devRef .tc main_arg12) := by host_keeps hostOps0 main_arg12
    _ = m ((c : Thread nD τ).loc main_arg12) := rfl

theorem kW2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by host_keeps hostOps0 main_arg3
    _ = m ((c : Thread nD τ).loc main_arg3) := rfl

theorem kW5_arg14 (c : Dev nD) : W5 m ρ c (Proc.devRef .tc main_arg14) = m ((c : Thread nD τ).loc main_arg14) :=
  calc W5 m ρ c (Proc.devRef .tc main_arg14)
    _ = W4 m ρ c (Proc.devRef .tc main_arg14) := by host_keeps hostOps2 main_arg14
    _ = W3 m ρ c (Proc.devRef .tc main_arg14) := W4_of_ne m ρ c main_arg14 (by decide)
    _ = W2 m ρ c (Proc.devRef .tc main_arg14) := by host_keeps hostOps1 main_arg14
    _ = W1 m ρ c (Proc.devRef .tc main_arg14) := W2_of_ne m ρ c main_arg14 (by decide)
    _ = W0 m ρ c (Proc.devRef .tc main_arg14) := by host_keeps hostOps0 main_arg14
    _ = m ((c : Thread nD τ).loc main_arg14) := rfl

theorem kW5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := by host_keeps hostOps2 main_arg4
    _ = W3 m ρ c (Proc.devRef .tc main_arg4) := W4_of_ne m ρ c main_arg4 (by decide)
    _ = W2 m ρ c (Proc.devRef .tc main_arg4) := by host_keeps hostOps1 main_arg4
    _ = W1 m ρ c (Proc.devRef .tc main_arg4) := W2_of_ne m ρ c main_arg4 (by decide)
    _ = W0 m ρ c (Proc.devRef .tc main_arg4) := by host_keeps hostOps0 main_arg4
    _ = m ((c : Thread nD τ).loc main_arg4) := rfl

theorem kW5_arg16 (c : Dev nD) : W5 m ρ c (Proc.devRef .tc main_arg16) = m ((c : Thread nD τ).loc main_arg16) :=
  calc W5 m ρ c (Proc.devRef .tc main_arg16)
    _ = W4 m ρ c (Proc.devRef .tc main_arg16) := by host_keeps hostOps2 main_arg16
    _ = W3 m ρ c (Proc.devRef .tc main_arg16) := W4_of_ne m ρ c main_arg16 (by decide)
    _ = W2 m ρ c (Proc.devRef .tc main_arg16) := by host_keeps hostOps1 main_arg16
    _ = W1 m ρ c (Proc.devRef .tc main_arg16) := W2_of_ne m ρ c main_arg16 (by decide)
    _ = W0 m ρ c (Proc.devRef .tc main_arg16) := by host_keeps hostOps0 main_arg16
    _ = m ((c : Thread nD τ).loc main_arg16) := rfl

theorem kW5_arg18 (c : Dev nD) : W5 m ρ c (Proc.devRef .tc main_arg18) = m ((c : Thread nD τ).loc main_arg18) :=
  calc W5 m ρ c (Proc.devRef .tc main_arg18)
    _ = W4 m ρ c (Proc.devRef .tc main_arg18) := by host_keeps hostOps2 main_arg18
    _ = W3 m ρ c (Proc.devRef .tc main_arg18) := W4_of_ne m ρ c main_arg18 (by decide)
    _ = W2 m ρ c (Proc.devRef .tc main_arg18) := by host_keeps hostOps1 main_arg18
    _ = W1 m ρ c (Proc.devRef .tc main_arg18) := W2_of_ne m ρ c main_arg18 (by decide)
    _ = W0 m ρ c (Proc.devRef .tc main_arg18) := by host_keeps hostOps0 main_arg18
    _ = m ((c : Thread nD τ).loc main_arg18) := rfl

theorem kW4_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := by host_keeps hostOps1 main_arg15
    _ = W1 m ρ c (Proc.devRef .tc main_arg15) := W2_of_ne m ρ c main_arg15 (by decide)
    _ = W0 m ρ c (Proc.devRef .tc main_arg15) := by host_keeps hostOps0 main_arg15
    _ = m ((c : Thread nD τ).loc main_arg15) := rfl

theorem kW4_arg17 (c : Dev nD) : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := by host_keeps hostOps1 main_arg17
    _ = W1 m ρ c (Proc.devRef .tc main_arg17) := W2_of_ne m ρ c main_arg17 (by decide)
    _ = W0 m ρ c (Proc.devRef .tc main_arg17) := by host_keeps hostOps0 main_arg17
    _ = m ((c : Thread nD τ).loc main_arg17) := rfl

theorem kW4_arg19 (c : Dev nD) : W4 m ρ c (Proc.devRef .tc main_arg19) = m ((c : Thread nD τ).loc main_arg19) :=
  calc W4 m ρ c (Proc.devRef .tc main_arg19)
    _ = W3 m ρ c (Proc.devRef .tc main_arg19) := W4_of_ne m ρ c main_arg19 (by decide)
    _ = W2 m ρ c (Proc.devRef .tc main_arg19) := by host_keeps hostOps1 main_arg19
    _ = W1 m ρ c (Proc.devRef .tc main_arg19) := W2_of_ne m ρ c main_arg19 (by decide)
    _ = W0 m ρ c (Proc.devRef .tc main_arg19) := by host_keeps hostOps0 main_arg19
    _ = m ((c : Thread nD τ).loc main_arg19) := rfl

theorem kW6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by host_keeps hostOps2 main_arg5
    _ = W3 m ρ c (Proc.devRef .tc main_arg5) := W4_of_ne m ρ c main_arg5 (by decide)
    _ = W2 m ρ c (Proc.devRef .tc main_arg5) := by host_keeps hostOps1 main_arg5
    _ = W1 m ρ c (Proc.devRef .tc main_arg5) := W2_of_ne m ρ c main_arg5 (by decide)
    _ = W0 m ρ c (Proc.devRef .tc main_arg5) := by host_keeps hostOps0 main_arg5
    _ = m ((c : Thread nD τ).loc main_arg5) := rfl

theorem kW9_arg20 (c : Dev nD) : W9 m ρ c (Proc.devRef .tc main_arg20) = m ((c : Thread nD τ).loc main_arg20) :=
  calc W9 m ρ c (Proc.devRef .tc main_arg20)
    _ = W8 m ρ c (Proc.devRef .tc main_arg20) := by host_keeps hostOps4 main_arg20
    _ = W7 m ρ c (Proc.devRef .tc main_arg20) := W8_of_ne m ρ c main_arg20 (by decide)
    _ = W6 m ρ c (Proc.devRef .tc main_arg20) := by host_keeps hostOps3 main_arg20
    _ = W5 m ρ c (Proc.devRef .tc main_arg20) := W6_of_ne m ρ c main_arg20 (by decide)
    _ = W4 m ρ c (Proc.devRef .tc main_arg20) := by host_keeps hostOps2 main_arg20
    _ = W3 m ρ c (Proc.devRef .tc main_arg20) := W4_of_ne m ρ c main_arg20 (by decide)
    _ = W2 m ρ c (Proc.devRef .tc main_arg20) := by host_keeps hostOps1 main_arg20
    _ = W1 m ρ c (Proc.devRef .tc main_arg20) := W2_of_ne m ρ c main_arg20 (by decide)
    _ = W0 m ρ c (Proc.devRef .tc main_arg20) := by host_keeps hostOps0 main_arg20
    _ = m ((c : Thread nD τ).loc main_arg20) := rfl

theorem kW9_arg6 (c : Dev nD) : W9 m ρ c (Proc.devRef .tc main_arg6) = m ((c : Thread nD τ).loc main_arg6) :=
  calc W9 m ρ c (Proc.devRef .tc main_arg6)
    _ = W8 m ρ c (Proc.devRef .tc main_arg6) := by host_keeps hostOps4 main_arg6
    _ = W7 m ρ c (Proc.devRef .tc main_arg6) := W8_of_ne m ρ c main_arg6 (by decide)
    _ = W6 m ρ c (Proc.devRef .tc main_arg6) := by host_keeps hostOps3 main_arg6
    _ = W5 m ρ c (Proc.devRef .tc main_arg6) := W6_of_ne m ρ c main_arg6 (by decide)
    _ = W4 m ρ c (Proc.devRef .tc main_arg6) := by host_keeps hostOps2 main_arg6
    _ = W3 m ρ c (Proc.devRef .tc main_arg6) := W4_of_ne m ρ c main_arg6 (by decide)
    _ = W2 m ρ c (Proc.devRef .tc main_arg6) := by host_keeps hostOps1 main_arg6
    _ = W1 m ρ c (Proc.devRef .tc main_arg6) := W2_of_ne m ρ c main_arg6 (by decide)
    _ = W0 m ρ c (Proc.devRef .tc main_arg6) := by host_keeps hostOps0 main_arg6
    _ = m ((c : Thread nD τ).loc main_arg6) := rfl

theorem kW9_arg22 (c : Dev nD) : W9 m ρ c (Proc.devRef .tc main_arg22) = m ((c : Thread nD τ).loc main_arg22) :=
  calc W9 m ρ c (Proc.devRef .tc main_arg22)
    _ = W8 m ρ c (Proc.devRef .tc main_arg22) := by host_keeps hostOps4 main_arg22
    _ = W7 m ρ c (Proc.devRef .tc main_arg22) := W8_of_ne m ρ c main_arg22 (by decide)
    _ = W6 m ρ c (Proc.devRef .tc main_arg22) := by host_keeps hostOps3 main_arg22
    _ = W5 m ρ c (Proc.devRef .tc main_arg22) := W6_of_ne m ρ c main_arg22 (by decide)
    _ = W4 m ρ c (Proc.devRef .tc main_arg22) := by host_keeps hostOps2 main_arg22
    _ = W3 m ρ c (Proc.devRef .tc main_arg22) := W4_of_ne m ρ c main_arg22 (by decide)
    _ = W2 m ρ c (Proc.devRef .tc main_arg22) := by host_keeps hostOps1 main_arg22
    _ = W1 m ρ c (Proc.devRef .tc main_arg22) := W2_of_ne m ρ c main_arg22 (by decide)
    _ = W0 m ρ c (Proc.devRef .tc main_arg22) := by host_keeps hostOps0 main_arg22
    _ = m ((c : Thread nD τ).loc main_arg22) := rfl

theorem kW9_arg24 (c : Dev nD) : W9 m ρ c (Proc.devRef .tc main_arg24) = m ((c : Thread nD τ).loc main_arg24) :=
  calc W9 m ρ c (Proc.devRef .tc main_arg24)
    _ = W8 m ρ c (Proc.devRef .tc main_arg24) := by host_keeps hostOps4 main_arg24
    _ = W7 m ρ c (Proc.devRef .tc main_arg24) := W8_of_ne m ρ c main_arg24 (by decide)
    _ = W6 m ρ c (Proc.devRef .tc main_arg24) := by host_keeps hostOps3 main_arg24
    _ = W5 m ρ c (Proc.devRef .tc main_arg24) := W6_of_ne m ρ c main_arg24 (by decide)
    _ = W4 m ρ c (Proc.devRef .tc main_arg24) := by host_keeps hostOps2 main_arg24
    _ = W3 m ρ c (Proc.devRef .tc main_arg24) := W4_of_ne m ρ c main_arg24 (by decide)
    _ = W2 m ρ c (Proc.devRef .tc main_arg24) := by host_keeps hostOps1 main_arg24
    _ = W1 m ρ c (Proc.devRef .tc main_arg24) := W2_of_ne m ρ c main_arg24 (by decide)
    _ = W0 m ρ c (Proc.devRef .tc main_arg24) := by host_keeps hostOps0 main_arg24
    _ = m ((c : Thread nD τ).loc main_arg24) := rfl

theorem kW8_arg21 (c : Dev nD) : W8 m ρ c (Proc.devRef .tc main_arg21) = m ((c : Thread nD τ).loc main_arg21) :=
  calc W8 m ρ c (Proc.devRef .tc main_arg21)
    _ = W7 m ρ c (Proc.devRef .tc main_arg21) := W8_of_ne m ρ c main_arg21 (by decide)
    _ = W6 m ρ c (Proc.devRef .tc main_arg21) := by host_keeps hostOps3 main_arg21
    _ = W5 m ρ c (Proc.devRef .tc main_arg21) := W6_of_ne m ρ c main_arg21 (by decide)
    _ = W4 m ρ c (Proc.devRef .tc main_arg21) := by host_keeps hostOps2 main_arg21
    _ = W3 m ρ c (Proc.devRef .tc main_arg21) := W4_of_ne m ρ c main_arg21 (by decide)
    _ = W2 m ρ c (Proc.devRef .tc main_arg21) := by host_keeps hostOps1 main_arg21
    _ = W1 m ρ c (Proc.devRef .tc main_arg21) := W2_of_ne m ρ c main_arg21 (by decide)
    _ = W0 m ρ c (Proc.devRef .tc main_arg21) := by host_keeps hostOps0 main_arg21
    _ = m ((c : Thread nD τ).loc main_arg21) := rfl

theorem kW8_arg23 (c : Dev nD) : W8 m ρ c (Proc.devRef .tc main_arg23) = m ((c : Thread nD τ).loc main_arg23) :=
  calc W8 m ρ c (Proc.devRef .tc main_arg23)
    _ = W7 m ρ c (Proc.devRef .tc main_arg23) := W8_of_ne m ρ c main_arg23 (by decide)
    _ = W6 m ρ c (Proc.devRef .tc main_arg23) := by host_keeps hostOps3 main_arg23
    _ = W5 m ρ c (Proc.devRef .tc main_arg23) := W6_of_ne m ρ c main_arg23 (by decide)
    _ = W4 m ρ c (Proc.devRef .tc main_arg23) := by host_keeps hostOps2 main_arg23
    _ = W3 m ρ c (Proc.devRef .tc main_arg23) := W4_of_ne m ρ c main_arg23 (by decide)
    _ = W2 m ρ c (Proc.devRef .tc main_arg23) := by host_keeps hostOps1 main_arg23
    _ = W1 m ρ c (Proc.devRef .tc main_arg23) := W2_of_ne m ρ c main_arg23 (by decide)
    _ = W0 m ρ c (Proc.devRef .tc main_arg23) := by host_keeps hostOps0 main_arg23
    _ = m ((c : Thread nD τ).loc main_arg23) := rfl

theorem kW8_arg25 (c : Dev nD) : W8 m ρ c (Proc.devRef .tc main_arg25) = m ((c : Thread nD τ).loc main_arg25) :=
  calc W8 m ρ c (Proc.devRef .tc main_arg25)
    _ = W7 m ρ c (Proc.devRef .tc main_arg25) := W8_of_ne m ρ c main_arg25 (by decide)
    _ = W6 m ρ c (Proc.devRef .tc main_arg25) := by host_keeps hostOps3 main_arg25
    _ = W5 m ρ c (Proc.devRef .tc main_arg25) := W6_of_ne m ρ c main_arg25 (by decide)
    _ = W4 m ρ c (Proc.devRef .tc main_arg25) := by host_keeps hostOps2 main_arg25
    _ = W3 m ρ c (Proc.devRef .tc main_arg25) := W4_of_ne m ρ c main_arg25 (by decide)
    _ = W2 m ρ c (Proc.devRef .tc main_arg25) := by host_keeps hostOps1 main_arg25
    _ = W1 m ρ c (Proc.devRef .tc main_arg25) := W2_of_ne m ρ c main_arg25 (by decide)
    _ = W0 m ρ c (Proc.devRef .tc main_arg25) := by host_keeps hostOps0 main_arg25
    _ = m ((c : Thread nD τ).loc main_arg25) := rfl

theorem kW10_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := by host_keeps hostOps4 main_arg7
    _ = W7 m ρ c (Proc.devRef .tc main_arg7) := W8_of_ne m ρ c main_arg7 (by decide)
    _ = W6 m ρ c (Proc.devRef .tc main_arg7) := by host_keeps hostOps3 main_arg7
    _ = W5 m ρ c (Proc.devRef .tc main_arg7) := W6_of_ne m ρ c main_arg7 (by decide)
    _ = W4 m ρ c (Proc.devRef .tc main_arg7) := by host_keeps hostOps2 main_arg7
    _ = W3 m ρ c (Proc.devRef .tc main_arg7) := W4_of_ne m ρ c main_arg7 (by decide)
    _ = W2 m ρ c (Proc.devRef .tc main_arg7) := by host_keeps hostOps1 main_arg7
    _ = W1 m ρ c (Proc.devRef .tc main_arg7) := W2_of_ne m ρ c main_arg7 (by decide)
    _ = W0 m ρ c (Proc.devRef .tc main_arg7) := by host_keeps hostOps0 main_arg7
    _ = m ((c : Thread nD τ).loc main_arg7) := rfl

theorem kW13_arg26 (c : Dev nD) : W13 m ρ c (Proc.devRef .tc main_arg26) = m ((c : Thread nD τ).loc main_arg26) :=
  calc W13 m ρ c (Proc.devRef .tc main_arg26)
    _ = W12 m ρ c (Proc.devRef .tc main_arg26) := by host_keeps hostOps6 main_arg26
    _ = W11 m ρ c (Proc.devRef .tc main_arg26) := W12_of_ne m ρ c main_arg26 (by decide)
    _ = W10 m ρ c (Proc.devRef .tc main_arg26) := by host_keeps hostOps5 main_arg26
    _ = W9 m ρ c (Proc.devRef .tc main_arg26) := W10_of_ne m ρ c main_arg26 (by decide)
    _ = W8 m ρ c (Proc.devRef .tc main_arg26) := by host_keeps hostOps4 main_arg26
    _ = W7 m ρ c (Proc.devRef .tc main_arg26) := W8_of_ne m ρ c main_arg26 (by decide)
    _ = W6 m ρ c (Proc.devRef .tc main_arg26) := by host_keeps hostOps3 main_arg26
    _ = W5 m ρ c (Proc.devRef .tc main_arg26) := W6_of_ne m ρ c main_arg26 (by decide)
    _ = W4 m ρ c (Proc.devRef .tc main_arg26) := by host_keeps hostOps2 main_arg26
    _ = W3 m ρ c (Proc.devRef .tc main_arg26) := W4_of_ne m ρ c main_arg26 (by decide)
    _ = W2 m ρ c (Proc.devRef .tc main_arg26) := by host_keeps hostOps1 main_arg26
    _ = W1 m ρ c (Proc.devRef .tc main_arg26) := W2_of_ne m ρ c main_arg26 (by decide)
    _ = W0 m ρ c (Proc.devRef .tc main_arg26) := by host_keeps hostOps0 main_arg26
    _ = m ((c : Thread nD τ).loc main_arg26) := rfl

theorem kW12_arg27 (c : Dev nD) : W12 m ρ c (Proc.devRef .tc main_arg27) = m ((c : Thread nD τ).loc main_arg27) :=
  calc W12 m ρ c (Proc.devRef .tc main_arg27)
    _ = W11 m ρ c (Proc.devRef .tc main_arg27) := W12_of_ne m ρ c main_arg27 (by decide)
    _ = W10 m ρ c (Proc.devRef .tc main_arg27) := by host_keeps hostOps5 main_arg27
    _ = W9 m ρ c (Proc.devRef .tc main_arg27) := W10_of_ne m ρ c main_arg27 (by decide)
    _ = W8 m ρ c (Proc.devRef .tc main_arg27) := by host_keeps hostOps4 main_arg27
    _ = W7 m ρ c (Proc.devRef .tc main_arg27) := W8_of_ne m ρ c main_arg27 (by decide)
    _ = W6 m ρ c (Proc.devRef .tc main_arg27) := by host_keeps hostOps3 main_arg27
    _ = W5 m ρ c (Proc.devRef .tc main_arg27) := W6_of_ne m ρ c main_arg27 (by decide)
    _ = W4 m ρ c (Proc.devRef .tc main_arg27) := by host_keeps hostOps2 main_arg27
    _ = W3 m ρ c (Proc.devRef .tc main_arg27) := W4_of_ne m ρ c main_arg27 (by decide)
    _ = W2 m ρ c (Proc.devRef .tc main_arg27) := by host_keeps hostOps1 main_arg27
    _ = W1 m ρ c (Proc.devRef .tc main_arg27) := W2_of_ne m ρ c main_arg27 (by decide)
    _ = W0 m ρ c (Proc.devRef .tc main_arg27) := by host_keeps hostOps0 main_arg27
    _ = m ((c : Thread nD τ).loc main_arg27) := rfl

/-! ### The edge list's two rows, as the first host stretch leaves them, are kept to every later stretch -/

theorem kW1_v1 (c : Dev nD) : W1 m ρ c (Proc.devRef .tc main_v1) = Hand.srcIdx (m ((c : Thread nD τ).loc main_arg1)) := by
  show StableHlo.after hostOps0 (W0 m ρ c) (Proc.devRef .tc main_v1) = _
  after_results
  rfl

theorem kW1_v3 (c : Dev nD) : W1 m ρ c (Proc.devRef .tc main_v3) = Hand.dstIdx (m ((c : Thread nD τ).loc main_arg1)) := by
  show StableHlo.after hostOps0 (W0 m ρ c) (Proc.devRef .tc main_v3) = _
  after_results
  rfl

theorem kW2_v1 (c : Dev nD) : W2 m ρ c (Proc.devRef .tc main_v1) = Hand.srcIdx (m ((c : Thread nD τ).loc main_arg1)) :=
  calc W2 m ρ c (Proc.devRef .tc main_v1)
    _ = W1 m ρ c (Proc.devRef .tc main_v1) := W2_of_ne m ρ c main_v1 (by decide)
    _ = Hand.srcIdx (m ((c : Thread nD τ).loc main_arg1)) := kW1_v1 m ρ c

theorem kW6_v1 (c : Dev nD) : W6 m ρ c (Proc.devRef .tc main_v1) = Hand.srcIdx (m ((c : Thread nD τ).loc main_arg1)) :=
  calc W6 m ρ c (Proc.devRef .tc main_v1)
    _ = W5 m ρ c (Proc.devRef .tc main_v1) := W6_of_ne m ρ c main_v1 (by decide)
    _ = W4 m ρ c (Proc.devRef .tc main_v1) := by host_keeps hostOps2 main_v1
    _ = W3 m ρ c (Proc.devRef .tc main_v1) := W4_of_ne m ρ c main_v1 (by decide)
    _ = W2 m ρ c (Proc.devRef .tc main_v1) := by host_keeps hostOps1 main_v1
    _ = Hand.srcIdx (m ((c : Thread nD τ).loc main_arg1)) := kW2_v1 m ρ c

theorem kW10_v1 (c : Dev nD) : W10 m ρ c (Proc.devRef .tc main_v1) = Hand.srcIdx (m ((c : Thread nD τ).loc main_arg1)) :=
  calc W10 m ρ c (Proc.devRef .tc main_v1)
    _ = W9 m ρ c (Proc.devRef .tc main_v1) := W10_of_ne m ρ c main_v1 (by decide)
    _ = W8 m ρ c (Proc.devRef .tc main_v1) := by host_keeps hostOps4 main_v1
    _ = W7 m ρ c (Proc.devRef .tc main_v1) := W8_of_ne m ρ c main_v1 (by decide)
    _ = W6 m ρ c (Proc.devRef .tc main_v1) := by host_keeps hostOps3 main_v1
    _ = Hand.srcIdx (m ((c : Thread nD τ).loc main_arg1)) := kW6_v1 m ρ c

theorem kW2_v3 (c : Dev nD) : W2 m ρ c (Proc.devRef .tc main_v3) = Hand.dstIdx (m ((c : Thread nD τ).loc main_arg1)) :=
  calc W2 m ρ c (Proc.devRef .tc main_v3)
    _ = W1 m ρ c (Proc.devRef .tc main_v3) := W2_of_ne m ρ c main_v3 (by decide)
    _ = Hand.dstIdx (m ((c : Thread nD τ).loc main_arg1)) := kW1_v3 m ρ c

theorem kW6_v3 (c : Dev nD) : W6 m ρ c (Proc.devRef .tc main_v3) = Hand.dstIdx (m ((c : Thread nD τ).loc main_arg1)) :=
  calc W6 m ρ c (Proc.devRef .tc main_v3)
    _ = W5 m ρ c (Proc.devRef .tc main_v3) := W6_of_ne m ρ c main_v3 (by decide)
    _ = W4 m ρ c (Proc.devRef .tc main_v3) := by host_keeps hostOps2 main_v3
    _ = W3 m ρ c (Proc.devRef .tc main_v3) := W4_of_ne m ρ c main_v3 (by decide)
    _ = W2 m ρ c (Proc.devRef .tc main_v3) := by host_keeps hostOps1 main_v3
    _ = Hand.dstIdx (m ((c : Thread nD τ).loc main_arg1)) := kW2_v3 m ρ c

theorem kW10_v3 (c : Dev nD) : W10 m ρ c (Proc.devRef .tc main_v3) = Hand.dstIdx (m ((c : Thread nD τ).loc main_arg1)) :=
  calc W10 m ρ c (Proc.devRef .tc main_v3)
    _ = W9 m ρ c (Proc.devRef .tc main_v3) := W10_of_ne m ρ c main_v3 (by decide)
    _ = W8 m ρ c (Proc.devRef .tc main_v3) := by host_keeps hostOps4 main_v3
    _ = W7 m ρ c (Proc.devRef .tc main_v3) := W8_of_ne m ρ c main_v3 (by decide)
    _ = W6 m ρ c (Proc.devRef .tc main_v3) := by host_keeps hostOps3 main_v3
    _ = Hand.dstIdx (m ((c : Thread nD τ).loc main_arg1)) := kW6_v3 m ρ c

/-! ## Region 0's entry: the features and the first layer's weights as launched, its three biases as one-row matrices -/

theorem r0_arg0 (c : Dev nD) : V1 m ρ c main_arg0 = m ((c : Thread nD τ).loc main_arg0) := kW1_arg0 m ρ c

theorem r0_arg8 (c : Dev nD) : V1 m ρ c main_arg8 = m ((c : Thread nD τ).loc main_arg8) := kW1_arg8 m ρ c

theorem r0_arg2 (c : Dev nD) : V1 m ρ c main_arg2 = m ((c : Thread nD τ).loc main_arg2) := kW1_arg2 m ρ c

theorem r0_arg10 (c : Dev nD) : V1 m ρ c main_arg10 = m ((c : Thread nD τ).loc main_arg10) := kW1_arg10 m ρ c

theorem r0_arg12 (c : Dev nD) : V1 m ρ c main_arg12 = m ((c : Thread nD τ).loc main_arg12) := kW1_arg12 m ρ c

theorem r0_v4 (c : Dev nD) : V1 m ρ c main_v4 = shapeCast S1x32 (m ((c : Thread nD τ).loc main_arg9)) shapeCasts_S32_S1x32 := by
  show StableHlo.after hostOps0 (W0 m ρ c) (Proc.devRef .tc main_v4) = _
  after_results
  rfl

theorem r0_v5 (c : Dev nD) : V1 m ρ c main_v5 = shapeCast S1x32 (m ((c : Thread nD τ).loc main_arg11)) shapeCasts_S32_S1x32 := by
  show StableHlo.after hostOps0 (W0 m ρ c) (Proc.devRef .tc main_v5) = _
  after_results
  rfl

theorem r0_v6 (c : Dev nD) : V1 m ρ c main_v6 = shapeCast S1x32 (m ((c : Thread nD τ).loc main_arg13)) shapeCasts_S32_S1x32 := by
  show StableHlo.after hostOps0 (W0 m ρ c) (Proc.devRef .tc main_v6) = _
  after_results
  rfl

/-! ## Region 1's entry: region 0's dense and gated outputs as it left them, the aggregation over the edges of its
    graph-branch product, and the graph-branch bias as a one-row matrix -/

theorem r1_v7_0 (c : Dev nD) : V3 m ρ c main_v7_0 = (dat0 (V1 m ρ) c).arrAt 8 cfg0.N :=
  calc W3 m ρ c (Proc.devRef .tc main_v7_0)
    _ = W2 m ρ c (Proc.devRef .tc main_v7_0) := by host_keeps hostOps1 main_v7_0
    _ = (dat0 (V1 m ρ) c).arrAt 8 cfg0.N := W2_arr m ρ c 8

theorem r1_v7_2 (c : Dev nD) : V3 m ρ c main_v7_2 = (dat0 (V1 m ρ) c).arrAt 10 cfg0.N :=
  calc W3 m ρ c (Proc.devRef .tc main_v7_2)
    _ = W2 m ρ c (Proc.devRef .tc main_v7_2) := by host_keeps hostOps1 main_v7_2
    _ = (dat0 (V1 m ρ) c).arrAt 10 cfg0.N := W2_arr m ρ c 10

theorem r1_v17 (c : Dev nD) : V3 m ρ c main_v17 = Hand.agg (m ((c : Thread nD τ).loc main_arg1)) ((dat0 (V1 m ρ) c).arrAt 9 cfg0.N) := by
  have h9 : W2 m ρ c (Proc.devRef .tc main_v7_1) = (dat0 (V1 m ρ) c).arrAt 9 cfg0.N := W2_arr m ρ c 9
  show StableHlo.after hostOps1 (W2 m ρ c) (Proc.devRef .tc main_v17) = _
  after_results_simp
  rw [kW2_v1 m ρ c, kW2_v3 m ρ c, h9]
  rfl

theorem r1_v18 (c : Dev nD) : V3 m ρ c main_v18 = shapeCast S1x32 (m ((c : Thread nD τ).loc main_arg3)) shapeCasts_S32_S1x32 := by
  show StableHlo.after hostOps1 (W2 m ρ c) (Proc.devRef .tc main_v18) = _
  after_results
  rw [kW2_arg3 m ρ c]
  rfl

/-! ## Region 2's entry: the first layer's result as region 1 left it, the second layer's weights as launched, its
    three biases as one-row matrices -/

theorem r2_v19 (c : Dev nD) : V5 m ρ c main_v19 = (dat1 (V3 m ρ) c).arrAt 4 cfg1.N :=
  calc W5 m ρ c (Proc.devRef .tc main_v19)
    _ = W4 m ρ c (Proc.devRef .tc main_v19) := by host_keeps hostOps2 main_v19
    _ = (dat1 (V3 m ρ) c).arrAt 4 cfg1.N := W4_arr m ρ c 4

theorem r2_arg14 (c : Dev nD) : V5 m ρ c main_arg14 = m ((c : Thread nD τ).loc main_arg14) := kW5_arg14 m ρ c

theorem r2_arg4 (c : Dev nD) : V5 m ρ c main_arg4 = m ((c : Thread nD τ).loc main_arg4) := kW5_arg4 m ρ c

theorem r2_arg16 (c : Dev nD) : V5 m ρ c main_arg16 = m ((c : Thread nD τ).loc main_arg16) := kW5_arg16 m ρ c

theorem r2_arg18 (c : Dev nD) : V5 m ρ c main_arg18 = m ((c : Thread nD τ).loc main_arg18) := kW5_arg18 m ρ c

theorem r2_v20 (c : Dev nD) : V5 m ρ c main_v20 = shapeCast S1x32 (m ((c : Thread nD τ).loc main_arg15)) shapeCasts_S32_S1x32 := by
  show StableHlo.after hostOps2 (W4 m ρ c) (Proc.devRef .tc main_v20) = _
  after_results
  rw [kW4_arg15 m ρ c]
  rfl

theorem r2_v21 (c : Dev nD) : V5 m ρ c main_v21 = shapeCast S1x32 (m ((c : Thread nD τ).loc main_arg17)) shapeCasts_S32_S1x32 := by
  show StableHlo.after hostOps2 (W4 m ρ c) (Proc.devRef .tc main_v21) = _
  after_results
  rw [kW4_arg17 m ρ c]
  rfl

theorem r2_v22 (c : Dev nD) : V5 m ρ c main_v22 = shapeCast S1x32 (m ((c : Thread nD τ).loc main_arg19)) shapeCasts_S32_S1x32 := by
  show StableHlo.after hostOps2 (W4 m ρ c) (Proc.devRef .tc main_v22) = _
  after_results
  rw [kW4_arg19 m ρ c]
  rfl

/-! ## Region 3's entry: region 2's dense and gated outputs, the aggregation of its graph-branch product, the bias -/

theorem r3_v23_0 (c : Dev nD) : V7 m ρ c main_v23_0 = (dat2 (V5 m ρ) c).arrAt 8 cfg2.N :=
  calc W7 m ρ c (Proc.devRef .tc main_v23_0)
    _ = W6 m ρ c (Proc.devRef .tc main_v23_0) := by host_keeps hostOps3 main_v23_0
    _ = (dat2 (V5 m ρ) c).arrAt 8 cfg2.N := W6_arr m ρ c 8

theorem r3_v23_2 (c : Dev nD) : V7 m ρ c main_v23_2 = (dat2 (V5 m ρ) c).arrAt 10 cfg2.N :=
  calc W7 m ρ c (Proc.devRef .tc main_v23_2)
    _ = W6 m ρ c (Proc.devRef .tc main_v23_2) := by host_keeps hostOps3 main_v23_2
    _ = (dat2 (V5 m ρ) c).arrAt 10 cfg2.N := W6_arr m ρ c 10

theorem r3_v33 (c : Dev nD) : V7 m ρ c main_v33 = Hand.agg (m ((c : Thread nD τ).loc main_arg1)) ((dat2 (V5 m ρ) c).arrAt 9 cfg2.N) := by
  have h9 : W6 m ρ c (Proc.devRef .tc main_v23_1) = (dat2 (V5 m ρ) c).arrAt 9 cfg2.N := W6_arr m ρ c 9
  show StableHlo.after hostOps3 (W6 m ρ c) (Proc.devRef .tc main_v33) = _
  after_results_simp
  rw [kW6_v1 m ρ c, kW6_v3 m ρ c, h9]
  rfl

theorem r3_v34 (c : Dev nD) : V7 m ρ c main_v34 = shapeCast S1x32 (m ((c : Thread nD τ).loc main_arg5)) shapeCasts_S32_S1x32 := by
  show StableHlo.after hostOps3 (W6 m ρ c) (Proc.devRef .tc main_v34) = _
  after_results
  rw [kW6_arg5 m ρ c]
  rfl

/-! ## Region 4's entry: the second layer's result as region 3 left it, the third layer's weights and biases -/

theorem r4_v35 (c : Dev nD) : V9 m ρ c main_v35 = (dat3 (V7 m ρ) c).arrAt 4 cfg3.N :=
  calc W9 m ρ c (Proc.devRef .tc main_v35)
    _ = W8 m ρ c (Proc.devRef .tc main_v35) := by host_keeps hostOps4 main_v35
    _ = (dat3 (V7 m ρ) c).arrAt 4 cfg3.N := W8_arr m ρ c 4

theorem r4_arg20 (c : Dev nD) : V9 m ρ c main_arg20 = m ((c : Thread nD τ).loc main_arg20) := kW9_arg20 m ρ c

theorem r4_arg6 (c : Dev nD) : V9 m ρ c main_arg6 = m ((c : Thread nD τ).loc main_arg6) := kW9_arg6 m ρ c

theorem r4_arg22 (c : Dev nD) : V9 m ρ c main_arg22 = m ((c : Thread nD τ).loc main_arg22) := kW9_arg22 m ρ c

theorem r4_arg24 (c : Dev nD) : V9 m ρ c main_arg24 = m ((c : Thread nD τ).loc main_arg24) := kW9_arg24 m ρ c

theorem r4_v36 (c : Dev nD) : V9 m ρ c main_v36 = shapeCast S1x32 (m ((c : Thread nD τ).loc main_arg21)) shapeCasts_S32_S1x32 := by
  show StableHlo.after hostOps4 (W8 m ρ c) (Proc.devRef .tc main_v36) = _
  after_results
  rw [kW8_arg21 m ρ c]
  rfl

theorem r4_v37 (c : Dev nD) : V9 m ρ c main_v37 = shapeCast S1x32 (m ((c : Thread nD τ).loc main_arg23)) shapeCasts_S32_S1x32 := by
  show StableHlo.after hostOps4 (W8 m ρ c) (Proc.devRef .tc main_v37) = _
  after_results
  rw [kW8_arg23 m ρ c]
  rfl

theorem r4_v38 (c : Dev nD) : V9 m ρ c main_v38 = shapeCast S1x32 (m ((c : Thread nD τ).loc main_arg25)) shapeCasts_S32_S1x32 := by
  show StableHlo.after hostOps4 (W8 m ρ c) (Proc.devRef .tc main_v38) = _
  after_results
  rw [kW8_arg25 m ρ c]
  rfl

/-! ## Region 5's entry: region 4's dense and gated outputs, the aggregation of its graph-branch product, the bias -/

theorem r5_v39_0 (c : Dev nD) : V11 m ρ c main_v39_0 = (dat4 (V9 m ρ) c).arrAt 8 cfg4.N :=
  calc W11 m ρ c (Proc.devRef .tc main_v39_0)
    _ = W10 m ρ c (Proc.devRef .tc main_v39_0) := by host_keeps hostOps5 main_v39_0
    _ = (dat4 (V9 m ρ) c).arrAt 8 cfg4.N := W10_arr m ρ c 8

theorem r5_v39_2 (c : Dev nD) : V11 m ρ c main_v39_2 = (dat4 (V9 m ρ) c).arrAt 10 cfg4.N :=
  calc W11 m ρ c (Proc.devRef .tc main_v39_2)
    _ = W10 m ρ c (Proc.devRef .tc main_v39_2) := by host_keeps hostOps5 main_v39_2
    _ = (dat4 (V9 m ρ) c).arrAt 10 cfg4.N := W10_arr m ρ c 10

theorem r5_v49 (c : Dev nD) : V11 m ρ c main_v49 = Hand.agg (m ((c : Thread nD τ).loc main_arg1)) ((dat4 (V9 m ρ) c).arrAt 9 cfg4.N) := by
  have h9 : W10 m ρ c (Proc.devRef .tc main_v39_1) = (dat4 (V9 m ρ) c).arrAt 9 cfg4.N := W10_arr m ρ c 9
  show StableHlo.after hostOps5 (W10 m ρ c) (Proc.devRef .tc main_v49) = _
  after_results_simp
  rw [kW10_v1 m ρ c, kW10_v3 m ρ c, h9]
  rfl

theorem r5_v50 (c : Dev nD) : V11 m ρ c main_v50 = shapeCast S1x32 (m ((c : Thread nD τ).loc main_arg7)) shapeCasts_S32_S1x32 := by
  show StableHlo.after hostOps5 (W10 m ρ c) (Proc.devRef .tc main_v50) = _
  after_results
  rw [kW10_arg7 m ρ c]
  rfl

/-! ## Region 6's entry: the third layer's result as region 5 left it, the output map's weight as launched and its
    bias as a one-by-one matrix; and the result buffer at the end, as region 6 left it -/

theorem r6_v51 (c : Dev nD) : V13 m ρ c main_v51 = (dat5 (V11 m ρ) c).arrAt 4 cfg5.N :=
  calc W13 m ρ c (Proc.devRef .tc main_v51)
    _ = W12 m ρ c (Proc.devRef .tc main_v51) := by host_keeps hostOps6 main_v51
    _ = (dat5 (V11 m ρ) c).arrAt 4 cfg5.N := W12_arr m ρ c 4

theorem r6_arg26 (c : Dev nD) : V13 m ρ c main_arg26 = m ((c : Thread nD τ).loc main_arg26) := kW13_arg26 m ρ c

theorem r6_v52 (c : Dev nD) : V13 m ρ c main_v52 = shapeCast S1x1 (m ((c : Thread nD τ).loc main_arg27)) shapeCasts_S1_S1x1 := by
  show StableHlo.after hostOps6 (W12 m ρ c) (Proc.devRef .tc main_v52) = _
  after_results
  rw [kW12_arg27 m ρ c]
  rfl

theorem end_v53 (c : Dev nD) : W14 m ρ c (Proc.devRef .tc main_v53) = (dat6 (V13 m ρ) c).arrAt 3 cfg6.N := W14_arr m ρ c 3

end Cert.KernelIdeal.Chain

end
-- ==== Proof.Spec.lean ====
/-
  The network both programs compute, as functions of whole arrays read index by index on the extended reals.

  A matrix is a function of a pair of coordinates.  One layer of the network sends node features `h`
  (one row per node) to

      relu (h·Wa + ba)  +  relu (A (h·Wc) + bc)  +  relu ((h·Wm1 + bm1) ⊙ (h·Wm2 + bm2)),

  where `A` is the aggregation over the graph's edges (each node's row becomes the sum of the rows of its
  in-neighbours).  `A` is a parameter here: both programs apply the very same gather and accumulating scatter to
  `h·Wc`, so the layer is stated for any `A` and nothing about the aggregation is ever opened.  The sums are in
  the order written: the first two terms are added first, the gated term last.  The network is three layers
  followed by an affine map to one column.
-/
import Idealize.ShloMosaic.PureOps.Ideal.Laws
import Idealize.ShloMosaic.Lib.ValueIdx

noncomputable section

open scoped BigOperators

namespace Gnn

open Idealize.ShloMosaic Idealize.ShloMosaic.ValueIdx

/-- A matrix with `a` rows and `b` columns, as a function of its index. -/
abbrev Mat (a b : Nat) : Type := (⟨2, ![a, b]⟩ : Shape).Idx → EReal

/-- A vector of length `a`, as a function of its index. -/
abbrev Vect (a : Nat) : Type := (⟨1, ![a]⟩ : Shape).Idx → EReal

/-- The float zero both programs compare against in `relu`: the all-zero word, which denotes the real 0. -/
abbrev zero : EReal := Ideal.ofBits .f32 0x00000000#32

/-- The matrix product `h·W`: entry `(r, c)` is the sum over `k` of `h (r, k) * W (k, c)`. -/
def prod {N K J : Nat} (h : Mat N K) (W : Mat K J) : Mat N J :=
  fun i => ∑ k : Fin K, h (ix2 (i 0) k) * W (ix2 k (i 1))

/-- The affine map `h·W + b`, the vector `b` added to every row. -/
def lin {N K J : Nat} (h : Mat N K) (W : Mat K J) (b : Vect J) : Mat N J :=
  fun i => prod h W i + b (ix1 (i 1))

/-- `relu`, entry by entry: the larger of the entry and zero. -/
def relu {N J : Nat} (x : Mat N J) : Mat N J := fun i => max (x i) zero

/-- The dense branch `relu (h·Wa + ba)`. -/
def dense {N K J : Nat} (h : Mat N K) (Wa : Mat K J) (ba : Vect J) : Mat N J := relu (lin h Wa ba)

/-- The gated branch `relu ((h·Wm1 + bm1) ⊙ (h·Wm2 + bm2))`. -/
def gated {N K J : Nat} (h : Mat N K) (Wm1 : Mat K J) (bm1 : Vect J) (Wm2 : Mat K J) (bm2 : Vect J) : Mat N J :=
  relu fun i => lin h Wm1 bm1 i * lin h Wm2 bm2 i

/-- The graph branch from an already aggregated matrix: `relu (agg + bc)`. -/
def spect {N J : Nat} (agg : Mat N J) (bc : Vect J) : Mat N J := relu fun i => agg i + bc (ix1 (i 1))

/-- Joining the three branches, the dense and the graph branch first: `(da + sp) + dm`. -/
def join {N J : Nat} (da sp dm : Mat N J) : Mat N J := fun i => da i + sp i + dm i

/-- One layer, for an aggregation `A` of matrices. -/
def layer {N K J : Nat} (A : Mat N J → Mat N J) (h : Mat N K) (Wa : Mat K J) (ba : Vect J) (Wc : Mat K J) (bc : Vect J)
    (Wm1 : Mat K J) (bm1 : Vect J) (Wm2 : Mat K J) (bm2 : Vect J) : Mat N J :=
  join (dense h Wa ba) (spect (A (prod h Wc)) bc) (gated h Wm1 bm1 Wm2 bm2)

/-- The whole network: three layers, then `h·W2 + b2`.  The arguments are in the programs' order of parameters
    (after the features: the three graph-branch weights and biases, then per layer the dense and the two gate
    weights and biases, then the output map). -/
def net {N K J : Nat} (A : Mat N J → Mat N J) (x : Mat N K)
    (Wc1 : Mat K J) (bc1 : Vect J) (Wc2 : Mat J J) (bc2 : Vect J) (Wc3 : Mat J J) (bc3 : Vect J)
    (W11 : Mat K J) (b11 : Vect J) (W12 : Mat K J) (b12 : Vect J) (W13 : Mat K J) (b13 : Vect J)
    (W21 : Mat J J) (b21 : Vect J) (W22 : Mat J J) (b22 : Vect J) (W23 : Mat J J) (b23 : Vect J)
    (W31 : Mat J J) (b31 : Vect J) (W32 : Mat J J) (b32 : Vect J) (W33 : Mat J J) (b33 : Vect J)
    (W2 : Mat J 1) (b2 : Vect 1) : Mat N 1 :=
  lin (layer A (layer A (layer A x W11 b11 Wc1 bc1 W12 b12 W13 b13) W21 b21 Wc2 bc2 W22 b22 W23 b23)
    W31 b31 Wc3 bc3 W32 b32 W33 b33) W2 b2

end Gnn

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.Pay0.lean ====
/-
  The arithmetic of region 0's body, the dense stage of a layer, at one entry of a block.  The body multiplies its
  block of the layer's input (5000 rows) by four weight matrices — the rounding to bf16 on the way into the
  multiplier is the identity on the extended reals, and the multiplier starts from a zero accumulator, so each
  product's entry `(r, c)` is the plain sum over `k` of `x (r, k) * w (k, c)` —, adds a bias row to three of the
  products, and stores  max (x·Wa + ba, 0),  x·Wc  and  max ((x·Wm1 + bm1) ⊙ (x·Wm2 + bm2), 0).
-/
import proofs.«152414_j64991445123447_1_alg».proof.Proof.Gen.KernelIdeal.Skeleton
import proofs.«152414_j64991445123447_1_alg».proof.Proof.Spec
import proofs.«152414_j64991445123447_1_alg».proof.Proof.LibDotRows
import Idealize.ShloMosaic.Lib.Pipeline.Value

noncomputable section

open Idealize.ShloMosaic Idealize.ShloMosaic.ValueIdx
open scoped BigOperators

namespace Cert.KernelIdeal.Pay0

open Cert.KernelIdeal Cert.KernelIdeal.Gen

/-- The bias row broadcast down the block: entry `(r, c)` is the row's entry `c`. -/
theorem bias_at (b : Vec Ideal S1x32 .f32) (r : Fin 5000) (c : Fin 32) :
    broadcastTo S5000x32 (shapeCast S1x32 b shapeCasts_S1x32_S1x32) broadcasts_S1x32_S5000x32 (ix2 r c) = b (ix2 0 c) := by
  rw [shapeCast_self]
  refine broadcastTo_apply b broadcasts_S1x32_S5000x32 (ix2 r c) (ix2 0 c) fun a => ?_
  match a with
  | ⟨0, _⟩ => rfl
  | ⟨1, _⟩ => rfl

/-- What goes into the multiplier on the left is the input block itself. -/
theorem lhs_eq (x : Vec Ideal S5000x128 .f32) : k0_pay2 (F := Ideal) x = truncf .bf16 x bitsLt_bf16_f32 := by
  unfold k0_pay2
  first | rfl | rw [shapeCast_self]

/-- The multiplier's product into a zero accumulator: entry `(r, c)` is the sum over `k` of `x (r, k) * w (k, c)`. -/
theorem mm_at (x : Vec Ideal S5000x128 .f32) (w : Vec Ideal S128x32 .f32) (r : Fin 5000) (c : Fin 32) :
    matmul dot_S5000x128_S128x32_S5000x32_1_0_0_1_n_n none (k0_pay2 (F := Ideal) x) (truncf .bf16 w bitsLt_bf16_f32)
        (constant S5000x32 .f32 0x00000000#32) (ix2 r c)
      = ∑ k : Fin 128, x (ix2 r k) * w (ix2 k c) := by
  rw [lhs_eq]
  exact matmul_zero_rows dot_S5000x128_S128x32_S5000x32_1_0_0_1_n_n none rfl rfl
    (fun j k => by
      unfold DotDims.lhsIdx
      rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
      rfl)
    (fun j k => dot_S5000x128_S128x32_S5000x32_1_0_0_1_n_n.lhsIdx_val_of_single rfl j k)
    (fun j k => dot_S5000x128_S128x32_S5000x32_1_0_0_1_n_n.rhsIdx_val_of_single rfl j k)
    (fun j k => by
      unfold DotDims.rhsIdx
      rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
      rfl)
    (truncf .bf16 x bitsLt_bf16_f32) (truncf .bf16 w bitsLt_bf16_f32) r c

/-- The dense branch's payload at `(r, c)`. -/
theorem pay_dense (x : Vec Ideal S5000x128 .f32) (w : Vec Ideal S128x32 .f32) (b : Vec Ideal S1x32 .f32) (r : Fin 5000) (c : Fin 32) :
    k0_pay3 (F := Ideal) x w b (ix2 r c) = max ((∑ k : Fin 128, x (ix2 r k) * w (ix2 k c)) + b (ix2 0 c)) Gnn.zero := by
  unfold k0_pay3
  try dsimp only
  rw [maximumf_apply, addf_apply, mm_at x w r c, bias_at b r c]
  rfl

/-- The product's payload at `(r, c)`. -/
theorem pay_prod (x : Vec Ideal S5000x128 .f32) (w : Vec Ideal S128x32 .f32) (r : Fin 5000) (c : Fin 32) :
    k0_pay4 (F := Ideal) x w (ix2 r c) = ∑ k : Fin 128, x (ix2 r k) * w (ix2 k c) := by
  unfold k0_pay4
  try dsimp only
  exact mm_at x w r c

/-- The gated branch's payload at `(r, c)`. -/
theorem pay_gated (x : Vec Ideal S5000x128 .f32) (w1 w2 : Vec Ideal S128x32 .f32) (b1 b2 : Vec Ideal S1x32 .f32) (r : Fin 5000) (c : Fin 32) :
    k0_pay1 (F := Ideal) (k0_pay5 x w1 w2 b1 b2) (Scalar.ofBits .f32 0x00000000#32) (ix2 r c)
      = max (((∑ k : Fin 128, x (ix2 r k) * w1 (ix2 k c)) + b1 (ix2 0 c)) * ((∑ k : Fin 128, x (ix2 r k) * w2 (ix2 k c)) + b2 (ix2 0 c))) Gnn.zero := by
  unfold k0_pay1 k0_pay5
  try dsimp only
  rw [maximumf_apply, mulf_apply, addf_apply, addf_apply, mm_at x w1 r c, mm_at x w2 r c, bias_at b1 r c, bias_at b2 r c]
  rfl

end Cert.KernelIdeal.Pay0

end
-- ==== Proof.Dense0.lean ====
/-
  Region 0, the dense stage of a layer, read as values of whole arrays.  At grid point `t` the body reads rows
  `5000 t … 5000 t + 4999` of the layer's input and the whole weight matrices and bias rows, and writes block `t` of
  three output arrays.  Entry `(r, c)` of an output block depends only on row `r` of the input block, so block `t` of
  each output is block `t` of ONE function of the arrays the region finds — the dense branch, the product with the
  graph weights, the gated branch of the layer —, and as the twenty blocks tile the rows, each output array ends
  holding that function.  The region's entry contents `V` are a parameter.
-/
import proofs.«152414_j64991445123447_1_alg».proof.Proof.KernelIdealFrameP
import proofs.«152414_j64991445123447_1_alg».proof.Proof.Pay0

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Dense0

open Cert.KernelIdeal Cert.KernelIdeal.Gen Cert.KernelIdeal.Pay0

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input and the three outputs are cut into row blocks, block `t` at
    point `t`; the weights and the bias rows are single blocks, the same at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-! ## The input blocks, read off the arrays -/

/-- Row `r` of input block `t` is row `5000 t + r` of the layer's input. -/
theorem x_blk (c : Dev nD) (t : Fin cfg0.N) (r : Fin 5000) (k : Fin 128) (i : S100000x128.Idx)
    (h0 : (i 0).val = t.val * 5000 + r.val) (h1 : (i 1).val = k.val) :
    (iblk0 V c 0 t : Vec Ideal S5000x128 .f32) (ix2 r k) = (V c main_arg0 : S100000x128.Idx → EReal) i := by
  obtain ⟨e0, e1, -⟩ := idx_facts t
  unfold iblk0
  rw [View.read_apply]
  show (V c main_arg0 : S100000x128.Idx → EReal) _ = _
  refine congrArg _ (funext fun a => Fin.ext ?_)
  match a with
  | ⟨0, _⟩ => show win0_0.index t (0 : Fin 2) * 5000 + 1 * r.val = (i 0).val; rw [e0, h0]; omega
  | ⟨1, _⟩ => show win0_0.index t (1 : Fin 2) * 128 + 1 * k.val = (i 1).val; rw [e1, h1]; omega

/-- Window 1's one block is its whole array. -/
theorem w1_blk (c : Dev nD) (t : Fin cfg0.N) (y : S128x32.Idx) :
    (iblk0 V c 1 t : Vec Ideal S128x32 .f32) y = (V c main_arg8 : S128x32.Idx → EReal) y := by
  have e := idx_facts t
  unfold iblk0
  rw [View.read_apply]
  show (V c main_arg8 : S128x32.Idx → EReal) _ = _
  refine congrArg _ (funext fun a => Fin.ext ?_)
  match a with
  | ⟨0, _⟩ => show win0_1.index t (0 : Fin 2) * 128 + 1 * (y 0).val = (y 0).val; rw [e.2.2.1]; omega
  | ⟨1, _⟩ => show win0_1.index t (1 : Fin 2) * 32 + 1 * (y 1).val = (y 1).val; rw [e.2.2.2.1]; omega

/-- Window 3's one block is its whole array. -/
theorem w3_blk (c : Dev nD) (t : Fin cfg0.N) (y : S128x32.Idx) :
    (iblk0 V c 3 t : Vec Ideal S128x32 .f32) y = (V c main_arg2 : S128x32.Idx → EReal) y := by
  have e := idx_facts t
  unfold iblk0
  rw [View.read_apply]
  show (V c main_arg2 : S128x32.Idx → EReal) _ = _
  refine congrArg _ (funext fun a => Fin.ext ?_)
  match a with
  | ⟨0, _⟩ => show win0_3.index t (0 : Fin 2) * 128 + 1 * (y 0).val = (y 0).val; rw [e.2.2.2.2.2.2.1]; omega
  | ⟨1, _⟩ => show win0_3.index t (1 : Fin 2) * 32 + 1 * (y 1).val = (y 1).val; rw [e.2.2.2.2.2.2.2.1]; omega

/-- Window 4's one block is its whole array. -/
theorem w4_blk (c : Dev nD) (t : Fin cfg0.N) (y : S128x32.Idx) :
    (iblk0 V c 4 t : Vec Ideal S128x32 .f32) y = (V c main_arg10 : S128x32.Idx → EReal) y := by
  have e := idx_facts t
  unfold iblk0
  rw [View.read_apply]
  show (V c main_arg10 : S128x32.Idx → EReal) _ = _
  refine congrArg _ (funext fun a => Fin.ext ?_)
  match a with
  | ⟨0, _⟩ => show win0_4.index t (0 : Fin 2) * 128 + 1 * (y 0).val = (y 0).val; rw [e.2.2.2.2.2.2.2.2.1]; omega
  | ⟨1, _⟩ => show win0_4.index t (1 : Fin 2) * 32 + 1 * (y 1).val = (y 1).val; rw [e.2.2.2.2.2.2.2.2.2.1]; omega

/-- Window 6's one block is its whole array. -/
theorem w6_blk (c : Dev nD) (t : Fin cfg0.N) (y : S128x32.Idx) :
    (iblk0 V c 6 t : Vec Ideal S128x32 .f32) y = (V c main_arg12 : S128x32.Idx → EReal) y := by
  have e := idx_facts t
  unfold iblk0
  rw [View.read_apply]
  show (V c main_arg12 : S128x32.Idx → EReal) _ = _
  refine congrArg _ (funext fun a => Fin.ext ?_)
  match a with
  | ⟨0, _⟩ => show win0_6.index t (0 : Fin 2) * 128 + 1 * (y 0).val = (y 0).val; rw [e.2.2.2.2.2.2.2.2.2.2.2.2.1]; omega
  | ⟨1, _⟩ => show win0_6.index t (1 : Fin 2) * 32 + 1 * (y 1).val = (y 1).val; rw [e.2.2.2.2.2.2.2.2.2.2.2.2.2.1]; omega

/-- Window 2's one block is its whole array. -/
theorem w2_blk (c : Dev nD) (t : Fin cfg0.N) (y : S1x32.Idx) :
    (iblk0 V c 2 t : Vec Ideal S1x32 .f32) y = (V c main_v4 : S1x32.Idx → EReal) y := by
  have e := idx_facts t
  unfold iblk0
  rw [View.read_apply]
  show (V c main_v4 : S1x32.Idx → EReal) _ = _
  refine congrArg _ (funext fun a => Fin.ext ?_)
  match a with
  | ⟨0, _⟩ => show win0_2.index t (0 : Fin 2) * 1 + 1 * (y 0).val = (y 0).val; rw [e.2.2.2.2.1]; omega
  | ⟨1, _⟩ => show win0_2.index t (1 : Fin 2) * 32 + 1 * (y 1).val = (y 1).val; rw [e.2.2.2.2.2.1]; omega

/-- Window 5's one block is its whole array. -/
theorem w5_blk (c : Dev nD) (t : Fin cfg0.N) (y : S1x32.Idx) :
    (iblk0 V c 5 t : Vec Ideal S1x32 .f32) y = (V c main_v5 : S1x32.Idx → EReal) y := by
  have e := idx_facts t
  unfold iblk0
  rw [View.read_apply]
  show (V c main_v5 : S1x32.Idx → EReal) _ = _
  refine congrArg _ (funext fun a => Fin.ext ?_)
  match a with
  | ⟨0, _⟩ => show win0_5.index t (0 : Fin 2) * 1 + 1 * (y 0).val = (y 0).val; rw [e.2.2.2.2.2.2.2.2.2.2.1]; omega
  | ⟨1, _⟩ => show win0_5.index t (1 : Fin 2) * 32 + 1 * (y 1).val = (y 1).val; rw [e.2.2.2.2.2.2.2.2.2.2.2.1]; omega

/-- Window 7's one block is its whole array. -/
theorem w7_blk (c : Dev nD) (t : Fin cfg0.N) (y : S1x32.Idx) :
    (iblk0 V c 7 t : Vec Ideal S1x32 .f32) y = (V c main_v6 : S1x32.Idx → EReal) y := by
  have e := idx_facts t
  unfold iblk0
  rw [View.read_apply]
  show (V c main_v6 : S1x32.Idx → EReal) _ = _
  refine congrArg _ (funext fun a => Fin.ext ?_)
  match a with
  | ⟨0, _⟩ => show win0_7.index t (0 : Fin 2) * 1 + 1 * (y 0).val = (y 0).val; rw [e.2.2.2.2.2.2.2.2.2.2.2.2.2.2.1]; omega
  | ⟨1, _⟩ => show win0_7.index t (1 : Fin 2) * 32 + 1 * (y 1).val = (y 1).val; rw [e.2.2.2.2.2.2.2.2.2.2.2.2.2.2.2.1]; omega

/-! ## What each point writes back, and the arrays after the region -/

/-- A bias row `[1, 32]` as a vector over the columns. -/
abbrev rowOf (b : S1x32.Idx → EReal) : Gnn.Vect 32 := fun i => b (ix2 0 (i 0))

/-- Block `t` of output window 8, as written back, is block `t` of the dense branch of the arrays. -/
theorem flushed_8 (c : Dev nD) (t : Fin cfg0.N) :
    (dat0 V c).flushed 8 t = ((cfg0.win 8).blk t).view.read (Elt Ideal) (Gnn.dense (V c main_arg0) (V c main_arg8) (rowOf (V c main_v4)) : S100000x32.Idx → EReal) := by
  show (cfg0.win 8).cut (grid0.coords t) ((dat0 V c).after 8 t) = _
  rw [after0_8]
  unfold out0_8
  rw [View.canon_unit_zero hz]
  simp only [View.ld_unit_zero (S := S5000x128) hz, View.ld_unit_zero (S := S128x32) hz, View.ld_unit_zero (S := S1x32) hz]
  have e := idx_facts t
  funext j
  obtain ⟨r, q, rfl⟩ : ∃ (r : Fin 5000) (q : Fin 32), j = ix2 r q := ⟨j 0, j 1, eq_ix2 j⟩
  rw [View.read_apply]
  refine (pay_dense (iblk0 V c 0 t) (iblk0 V c 1 t) (iblk0 V c 2 t) r q).trans ?_
  have hi0 : ((((cfg0.win 8).blk t).view.emb (ix2 r q)) 0).val = t.val * 5000 + r.val := by
    show win0_8.index t (0 : Fin 2) * 5000 + 1 * r.val = _; rw [e.2.2.2.2.2.2.2.2.2.2.2.2.2.2.2.2.1]; omega
  have hi1 : ((((cfg0.win 8).blk t).view.emb (ix2 r q)) 1).val = q.val := by
    show win0_8.index t (1 : Fin 2) * 32 + 1 * q.val = _; rw [e.2.2.2.2.2.2.2.2.2.2.2.2.2.2.2.2.2.1]; omega
  unfold Gnn.dense Gnn.relu Gnn.lin Gnn.prod
  show max (_ + _) _ = max (_ + _) _
  refine congrArg₂ max (congrArg₂ HAdd.hAdd (Finset.sum_congr rfl fun k _ => congrArg₂ HMul.hMul ?_ ?_) ?_) rfl
  · exact x_blk V c t r k _ hi0 rfl
  · exact (w1_blk V c t (ix2 k q)).trans (congrArg (fun z => (V c main_arg8 : S128x32.Idx → EReal) (ix2 k z)) (Fin.ext hi1.symm))
  · exact (w2_blk V c t (ix2 0 q)).trans (congrArg (fun z => (V c main_v4 : S1x32.Idx → EReal) (ix2 0 z)) (Fin.ext hi1.symm))

/-- An index of output window 8's array is in point `t`'s block iff each coordinate is in the block's range. -/
theorem mem_blk_8 (t : Fin cfg0.N) (i : S100000x32.Idx) :
    i ∈ ((cfg0.win 8).blk t).view.set ↔ ∀ a : Fin 2, win0_8.index t a * S5000x32.size a ≤ (i a).val ∧ (i a).val < win0_8.index t a * S5000x32.size a + S5000x32.size a := by
  show i ∈ ((View.whole main_v7_0).slice (win0_8.rect t)).set ↔ _
  rw [View.set_slice_whole, Rect.mem_set_unit]
  exact Iff.rfl

/-- Every row lies in the block of the point `row / 5000`: the blocks cover the array. -/
theorem cover_8 (i : S100000x32.Idx) :
    ∃ t : Fin cfg0.N, (cfg0.win 8).flush t = true ∧ i ∈ ((cfg0.win 8).blk t).view.set := by
  have hi0 : (i 0).val < 100000 := (i 0).isLt
  have hi1 : (i 1).val < 32 := (i 1).isLt
  have hN : cfg0.N = 20 := N_0
  have ht : (i 0).val / 5000 < cfg0.N := by rw [hN]; omega
  have e := idx_facts ⟨(i 0).val / 5000, ht⟩
  refine ⟨⟨(i 0).val / 5000, ht⟩, flush0_8 _, ?_⟩
  rw [mem_blk_8]
  intro a
  match a with
  | ⟨0, _⟩ =>
    show win0_8.index ⟨(i 0).val / 5000, ht⟩ (0 : Fin 2) * 5000 ≤ (i 0).val ∧ (i 0).val < win0_8.index ⟨(i 0).val / 5000, ht⟩ (0 : Fin 2) * 5000 + 5000
    rw [e.2.2.2.2.2.2.2.2.2.2.2.2.2.2.2.2.1]
    show (i 0).val / 5000 * 5000 ≤ (i 0).val ∧ (i 0).val < (i 0).val / 5000 * 5000 + 5000
    omega
  | ⟨1, _⟩ =>
    show win0_8.index ⟨(i 0).val / 5000, ht⟩ (1 : Fin 2) * 32 ≤ (i 1).val ∧ (i 1).val < win0_8.index ⟨(i 0).val / 5000, ht⟩ (1 : Fin 2) * 32 + 32
    rw [e.2.2.2.2.2.2.2.2.2.2.2.2.2.2.2.2.2.1]
    omega

/-- After the region output window 8's array holds the dense branch. -/
theorem final_8 (c : Dev nD) :
    (dat0 V c).arrAt 8 cfg0.N = (Gnn.dense (V c main_arg0) (V c main_arg8) (rowOf (V c main_v4)) : S100000x32.Idx → EReal) :=
  (dat0 V c).arrAt_eq_of_cover 8 _ (fun t _ => flushed_8 V c t) cover_8

/-- Block `t` of output window 9, as written back, is block `t` of the product with the graph weights of the arrays. -/
theorem flushed_9 (c : Dev nD) (t : Fin cfg0.N) :
    (dat0 V c).flushed 9 t = ((cfg0.win 9).blk t).view.read (Elt Ideal) (Gnn.prod (V c main_arg0) (V c main_arg2) : S100000x32.Idx → EReal) := by
  show (cfg0.win 9).cut (grid0.coords t) ((dat0 V c).after 9 t) = _
  rw [after0_9]
  unfold out0_9
  rw [View.canon_unit_zero hz]
  simp only [View.ld_unit_zero (S := S5000x128) hz, View.ld_unit_zero (S := S128x32) hz, View.ld_unit_zero (S := S1x32) hz]
  have e := idx_facts t
  funext j
  obtain ⟨r, q, rfl⟩ : ∃ (r : Fin 5000) (q : Fin 32), j = ix2 r q := ⟨j 0, j 1, eq_ix2 j⟩
  rw [View.read_apply]
  refine (pay_prod (iblk0 V c 0 t) (iblk0 V c 3 t) r q).trans ?_
  have hi0 : ((((cfg0.win 9).blk t).view.emb (ix2 r q)) 0).val = t.val * 5000 + r.val := by
    show win0_9.index t (0 : Fin 2) * 5000 + 1 * r.val = _; rw [e.2.2.2.2.2.2.2.2.2.2.2.2.2.2.2.2.2.2.1]; omega
  have hi1 : ((((cfg0.win 9).blk t).view.emb (ix2 r q)) 1).val = q.val := by
    show win0_9.index t (1 : Fin 2) * 32 + 1 * q.val = _; rw [e.2.2.2.2.2.2.2.2.2.2.2.2.2.2.2.2.2.2.2.1]; omega
  unfold Gnn.prod
  show Finset.sum _ _ = Finset.sum _ _
  refine Finset.sum_congr rfl fun k _ => congrArg₂ HMul.hMul ?_ ?_
  · exact x_blk V c t r k _ hi0 rfl
  · exact (w3_blk V c t (ix2 k q)).trans (congrArg (fun z => (V c main_arg2 : S128x32.Idx → EReal) (ix2 k z)) (Fin.ext hi1.symm))

/-- An index of output window 9's array is in point `t`'s block iff each coordinate is in the block's range. -/
theorem mem_blk_9 (t : Fin cfg0.N) (i : S100000x32.Idx) :
    i ∈ ((cfg0.win 9).blk t).view.set ↔ ∀ a : Fin 2, win0_9.index t a * S5000x32.size a ≤ (i a).val ∧ (i a).val < win0_9.index t a * S5000x32.size a + S5000x32.size a := by
  show i ∈ ((View.whole main_v7_1).slice (win0_9.rect t)).set ↔ _
  rw [View.set_slice_whole, Rect.mem_set_unit]
  exact Iff.rfl

/-- Every row lies in the block of the point `row / 5000`: the blocks cover the array. -/
theorem cover_9 (i : S100000x32.Idx) :
    ∃ t : Fin cfg0.N, (cfg0.win 9).flush t = true ∧ i ∈ ((cfg0.win 9).blk t).view.set := by
  have hi0 : (i 0).val < 100000 := (i 0).isLt
  have hi1 : (i 1).val < 32 := (i 1).isLt
  have hN : cfg0.N = 20 := N_0
  have ht : (i 0).val / 5000 < cfg0.N := by rw [hN]; omega
  have e := idx_facts ⟨(i 0).val / 5000, ht⟩
  refine ⟨⟨(i 0).val / 5000, ht⟩, flush0_9 _, ?_⟩
  rw [mem_blk_9]
  intro a
  match a with
  | ⟨0, _⟩ =>
    show win0_9.index ⟨(i 0).val / 5000, ht⟩ (0 : Fin 2) * 5000 ≤ (i 0).val ∧ (i 0).val < win0_9.index ⟨(i 0).val / 5000, ht⟩ (0 : Fin 2) * 5000 + 5000
    rw [e.2.2.2.2.2.2.2.2.2.2.2.2.2.2.2.2.2.2.1]
    show (i 0).val / 5000 * 5000 ≤ (i 0).val ∧ (i 0).val < (i 0).val / 5000 * 5000 + 5000
    omega
  | ⟨1, _⟩ =>
    show win0_9.index ⟨(i 0).val / 5000, ht⟩ (1 : Fin 2) * 32 ≤ (i 1).val ∧ (i 1).val < win0_9.index ⟨(i 0).val / 5000, ht⟩ (1 : Fin 2) * 32 + 32
    rw [e.2.2.2.2.2.2.2.2.2.2.2.2.2.2.2.2.2.2.2.1]
    omega

/-- After the region output window 9's array holds the product with the graph weights. -/
theorem final_9 (c : Dev nD) :
    (dat0 V c).arrAt 9 cfg0.N = (Gnn.prod (V c main_arg0) (V c main_arg2) : S100000x32.Idx → EReal) :=
  (dat0 V c).arrAt_eq_of_cover 9 _ (fun t _ => flushed_9 V c t) cover_9

/-- Block `t` of output window 10, as written back, is block `t` of the gated branch of the arrays. -/
theorem flushed_10 (c : Dev nD) (t : Fin cfg0.N) :
    (dat0 V c).flushed 10 t = ((cfg0.win 10).blk t).view.read (Elt Ideal) (Gnn.gated (V c main_arg0) (V c main_arg10) (rowOf (V c main_v5)) (V c main_arg12) (rowOf (V c main_v6)) : S100000x32.Idx → EReal) := by
  show (cfg0.win 10).cut (grid0.coords t) ((dat0 V c).after 10 t) = _
  rw [after0_10]
  unfold out0_10
  rw [View.canon_unit_zero hz]
  simp only [View.ld_unit_zero (S := S5000x128) hz, View.ld_unit_zero (S := S128x32) hz, View.ld_unit_zero (S := S1x32) hz]
  have e := idx_facts t
  funext j
  obtain ⟨r, q, rfl⟩ : ∃ (r : Fin 5000) (q : Fin 32), j = ix2 r q := ⟨j 0, j 1, eq_ix2 j⟩
  rw [View.read_apply]
  refine (pay_gated (iblk0 V c 0 t) (iblk0 V c 4 t) (iblk0 V c 6 t) (iblk0 V c 5 t) (iblk0 V c 7 t) r q).trans ?_
  have hi0 : ((((cfg0.win 10).blk t).view.emb (ix2 r q)) 0).val = t.val * 5000 + r.val := by
    show win0_10.index t (0 : Fin 2) * 5000 + 1 * r.val = _; rw [e.2.2.2.2.2.2.2.2.2.2.2.2.2.2.2.2.2.2.2.2.1]; omega
  have hi1 : ((((cfg0.win 10).blk t).view.emb (ix2 r q)) 1).val = q.val := by
    show win0_10.index t (1 : Fin 2) * 32 + 1 * q.val = _; rw [e.2.2.2.2.2.2.2.2.2.2.2.2.2.2.2.2.2.2.2.2.2]; omega
  unfold Gnn.gated Gnn.relu Gnn.lin Gnn.prod
  show max ((_ + _) * (_ + _)) _ = max ((_ + _) * (_ + _)) _
  refine congrArg₂ max (congrArg₂ HMul.hMul
    (congrArg₂ HAdd.hAdd (Finset.sum_congr rfl fun k _ => congrArg₂ HMul.hMul ?_ ?_) ?_)
    (congrArg₂ HAdd.hAdd (Finset.sum_congr rfl fun k _ => congrArg₂ HMul.hMul ?_ ?_) ?_)) rfl
  · exact x_blk V c t r k _ hi0 rfl
  · exact (w4_blk V c t (ix2 k q)).trans (congrArg (fun z => (V c main_arg10 : S128x32.Idx → EReal) (ix2 k z)) (Fin.ext hi1.symm))
  · exact (w5_blk V c t (ix2 0 q)).trans (congrArg (fun z => (V c main_v5 : S1x32.Idx → EReal) (ix2 0 z)) (Fin.ext hi1.symm))
  · exact x_blk V c t r k _ hi0 rfl
  · exact (w6_blk V c t (ix2 k q)).trans (congrArg (fun z => (V c main_arg12 : S128x32.Idx → EReal) (ix2 k z)) (Fin.ext hi1.symm))
  · exact (w7_blk V c t (ix2 0 q)).trans (congrArg (fun z => (V c main_v6 : S1x32.Idx → EReal) (ix2 0 z)) (Fin.ext hi1.symm))

/-- An index of output window 10's array is in point `t`'s block iff each coordinate is in the block's range. -/
theorem mem_blk_10 (t : Fin cfg0.N) (i : S100000x32.Idx) :
    i ∈ ((cfg0.win 10).blk t).view.set ↔ ∀ a : Fin 2, win0_10.index t a * S5000x32.size a ≤ (i a).val ∧ (i a).val < win0_10.index t a * S5000x32.size a + S5000x32.size a := by
  show i ∈ ((View.whole main_v7_2).slice (win0_10.rect t)).set ↔ _
  rw [View.set_slice_whole, Rect.mem_set_unit]
  exact Iff.rfl

/-- Every row lies in the block of the point `row / 5000`: the blocks cover the array. -/
theorem cover_10 (i : S100000x32.Idx) :
    ∃ t : Fin cfg0.N, (cfg0.win 10).flush t = true ∧ i ∈ ((cfg0.win 10).blk t).view.set := by
  have hi0 : (i 0).val < 100000 := (i 0).isLt
  have hi1 : (i 1).val < 32 := (i 1).isLt
  have hN : cfg0.N = 20 := N_0
  have ht : (i 0).val / 5000 < cfg0.N := by rw [hN]; omega
  have e := idx_facts ⟨(i 0).val / 5000, ht⟩
  refine ⟨⟨(i 0).val / 5000, ht⟩, flush0_10 _, ?_⟩
  rw [mem_blk_10]
  intro a
  match a with
  | ⟨0, _⟩ =>
    show win0_10.index ⟨(i 0).val / 5000, ht⟩ (0 : Fin 2) * 5000 ≤ (i 0).val ∧ (i 0).val < win0_10.index ⟨(i 0).val / 5000, ht⟩ (0 : Fin 2) * 5000 + 5000
    rw [e.2.2.2.2.2.2.2.2.2.2.2.2.2.2.2.2.2.2.2.2.1]
    show (i 0).val / 5000 * 5000 ≤ (i 0).val ∧ (i 0).val < (i 0).val / 5000 * 5000 + 5000
    omega
  | ⟨1, _⟩ =>
    show win0_10.index ⟨(i 0).val / 5000, ht⟩ (1 : Fin 2) * 32 ≤ (i 1).val ∧ (i 1).val < win0_10.index ⟨(i 0).val / 5000, ht⟩ (1 : Fin 2) * 32 + 32
    rw [e.2.2.2.2.2.2.2.2.2.2.2.2.2.2.2.2.2.2.2.2.2]
    omega

/-- After the region output window 10's array holds the gated branch. -/
theorem final_10 (c : Dev nD) :
    (dat0 V c).arrAt 10 cfg0.N = (Gnn.gated (V c main_arg0) (V c main_arg10) (rowOf (V c main_v5)) (V c main_arg12) (rowOf (V c main_v6)) : S100000x32.Idx → EReal) :=
  (dat0 V c).arrAt_eq_of_cover 10 _ (fun t _ => flushed_10 V c t) cover_10

end Cert.KernelIdeal.Dense0

end
-- ==== Proof.Pay1.lean ====
/-
  The arithmetic of region 1's body, the combine stage of a layer, at one entry of a block: from blocks of the
  dense branch `da`, the gated branch `dm` and the aggregated matrix `agg`, and the bias row `bc`, it stores
  (da + max (agg + bc, 0)) + dm — the dense and the graph branch added first, the gated branch last.
-/
import proofs.«152414_j64991445123447_1_alg».proof.Proof.Gen.KernelIdeal.Skeleton
import proofs.«152414_j64991445123447_1_alg».proof.Proof.Spec
import proofs.«152414_j64991445123447_1_alg».proof.Proof.LibDotRows
import Idealize.ShloMosaic.Lib.Pipeline.Value

noncomputable section

open Idealize.ShloMosaic Idealize.ShloMosaic.ValueIdx
open scoped BigOperators

namespace Cert.KernelIdeal.Pay1

open Cert.KernelIdeal Cert.KernelIdeal.Gen

/-- The bias row broadcast down the block: entry `(r, c)` is the row's entry `c`. -/
theorem bias_at (b : Vec Ideal S1x32 .f32) (r : Fin 5000) (c : Fin 32) :
    broadcastTo S5000x32 b broadcasts_S1x32_S5000x32 (ix2 r c) = b (ix2 0 c) := by
  refine broadcastTo_apply b broadcasts_S1x32_S5000x32 (ix2 r c) (ix2 0 c) fun a => ?_
  match a with
  | ⟨0, _⟩ => rfl
  | ⟨1, _⟩ => rfl

/-- The combine stage's payload at `(r, c)`. -/
theorem pay_comb (agg : Vec Ideal S5000x32 .f32) (bc : Vec Ideal S1x32 .f32) (da dm : Vec Ideal S5000x32 .f32) (r : Fin 5000) (c : Fin 32) :
    k1_pay1 (F := Ideal) agg bc da dm (ix2 r c)
      = da (ix2 r c) + max (agg (ix2 r c) + bc (ix2 0 c)) Gnn.zero + dm (ix2 r c) := by
  unfold k1_pay1
  try dsimp only
  simp only [shapeCast_self]
  rw [addf_apply, addf_apply, maximumf_apply, addf_apply, bias_at bc r c]
  rfl

end Cert.KernelIdeal.Pay1

end
-- ==== Proof.Comb1.lean ====
/-
  Region 1, the combine stage of a layer, read as values of whole arrays.  At grid point `t` the body reads block `t`
  (rows `5000 t … 5000 t + 4999`) of the dense branch, of the gated branch and of the aggregated matrix, and the whole
  bias row, and writes block `t` of the layer's output: entry by entry `(da + max (agg + bc, 0)) + dm`.  Every block
  is the same entrywise function of the arrays read through the same rows, and the twenty blocks tile the rows, so
  the output array ends holding the three branches joined.  The region's entry contents `V` are a parameter.
-/
import proofs.«152414_j64991445123447_1_alg».proof.Proof.KernelIdealFrameP
import proofs.«152414_j64991445123447_1_alg».proof.Proof.Pay1

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Comb1

open Cert.KernelIdeal Cert.KernelIdeal.Gen Cert.KernelIdeal.Pay1

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three branch inputs and the output are cut into row blocks, block `t`
    at point `t`; the bias row is a single block, the same at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-! ## The input blocks, read off the arrays -/

/-- Entry `(r, q)` of input window 0's block `t` is entry `(5000 t + r, q)` of its array. -/
theorem b0_blk (c : Dev nD) (t : Fin cfg1.N) (r : Fin 5000) (q : Fin 32) (i : S100000x32.Idx)
    (h0 : (i 0).val = t.val * 5000 + r.val) (h1 : (i 1).val = q.val) :
    (iblk1 V c 0 t : Vec Ideal S5000x32 .f32) (ix2 r q) = (V c main_v7_0 : S100000x32.Idx → EReal) i := by
  have e := idx_facts t
  unfold iblk1
  rw [View.read_apply]
  show (V c main_v7_0 : S100000x32.Idx → EReal) _ = _
  refine congrArg _ (funext fun a => Fin.ext ?_)
  match a with
  | ⟨0, _⟩ => show win1_0.index t (0 : Fin 2) * 5000 + 1 * r.val = (i 0).val; rw [e.1, h0]; omega
  | ⟨1, _⟩ => show win1_0.index t (1 : Fin 2) * 32 + 1 * q.val = (i 1).val; rw [e.2.1, h1]; omega

/-- Entry `(r, q)` of input window 1's block `t` is entry `(5000 t + r, q)` of its array. -/
theorem b1_blk (c : Dev nD) (t : Fin cfg1.N) (r : Fin 5000) (q : Fin 32) (i : S100000x32.Idx)
    (h0 : (i 0).val = t.val * 5000 + r.val) (h1 : (i 1).val = q.val) :
    (iblk1 V c 1 t : Vec Ideal S5000x32 .f32) (ix2 r q) = (V c main_v7_2 : S100000x32.Idx → EReal) i := by
  have e := idx_facts t
  unfold iblk1
  rw [View.read_apply]
  show (V c main_v7_2 : S100000x32.Idx → EReal) _ = _
  refine congrArg _ (funext fun a => Fin.ext ?_)
  match a with
  | ⟨0, _⟩ => show win1_1.index t (0 : Fin 2) * 5000 + 1 * r.val = (i 0).val; rw [e.2.2.1, h0]; omega
  | ⟨1, _⟩ => show win1_1.index t (1 : Fin 2) * 32 + 1 * q.val = (i 1).val; rw [e.2.2.2.1, h1]; omega

/-- Entry `(r, q)` of input window 2's block `t` is entry `(5000 t + r, q)` of its array. -/
theorem b2_blk (c : Dev nD) (t : Fin cfg1.N) (r : Fin 5000) (q : Fin 32) (i : S100000x32.Idx)
    (h0 : (i 0).val = t.val * 5000 + r.val) (h1 : (i 1).val = q.val) :
    (iblk1 V c 2 t : Vec Ideal S5000x32 .f32) (ix2 r q) = (V c main_v17 : S100000x32.Idx → EReal) i := by
  have e := idx_facts t
  unfold iblk1
  rw [View.read_apply]
  show (V c main_v17 : S100000x32.Idx → EReal) _ = _
  refine congrArg _ (funext fun a => Fin.ext ?_)
  match a with
  | ⟨0, _⟩ => show win1_2.index t (0 : Fin 2) * 5000 + 1 * r.val = (i 0).val; rw [e.2.2.2.2.1, h0]; omega
  | ⟨1, _⟩ => show win1_2.index t (1 : Fin 2) * 32 + 1 * q.val = (i 1).val; rw [e.2.2.2.2.2.1, h1]; omega

/-- The bias row's one block is its whole array. -/
theorem w3_blk (c : Dev nD) (t : Fin cfg1.N) (y : S1x32.Idx) :
    (iblk1 V c 3 t : Vec Ideal S1x32 .f32) y = (V c main_v18 : S1x32.Idx → EReal) y := by
  have e := idx_facts t
  unfold iblk1
  rw [View.read_apply]
  show (V c main_v18 : S1x32.Idx → EReal) _ = _
  refine congrArg _ (funext fun a => Fin.ext ?_)
  match a with
  | ⟨0, _⟩ => show win1_3.index t (0 : Fin 2) * 1 + 1 * (y 0).val = (y 0).val; rw [e.2.2.2.2.2.2.1]; omega
  | ⟨1, _⟩ => show win1_3.index t (1 : Fin 2) * 32 + 1 * (y 1).val = (y 1).val; rw [e.2.2.2.2.2.2.2.1]; omega

/-! ## What each point writes back, and the array after the region -/

/-- A bias row `[1, 32]` as a vector over the columns. -/
abbrev rowOf (b : S1x32.Idx → EReal) : Gnn.Vect 32 := fun i => b (ix2 0 (i 0))

/-- Block `t` of the output window, as written back, is block `t` of the three branches joined. -/
theorem flushed_4 (c : Dev nD) (t : Fin cfg1.N) :
    (dat1 V c).flushed 4 t = ((cfg1.win 4).blk t).view.read (Elt Ideal)
      (Gnn.join (V c main_v7_0) (Gnn.spect (V c main_v17) (rowOf (V c main_v18))) (V c main_v7_2) : S100000x32.Idx → EReal) := by
  show (cfg1.win 4).cut (grid1.coords t) ((dat1 V c).after 4 t) = _
  rw [after1_4]
  unfold out1_4
  rw [View.canon_unit_zero hz]
  simp only [View.ld_unit_zero (S := S5000x32) hz, View.ld_unit_zero (S := S1x32) hz]
  have e := idx_facts t
  funext j
  obtain ⟨r, q, rfl⟩ : ∃ (r : Fin 5000) (q : Fin 32), j = ix2 r q := ⟨j 0, j 1, eq_ix2 j⟩
  rw [View.read_apply]
  refine (pay_comb (iblk1 V c 2 t) (iblk1 V c 3 t) (iblk1 V c 0 t) (iblk1 V c 1 t) r q).trans ?_
  have hi0 : ((((cfg1.win 4).blk t).view.emb (ix2 r q)) 0).val = t.val * 5000 + r.val := by
    show win1_4.index t (0 : Fin 2) * 5000 + 1 * r.val = _; rw [e.2.2.2.2.2.2.2.2.1]; omega
  have hi1 : ((((cfg1.win 4).blk t).view.emb (ix2 r q)) 1).val = q.val := by
    show win1_4.index t (1 : Fin 2) * 32 + 1 * q.val = _; rw [e.2.2.2.2.2.2.2.2.2]; omega
  unfold Gnn.join Gnn.spect Gnn.relu
  show _ + max (_ + _) _ + _ = _ + max (_ + _) _ + _
  refine congrArg₂ HAdd.hAdd (congrArg₂ HAdd.hAdd ?_ (congrArg₂ max (congrArg₂ HAdd.hAdd ?_ ?_) rfl)) ?_
  · exact b0_blk V c t r q _ hi0 hi1
  · exact b2_blk V c t r q _ hi0 hi1
  · exact (w3_blk V c t (ix2 0 q)).trans (congrArg (fun z => (V c main_v18 : S1x32.Idx → EReal) (ix2 0 z)) (Fin.ext hi1.symm))
  · exact b1_blk V c t r q _ hi0 hi1

/-- An index of the output array is in point `t`'s block iff each coordinate is in the block's range. -/
theorem mem_blk_4 (t : Fin cfg1.N) (i : S100000x32.Idx) :
    i ∈ ((cfg1.win 4).blk t).view.set ↔ ∀ a : Fin 2, win1_4.index t a * S5000x32.size a ≤ (i a).val ∧ (i a).val < win1_4.index t a * S5000x32.size a + S5000x32.size a := by
  show i ∈ ((View.whole main_v19).slice (win1_4.rect t)).set ↔ _
  rw [View.set_slice_whole, Rect.mem_set_unit]
  exact Iff.rfl

/-- Every row lies in the block of the point `row / 5000`: the blocks cover the array. -/
theorem cover_4 (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  have hN : cfg1.N = 20 := N_1
  have ht : (i 0).val / 5000 < cfg1.N := by rw [hN]; omega
  have e := idx_facts ⟨(i 0).val / 5000, ht⟩
  refine ⟨⟨(i 0).val / 5000, ht⟩, flush1_4 _, ?_⟩
  rw [mem_blk_4]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e.2.2.2.2.2.2.2.2.1]
    show (i 0).val / 5000 * 5000 ≤ (i 0).val ∧ (i 0).val < (i 0).val / 5000 * 5000 + 5000
    omega
  | ⟨1, _⟩ =>
    show win1_4.index ⟨(i 0).val / 5000, ht⟩ (1 : Fin 2) * 32 ≤ (i 1).val ∧ (i 1).val < win1_4.index ⟨(i 0).val / 5000, ht⟩ (1 : Fin 2) * 32 + 32
    rw [e.2.2.2.2.2.2.2.2.2]
    omega

/-- After the region the output array holds the three branches joined. -/
theorem final_4 (c : Dev nD) :
    (dat1 V c).arrAt 4 cfg1.N
      = (Gnn.join (V c main_v7_0) (Gnn.spect (V c main_v17) (rowOf (V c main_v18))) (V c main_v7_2) : S100000x32.Idx → EReal) :=
  (dat1 V c).arrAt_eq_of_cover 4 _ (fun t _ => flushed_4 V c t) cover_4

end Cert.KernelIdeal.Comb1

end
-- ==== Proof.Pay2.lean ====
/-
  The arithmetic of region 2's body, the dense stage of a layer, at one entry of a block.  The body multiplies its
  block of the layer's input (5000 rows) by four weight matrices — the rounding to bf16 on the way into the
  multiplier is the identity on the extended reals, and the multiplier starts from a zero accumulator, so each
  product's entry `(r, c)` is the plain sum over `k` of `x (r, k) * w (k, c)` —, adds a bias row to three of the
  products, and stores  max (x·Wa + ba, 0),  x·Wc  and  max ((x·Wm1 + bm1) ⊙ (x·Wm2 + bm2), 0).
-/
import proofs.«152414_j64991445123447_1_alg».proof.Proof.Gen.KernelIdeal.Skeleton
import proofs.«152414_j64991445123447_1_alg».proof.Proof.Spec
import proofs.«152414_j64991445123447_1_alg».proof.Proof.LibDotRows
import Idealize.ShloMosaic.Lib.Pipeline.Value

noncomputable section

open Idealize.ShloMosaic Idealize.ShloMosaic.ValueIdx
open scoped BigOperators

namespace Cert.KernelIdeal.Pay2

open Cert.KernelIdeal Cert.KernelIdeal.Gen

/-- The bias row broadcast down the block: entry `(r, c)` is the row's entry `c`. -/
theorem bias_at (b : Vec Ideal S1x32 .f32) (r : Fin 5000) (c : Fin 32) :
    broadcastTo S5000x32 (shapeCast S1x32 b shapeCasts_S1x32_S1x32) broadcasts_S1x32_S5000x32 (ix2 r c) = b (ix2 0 c) := by
  rw [shapeCast_self]
  refine broadcastTo_apply b broadcasts_S1x32_S5000x32 (ix2 r c) (ix2 0 c) fun a => ?_
  match a with
  | ⟨0, _⟩ => rfl
  | ⟨1, _⟩ => rfl

/-- What goes into the multiplier on the left is the input block itself. -/
theorem lhs_eq (x : Vec Ideal S5000x32 .f32) : k2_pay2 (F := Ideal) x = truncf .bf16 x bitsLt_bf16_f32 := by
  unfold k2_pay2
  first | rfl | rw [shapeCast_self]

/-- The multiplier's product into a zero accumulator: entry `(r, c)` is the sum over `k` of `x (r, k) * w (k, c)`. -/
theorem mm_at (x : Vec Ideal S5000x32 .f32) (w : Vec Ideal S32x32 .f32) (r : Fin 5000) (c : Fin 32) :
    matmul dot_S5000x32_S32x32_S5000x32_1_0_0_1_n_n none (k2_pay2 (F := Ideal) x) (truncf .bf16 w bitsLt_bf16_f32)
        (constant S5000x32 .f32 0x00000000#32) (ix2 r c)
      = ∑ k : Fin 32, x (ix2 r k) * w (ix2 k c) := by
  rw [lhs_eq]
  exact matmul_zero_rows dot_S5000x32_S32x32_S5000x32_1_0_0_1_n_n none rfl rfl
    (fun j k => by
      unfold DotDims.lhsIdx
      rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
      rfl)
    (fun j k => dot_S5000x32_S32x32_S5000x32_1_0_0_1_n_n.lhsIdx_val_of_single rfl j k)
    (fun j k => dot_S5000x32_S32x32_S5000x32_1_0_0_1_n_n.rhsIdx_val_of_single rfl j k)
    (fun j k => by
      unfold DotDims.rhsIdx
      rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
      rfl)
    (truncf .bf16 x bitsLt_bf16_f32) (truncf .bf16 w bitsLt_bf16_f32) r c

/-- The dense branch's payload at `(r, c)`. -/
theorem pay_dense (x : Vec Ideal S5000x32 .f32) (w : Vec Ideal S32x32 .f32) (b : Vec Ideal S1x32 .f32) (r : Fin 5000) (c : Fin 32) :
    k2_pay3 (F := Ideal) x w b (ix2 r c) = max ((∑ k : Fin 32, x (ix2 r k) * w (ix2 k c)) + b (ix2 0 c)) Gnn.zero := by
  unfold k2_pay3
  try dsimp only
  rw [maximumf_apply, addf_apply, mm_at x w r c, bias_at b r c]
  rfl

/-- The product's payload at `(r, c)`. -/
theorem pay_prod (x : Vec Ideal S5000x32 .f32) (w : Vec Ideal S32x32 .f32) (r : Fin 5000) (c : Fin 32) :
    k2_pay4 (F := Ideal) x w (ix2 r c) = ∑ k : Fin 32, x (ix2 r k) * w (ix2 k c) := by
  unfold k2_pay4
  try dsimp only
  exact mm_at x w r c

/-- The gated branch's payload at `(r, c)`. -/
theorem pay_gated (x : Vec Ideal S5000x32 .f32) (w1 w2 : Vec Ideal S32x32 .f32) (b1 b2 : Vec Ideal S1x32 .f32) (r : Fin 5000) (c : Fin 32) :
    k2_pay1 (F := Ideal) (k2_pay5 x w1 w2 b1 b2) (ix2 r c)
      = max (((∑ k : Fin 32, x (ix2 r k) * w1 (ix2 k c)) + b1 (ix2 0 c)) * ((∑ k : Fin 32, x (ix2 r k) * w2 (ix2 k c)) + b2 (ix2 0 c))) Gnn.zero := by
  unfold k2_pay1 k2_pay5
  try dsimp only
  rw [maximumf_apply, mulf_apply, addf_apply, addf_apply, mm_at x w1 r c, mm_at x w2 r c, bias_at b1 r c, bias_at b2 r c]
  rfl

end Cert.KernelIdeal.Pay2

end
-- ==== Proof.Dense2.lean ====
/-
  Region 2, the dense stage of a layer, read as values of whole arrays.  At grid point `t` the body reads rows
  `5000 t … 5000 t + 4999` of the layer's input and the whole weight matrices and bias rows, and writes block `t` of
  three output arrays.  Entry `(r, c)` of an output block depends only on row `r` of the input block, so block `t` of
  each output is block `t` of ONE function of the arrays the region finds — the dense branch, the product with the
  graph weights, the gated branch of the layer —, and as the twenty blocks tile the rows, each output array ends
  holding that function.  The region's entry contents `V` are a parameter.
-/
import proofs.«152414_j64991445123447_1_alg».proof.Proof.KernelIdealFrameP
import proofs.«152414_j64991445123447_1_alg».proof.Proof.Pay2

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Dense2

open Cert.KernelIdeal Cert.KernelIdeal.Gen Cert.KernelIdeal.Pay2

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input and the three outputs are cut into row blocks, block `t` at
    point `t`; the weights and the bias rows are single blocks, the same at every point. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0
    ∧ win2_9.index t (0 : Fin 2) = t.val ∧ win2_9.index t (1 : Fin 2) = 0
    ∧ win2_10.index t (0 : Fin 2) = t.val ∧ win2_10.index t (1 : Fin 2) = 0 :=
  (by decide +kernel : ∀ t : Fin grid2.N, _)

/-! ## The input blocks, read off the arrays -/

/-- Row `r` of input block `t` is row `5000 t + r` of the layer's input. -/
theorem x_blk (c : Dev nD) (t : Fin cfg2.N) (r : Fin 5000) (k : Fin 32) (i : S100000x32.Idx)
    (h0 : (i 0).val = t.val * 5000 + r.val) (h1 : (i 1).val = k.val) :
    (iblk2 V c 0 t : Vec Ideal S5000x32 .f32) (ix2 r k) = (V c main_v19 : S100000x32.Idx → EReal) i := by
  obtain ⟨e0, e1, -⟩ := idx_facts t
  unfold iblk2
  rw [View.read_apply]
  show (V c main_v19 : S100000x32.Idx → EReal) _ = _
  refine congrArg _ (funext fun a => Fin.ext ?_)
  match a with
  | ⟨0, _⟩ => show win2_0.index t (0 : Fin 2) * 5000 + 1 * r.val = (i 0).val; rw [e0, h0]; omega
  | ⟨1, _⟩ => show win2_0.index t (1 : Fin 2) * 32 + 1 * k.val = (i 1).val; rw [e1, h1]; omega

/-- Window 1's one block is its whole array. -/
theorem w1_blk (c : Dev nD) (t : Fin cfg2.N) (y : S32x32.Idx) :
    (iblk2 V c 1 t : Vec Ideal S32x32 .f32) y = (V c main_arg14 : S32x32.Idx → EReal) y := by
  have e := idx_facts t
  unfold iblk2
  rw [View.read_apply]
  show (V c main_arg14 : S32x32.Idx → EReal) _ = _
  refine congrArg _ (funext fun a => Fin.ext ?_)
  match a with
  | ⟨0, _⟩ => show win2_1.index t (0 : Fin 2) * 32 + 1 * (y 0).val = (y 0).val; rw [e.2.2.1]; omega
  | ⟨1, _⟩ => show win2_1.index t (1 : Fin 2) * 32 + 1 * (y 1).val = (y 1).val; rw [e.2.2.2.1]; omega

/-- Window 3's one block is its whole array. -/
theorem w3_blk (c : Dev nD) (t : Fin cfg2.N) (y : S32x32.Idx) :
    (iblk2 V c 3 t : Vec Ideal S32x32 .f32) y = (V c main_arg4 : S32x32.Idx → EReal) y := by
  have e := idx_facts t
  unfold iblk2
  rw [View.read_apply]
  show (V c main_arg4 : S32x32.Idx → EReal) _ = _
  refine congrArg _ (funext fun a => Fin.ext ?_)
  match a with
  | ⟨0, _⟩ => show win2_3.index t (0 : Fin 2) * 32 + 1 * (y 0).val = (y 0).val; rw [e.2.2.2.2.2.2.1]; omega
  | ⟨1, _⟩ => show win2_3.index t (1 : Fin 2) * 32 + 1 * (y 1).val = (y 1).val; rw [e.2.2.2.2.2.2.2.1]; omega

/-- Window 4's one block is its whole array. -/
theorem w4_blk (c : Dev nD) (t : Fin cfg2.N) (y : S32x32.Idx) :
    (iblk2 V c 4 t : Vec Ideal S32x32 .f32) y = (V c main_arg16 : S32x32.Idx → EReal) y := by
  have e := idx_facts t
  unfold iblk2
  rw [View.read_apply]
  show (V c main_arg16 : S32x32.Idx → EReal) _ = _
  refine congrArg _ (funext fun a => Fin.ext ?_)
  match a with
  | ⟨0, _⟩ => show win2_4.index t (0 : Fin 2) * 32 + 1 * (y 0).val = (y 0).val; rw [e.2.2.2.2.2.2.2.2.1]; omega
  | ⟨1, _⟩ => show win2_4.index t (1 : Fin 2) * 32 + 1 * (y 1).val = (y 1).val; rw [e.2.2.2.2.2.2.2.2.2.1]; omega

/-- Window 6's one block is its whole array. -/
theorem w6_blk (c : Dev nD) (t : Fin cfg2.N) (y : S32x32.Idx) :
    (iblk2 V c 6 t : Vec Ideal S32x32 .f32) y = (V c main_arg18 : S32x32.Idx → EReal) y := by
  have e := idx_facts t
  unfold iblk2
  rw [View.read_apply]
  show (V c main_arg18 : S32x32.Idx → EReal) _ = _
  refine congrArg _ (funext fun a => Fin.ext ?_)
  match a with
  | ⟨0, _⟩ => show win2_6.index t (0 : Fin 2) * 32 + 1 * (y 0).val = (y 0).val; rw [e.2.2.2.2.2.2.2.2.2.2.2.2.1]; omega
  | ⟨1, _⟩ => show win2_6.index t (1 : Fin 2) * 32 + 1 * (y 1).val = (y 1).val; rw [e.2.2.2.2.2.2.2.2.2.2.2.2.2.1]; omega

/-- Window 2's one block is its whole array. -/
theorem w2_blk (c : Dev nD) (t : Fin cfg2.N) (y : S1x32.Idx) :
    (iblk2 V c 2 t : Vec Ideal S1x32 .f32) y = (V c main_v20 : S1x32.Idx → EReal) y := by
  have e := idx_facts t
  unfold iblk2
  rw [View.read_apply]
  show (V c main_v20 : S1x32.Idx → EReal) _ = _
  refine congrArg _ (funext fun a => Fin.ext ?_)
  match a with
  | ⟨0, _⟩ => show win2_2.index t (0 : Fin 2) * 1 + 1 * (y 0).val = (y 0).val; rw [e.2.2.2.2.1]; omega
  | ⟨1, _⟩ => show win2_2.index t (1 : Fin 2) * 32 + 1 * (y 1).val = (y 1).val; rw [e.2.2.2.2.2.1]; omega

/-- Window 5's one block is its whole array. -/
theorem w5_blk (c : Dev nD) (t : Fin cfg2.N) (y : S1x32.Idx) :
    (iblk2 V c 5 t : Vec Ideal S1x32 .f32) y = (V c main_v21 : S1x32.Idx → EReal) y := by
  have e := idx_facts t
  unfold iblk2
  rw [View.read_apply]
  show (V c main_v21 : S1x32.Idx → EReal) _ = _
  refine congrArg _ (funext fun a => Fin.ext ?_)
  match a with
  | ⟨0, _⟩ => show win2_5.index t (0 : Fin 2) * 1 + 1 * (y 0).val = (y 0).val; rw [e.2.2.2.2.2.2.2.2.2.2.1]; omega
  | ⟨1, _⟩ => show win2_5.index t (1 : Fin 2) * 32 + 1 * (y 1).val = (y 1).val; rw [e.2.2.2.2.2.2.2.2.2.2.2.1]; omega

/-- Window 7's one block is its whole array. -/
theorem w7_blk (c : Dev nD) (t : Fin cfg2.N) (y : S1x32.Idx) :
    (iblk2 V c 7 t : Vec Ideal S1x32 .f32) y = (V c main_v22 : S1x32.Idx → EReal) y := by
  have e := idx_facts t
  unfold iblk2
  rw [View.read_apply]
  show (V c main_v22 : S1x32.Idx → EReal) _ = _
  refine congrArg _ (funext fun a => Fin.ext ?_)
  match a with
  | ⟨0, _⟩ => show win2_7.index t (0 : Fin 2) * 1 + 1 * (y 0).val = (y 0).val; rw [e.2.2.2.2.2.2.2.2.2.2.2.2.2.2.1]; omega
  | ⟨1, _⟩ => show win2_7.index t (1 : Fin 2) * 32 + 1 * (y 1).val = (y 1).val; rw [e.2.2.2.2.2.2.2.2.2.2.2.2.2.2.2.1]; omega

/-! ## What each point writes back, and the arrays after the region -/

/-- A bias row `[1, 32]` as a vector over the columns. -/
abbrev rowOf (b : S1x32.Idx → EReal) : Gnn.Vect 32 := fun i => b (ix2 0 (i 0))

/-- Block `t` of output window 8, as written back, is block `t` of the dense branch of the arrays. -/
theorem flushed_8 (c : Dev nD) (t : Fin cfg2.N) :
    (dat2 V c).flushed 8 t = ((cfg2.win 8).blk t).view.read (Elt Ideal) (Gnn.dense (V c main_v19) (V c main_arg14) (rowOf (V c main_v20)) : S100000x32.Idx → EReal) := by
  show (cfg2.win 8).cut (grid2.coords t) ((dat2 V c).after 8 t) = _
  rw [after2_8]
  unfold out2_8
  rw [View.canon_unit_zero hz]
  simp only [View.ld_unit_zero (S := S5000x32) hz, View.ld_unit_zero (S := S32x32) hz, View.ld_unit_zero (S := S1x32) hz]
  have e := idx_facts t
  funext j
  obtain ⟨r, q, rfl⟩ : ∃ (r : Fin 5000) (q : Fin 32), j = ix2 r q := ⟨j 0, j 1, eq_ix2 j⟩
  rw [View.read_apply]
  refine (pay_dense (iblk2 V c 0 t) (iblk2 V c 1 t) (iblk2 V c 2 t) r q).trans ?_
  have hi0 : ((((cfg2.win 8).blk t).view.emb (ix2 r q)) 0).val = t.val * 5000 + r.val := by
    show win2_8.index t (0 : Fin 2) * 5000 + 1 * r.val = _; rw [e.2.2.2.2.2.2.2.2.2.2.2.2.2.2.2.2.1]; omega
  have hi1 : ((((cfg2.win 8).blk t).view.emb (ix2 r q)) 1).val = q.val := by
    show win2_8.index t (1 : Fin 2) * 32 + 1 * q.val = _; rw [e.2.2.2.2.2.2.2.2.2.2.2.2.2.2.2.2.2.1]; omega
  unfold Gnn.dense Gnn.relu Gnn.lin Gnn.prod
  show max (_ + _) _ = max (_ + _) _
  refine congrArg₂ max (congrArg₂ HAdd.hAdd (Finset.sum_congr rfl fun k _ => congrArg₂ HMul.hMul ?_ ?_) ?_) rfl
  · exact x_blk V c t r k _ hi0 rfl
  · exact (w1_blk V c t (ix2 k q)).trans (congrArg (fun z => (V c main_arg14 : S32x32.Idx → EReal) (ix2 k z)) (Fin.ext hi1.symm))
  · exact (w2_blk V c t (ix2 0 q)).trans (congrArg (fun z => (V c main_v20 : S1x32.Idx → EReal) (ix2 0 z)) (Fin.ext hi1.symm))

/-- An index of output window 8's array is in point `t`'s block iff each coordinate is in the block's range. -/
theorem mem_blk_8 (t : Fin cfg2.N) (i : S100000x32.Idx) :
    i ∈ ((cfg2.win 8).blk t).view.set ↔ ∀ a : Fin 2, win2_8.index t a * S5000x32.size a ≤ (i a).val ∧ (i a).val < win2_8.index t a * S5000x32.size a + S5000x32.size a := by
  show i ∈ ((View.whole main_v23_0).slice (win2_8.rect t)).set ↔ _
  rw [View.set_slice_whole, Rect.mem_set_unit]
  exact Iff.rfl

/-- Every row lies in the block of the point `row / 5000`: the blocks cover the array. -/
theorem cover_8 (i : S100000x32.Idx) :
    ∃ t : Fin cfg2.N, (cfg2.win 8).flush t = true ∧ i ∈ ((cfg2.win 8).blk t).view.set := by
  have hi0 : (i 0).val < 100000 := (i 0).isLt
  have hi1 : (i 1).val < 32 := (i 1).isLt
  have hN : cfg2.N = 20 := N_2
  have ht : (i 0).val / 5000 < cfg2.N := by rw [hN]; omega
  have e := idx_facts ⟨(i 0).val / 5000, ht⟩
  refine ⟨⟨(i 0).val / 5000, ht⟩, flush2_8 _, ?_⟩
  rw [mem_blk_8]
  intro a
  match a with
  | ⟨0, _⟩ =>
    show win2_8.index ⟨(i 0).val / 5000, ht⟩ (0 : Fin 2) * 5000 ≤ (i 0).val ∧ (i 0).val < win2_8.index ⟨(i 0).val / 5000, ht⟩ (0 : Fin 2) * 5000 + 5000
    rw [e.2.2.2.2.2.2.2.2.2.2.2.2.2.2.2.2.1]
    show (i 0).val / 5000 * 5000 ≤ (i 0).val ∧ (i 0).val < (i 0).val / 5000 * 5000 + 5000
    omega
  | ⟨1, _⟩ =>
    show win2_8.index ⟨(i 0).val / 5000, ht⟩ (1 : Fin 2) * 32 ≤ (i 1).val ∧ (i 1).val < win2_8.index ⟨(i 0).val / 5000, ht⟩ (1 : Fin 2) * 32 + 32
    rw [e.2.2.2.2.2.2.2.2.2.2.2.2.2.2.2.2.2.1]
    omega

/-- After the region output window 8's array holds the dense branch. -/
theorem final_8 (c : Dev nD) :
    (dat2 V c).arrAt 8 cfg2.N = (Gnn.dense (V c main_v19) (V c main_arg14) (rowOf (V c main_v20)) : S100000x32.Idx → EReal) :=
  (dat2 V c).arrAt_eq_of_cover 8 _ (fun t _ => flushed_8 V c t) cover_8

/-- Block `t` of output window 9, as written back, is block `t` of the product with the graph weights of the arrays. -/
theorem flushed_9 (c : Dev nD) (t : Fin cfg2.N) :
    (dat2 V c).flushed 9 t = ((cfg2.win 9).blk t).view.read (Elt Ideal) (Gnn.prod (V c main_v19) (V c main_arg4) : S100000x32.Idx → EReal) := by
  show (cfg2.win 9).cut (grid2.coords t) ((dat2 V c).after 9 t) = _
  rw [after2_9]
  unfold out2_9
  rw [View.canon_unit_zero hz]
  simp only [View.ld_unit_zero (S := S5000x32) hz, View.ld_unit_zero (S := S32x32) hz, View.ld_unit_zero (S := S1x32) hz]
  have e := idx_facts t
  funext j
  obtain ⟨r, q, rfl⟩ : ∃ (r : Fin 5000) (q : Fin 32), j = ix2 r q := ⟨j 0, j 1, eq_ix2 j⟩
  rw [View.read_apply]
  refine (pay_prod (iblk2 V c 0 t) (iblk2 V c 3 t) r q).trans ?_
  have hi0 : ((((cfg2.win 9).blk t).view.emb (ix2 r q)) 0).val = t.val * 5000 + r.val := by
    show win2_9.index t (0 : Fin 2) * 5000 + 1 * r.val = _; rw [e.2.2.2.2.2.2.2.2.2.2.2.2.2.2.2.2.2.2.1]; omega
  have hi1 : ((((cfg2.win 9).blk t).view.emb (ix2 r q)) 1).val = q.val := by
    show win2_9.index t (1 : Fin 2) * 32 + 1 * q.val = _; rw [e.2.2.2.2.2.2.2.2.2.2.2.2.2.2.2.2.2.2.2.1]; omega
  unfold Gnn.prod
  show Finset.sum _ _ = Finset.sum _ _
  refine Finset.sum_congr rfl fun k _ => congrArg₂ HMul.hMul ?_ ?_
  · exact x_blk V c t r k _ hi0 rfl
  · exact (w3_blk V c t (ix2 k q)).trans (congrArg (fun z => (V c main_arg4 : S32x32.Idx → EReal) (ix2 k z)) (Fin.ext hi1.symm))

/-- An index of output window 9's array is in point `t`'s block iff each coordinate is in the block's range. -/
theorem mem_blk_9 (t : Fin cfg2.N) (i : S100000x32.Idx) :
    i ∈ ((cfg2.win 9).blk t).view.set ↔ ∀ a : Fin 2, win2_9.index t a * S5000x32.size a ≤ (i a).val ∧ (i a).val < win2_9.index t a * S5000x32.size a + S5000x32.size a := by
  show i ∈ ((View.whole main_v23_1).slice (win2_9.rect t)).set ↔ _
  rw [View.set_slice_whole, Rect.mem_set_unit]
  exact Iff.rfl

/-- Every row lies in the block of the point `row / 5000`: the blocks cover the array. -/
theorem cover_9 (i : S100000x32.Idx) :
    ∃ t : Fin cfg2.N, (cfg2.win 9).flush t = true ∧ i ∈ ((cfg2.win 9).blk t).view.set := by
  have hi0 : (i 0).val < 100000 := (i 0).isLt
  have hi1 : (i 1).val < 32 := (i 1).isLt
  have hN : cfg2.N = 20 := N_2
  have ht : (i 0).val / 5000 < cfg2.N := by rw [hN]; omega
  have e := idx_facts ⟨(i 0).val / 5000, ht⟩
  refine ⟨⟨(i 0).val / 5000, ht⟩, flush2_9 _, ?_⟩
  rw [mem_blk_9]
  intro a
  match a with
  | ⟨0, _⟩ =>
    show win2_9.index ⟨(i 0).val / 5000, ht⟩ (0 : Fin 2) * 5000 ≤ (i 0).val ∧ (i 0).val < win2_9.index ⟨(i 0).val / 5000, ht⟩ (0 : Fin 2) * 5000 + 5000
    rw [e.2.2.2.2.2.2.2.2.2.2.2.2.2.2.2.2.2.2.1]
    show (i 0).val / 5000 * 5000 ≤ (i 0).val ∧ (i 0).val < (i 0).val / 5000 * 5000 + 5000
    omega
  | ⟨1, _⟩ =>
    show win2_9.index ⟨(i 0).val / 5000, ht⟩ (1 : Fin 2) * 32 ≤ (i 1).val ∧ (i 1).val < win2_9.index ⟨(i 0).val / 5000, ht⟩ (1 : Fin 2) * 32 + 32
    rw [e.2.2.2.2.2.2.2.2.2.2.2.2.2.2.2.2.2.2.2.1]
    omega

/-- After the region output window 9's array holds the product with the graph weights. -/
theorem final_9 (c : Dev nD) :
    (dat2 V c).arrAt 9 cfg2.N = (Gnn.prod (V c main_v19) (V c main_arg4) : S100000x32.Idx → EReal) :=
  (dat2 V c).arrAt_eq_of_cover 9 _ (fun t _ => flushed_9 V c t) cover_9

/-- Block `t` of output window 10, as written back, is block `t` of the gated branch of the arrays. -/
theorem flushed_10 (c : Dev nD) (t : Fin cfg2.N) :
    (dat2 V c).flushed 10 t = ((cfg2.win 10).blk t).view.read (Elt Ideal) (Gnn.gated (V c main_v19) (V c main_arg16) (rowOf (V c main_v21)) (V c main_arg18) (rowOf (V c main_v22)) : S100000x32.Idx → EReal) := by
  show (cfg2.win 10).cut (grid2.coords t) ((dat2 V c).after 10 t) = _
  rw [after2_10]
  unfold out2_10
  rw [View.canon_unit_zero hz]
  simp only [View.ld_unit_zero (S := S5000x32) hz, View.ld_unit_zero (S := S32x32) hz, View.ld_unit_zero (S := S1x32) hz]
  have e := idx_facts t
  funext j
  obtain ⟨r, q, rfl⟩ : ∃ (r : Fin 5000) (q : Fin 32), j = ix2 r q := ⟨j 0, j 1, eq_ix2 j⟩
  rw [View.read_apply]
  refine (pay_gated (iblk2 V c 0 t) (iblk2 V c 4 t) (iblk2 V c 6 t) (iblk2 V c 5 t) (iblk2 V c 7 t) r q).trans ?_
  have hi0 : ((((cfg2.win 10).blk t).view.emb (ix2 r q)) 0).val = t.val * 5000 + r.val := by
    show win2_10.index t (0 : Fin 2) * 5000 + 1 * r.val = _; rw [e.2.2.2.2.2.2.2.2.2.2.2.2.2.2.2.2.2.2.2.2.1]; omega
  have hi1 : ((((cfg2.win 10).blk t).view.emb (ix2 r q)) 1).val = q.val := by
    show win2_10.index t (1 : Fin 2) * 32 + 1 * q.val = _; rw [e.2.2.2.2.2.2.2.2.2.2.2.2.2.2.2.2.2.2.2.2.2]; omega
  unfold Gnn.gated Gnn.relu Gnn.lin Gnn.prod
  show max ((_ + _) * (_ + _)) _ = max ((_ + _) * (_ + _)) _
  refine congrArg₂ max (congrArg₂ HMul.hMul
    (congrArg₂ HAdd.hAdd (Finset.sum_congr rfl fun k _ => congrArg₂ HMul.hMul ?_ ?_) ?_)
    (congrArg₂ HAdd.hAdd (Finset.sum_congr rfl fun k _ => congrArg₂ HMul.hMul ?_ ?_) ?_)) rfl
  · exact x_blk V c t r k _ hi0 rfl
  · exact (w4_blk V c t (ix2 k q)).trans (congrArg (fun z => (V c main_arg16 : S32x32.Idx → EReal) (ix2 k z)) (Fin.ext hi1.symm))
  · exact (w5_blk V c t (ix2 0 q)).trans (congrArg (fun z => (V c main_v21 : S1x32.Idx → EReal) (ix2 0 z)) (Fin.ext hi1.symm))
  · exact x_blk V c t r k _ hi0 rfl
  · exact (w6_blk V c t (ix2 k q)).trans (congrArg (fun z => (V c main_arg18 : S32x32.Idx → EReal) (ix2 k z)) (Fin.ext hi1.symm))
  · exact (w7_blk V c t (ix2 0 q)).trans (congrArg (fun z => (V c main_v22 : S1x32.Idx → EReal) (ix2 0 z)) (Fin.ext hi1.symm))

/-- An index of output window 10's array is in point `t`'s block iff each coordinate is in the block's range. -/
theorem mem_blk_10 (t : Fin cfg2.N) (i : S100000x32.Idx) :
    i ∈ ((cfg2.win 10).blk t).view.set ↔ ∀ a : Fin 2, win2_10.index t a * S5000x32.size a ≤ (i a).val ∧ (i a).val < win2_10.index t a * S5000x32.size a + S5000x32.size a := by
  show i ∈ ((View.whole main_v23_2).slice (win2_10.rect t)).set ↔ _
  rw [View.set_slice_whole, Rect.mem_set_unit]
  exact Iff.rfl

/-- Every row lies in the block of the point `row / 5000`: the blocks cover the array. -/
theorem cover_10 (i : S100000x32.Idx) :
    ∃ t : Fin cfg2.N, (cfg2.win 10).flush t = true ∧ i ∈ ((cfg2.win 10).blk t).view.set := by
  have hi0 : (i 0).val < 100000 := (i 0).isLt
  have hi1 : (i 1).val < 32 := (i 1).isLt
  have hN : cfg2.N = 20 := N_2
  have ht : (i 0).val / 5000 < cfg2.N := by rw [hN]; omega
  have e := idx_facts ⟨(i 0).val / 5000, ht⟩
  refine ⟨⟨(i 0).val / 5000, ht⟩, flush2_10 _, ?_⟩
  rw [mem_blk_10]
  intro a
  match a with
  | ⟨0, _⟩ =>
    show win2_10.index ⟨(i 0).val / 5000, ht⟩ (0 : Fin 2) * 5000 ≤ (i 0).val ∧ (i 0).val < win2_10.index ⟨(i 0).val / 5000, ht⟩ (0 : Fin 2) * 5000 + 5000
    rw [e.2.2.2.2.2.2.2.2.2.2.2.2.2.2.2.2.2.2.2.2.1]
    show (i 0).val / 5000 * 5000 ≤ (i 0).val ∧ (i 0).val < (i 0).val / 5000 * 5000 + 5000
    omega
  | ⟨1, _⟩ =>
    show win2_10.index ⟨(i 0).val / 5000, ht⟩ (1 : Fin 2) * 32 ≤ (i 1).val ∧ (i 1).val < win2_10.index ⟨(i 0).val / 5000, ht⟩ (1 : Fin 2) * 32 + 32
    rw [e.2.2.2.2.2.2.2.2.2.2.2.2.2.2.2.2.2.2.2.2.2]
    omega

/-- After the region output window 10's array holds the gated branch. -/
theorem final_10 (c : Dev nD) :
    (dat2 V c).arrAt 10 cfg2.N = (Gnn.gated (V c main_v19) (V c main_arg16) (rowOf (V c main_v21)) (V c main_arg18) (rowOf (V c main_v22)) : S100000x32.Idx → EReal) :=
  (dat2 V c).arrAt_eq_of_cover 10 _ (fun t _ => flushed_10 V c t) cover_10

end Cert.KernelIdeal.Dense2

end
-- ==== Proof.Pay3.lean ====
/-
  The arithmetic of region 3's body, the combine stage of a layer, at one entry of a block: from blocks of the
  dense branch `da`, the gated branch `dm` and the aggregated matrix `agg`, and the bias row `bc`, it stores
  (da + max (agg + bc, 0)) + dm — the dense and the graph branch added first, the gated branch last.
-/
import proofs.«152414_j64991445123447_1_alg».proof.Proof.Gen.KernelIdeal.Skeleton
import proofs.«152414_j64991445123447_1_alg».proof.Proof.Spec
import proofs.«152414_j64991445123447_1_alg».proof.Proof.LibDotRows
import Idealize.ShloMosaic.Lib.Pipeline.Value

noncomputable section

open Idealize.ShloMosaic Idealize.ShloMosaic.ValueIdx
open scoped BigOperators

namespace Cert.KernelIdeal.Pay3

open Cert.KernelIdeal Cert.KernelIdeal.Gen

/-- The bias row broadcast down the block: entry `(r, c)` is the row's entry `c`. -/
theorem bias_at (b : Vec Ideal S1x32 .f32) (r : Fin 5000) (c : Fin 32) :
    broadcastTo S5000x32 b broadcasts_S1x32_S5000x32 (ix2 r c) = b (ix2 0 c) := by
  refine broadcastTo_apply b broadcasts_S1x32_S5000x32 (ix2 r c) (ix2 0 c) fun a => ?_
  match a with
  | ⟨0, _⟩ => rfl
  | ⟨1, _⟩ => rfl

/-- The combine stage's payload at `(r, c)`. -/
theorem pay_comb (agg : Vec Ideal S5000x32 .f32) (bc : Vec Ideal S1x32 .f32) (da dm : Vec Ideal S5000x32 .f32) (r : Fin 5000) (c : Fin 32) :
    k3_pay1 (F := Ideal) agg bc da dm (ix2 r c)
      = da (ix2 r c) + max (agg (ix2 r c) + bc (ix2 0 c)) Gnn.zero + dm (ix2 r c) := by
  unfold k3_pay1
  try dsimp only
  simp only [shapeCast_self]
  rw [addf_apply, addf_apply, maximumf_apply, addf_apply, bias_at bc r c]
  rfl

end Cert.KernelIdeal.Pay3

end
-- ==== Proof.Comb3.lean ====
/-
  Region 3, the combine stage of a layer, read as values of whole arrays.  At grid point `t` the body reads block `t`
  (rows `5000 t … 5000 t + 4999`) of the dense branch, of the gated branch and of the aggregated matrix, and the whole
  bias row, and writes block `t` of the layer's output: entry by entry `(da + max (agg + bc, 0)) + dm`.  Every block
  is the same entrywise function of the arrays read through the same rows, and the twenty blocks tile the rows, so
  the output array ends holding the three branches joined.  The region's entry contents `V` are a parameter.
-/
import proofs.«152414_j64991445123447_1_alg».proof.Proof.KernelIdealFrameP
import proofs.«152414_j64991445123447_1_alg».proof.Proof.Pay3

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Comb3

open Cert.KernelIdeal Cert.KernelIdeal.Gen Cert.KernelIdeal.Pay3

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three branch inputs and the output are cut into row blocks, block `t`
    at point `t`; the bias row is a single block, the same at every point. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-! ## The input blocks, read off the arrays -/

/-- Entry `(r, q)` of input window 0's block `t` is entry `(5000 t + r, q)` of its array. -/
theorem b0_blk (c : Dev nD) (t : Fin cfg3.N) (r : Fin 5000) (q : Fin 32) (i : S100000x32.Idx)
    (h0 : (i 0).val = t.val * 5000 + r.val) (h1 : (i 1).val = q.val) :
    (iblk3 V c 0 t : Vec Ideal S5000x32 .f32) (ix2 r q) = (V c main_v23_0 : S100000x32.Idx → EReal) i := by
  have e := idx_facts t
  unfold iblk3
  rw [View.read_apply]
  show (V c main_v23_0 : S100000x32.Idx → EReal) _ = _
  refine congrArg _ (funext fun a => Fin.ext ?_)
  match a with
  | ⟨0, _⟩ => show win3_0.index t (0 : Fin 2) * 5000 + 1 * r.val = (i 0).val; rw [e.1, h0]; omega
  | ⟨1, _⟩ => show win3_0.index t (1 : Fin 2) * 32 + 1 * q.val = (i 1).val; rw [e.2.1, h1]; omega

/-- Entry `(r, q)` of input window 1's block `t` is entry `(5000 t + r, q)` of its array. -/
theorem b1_blk (c : Dev nD) (t : Fin cfg3.N) (r : Fin 5000) (q : Fin 32) (i : S100000x32.Idx)
    (h0 : (i 0).val = t.val * 5000 + r.val) (h1 : (i 1).val = q.val) :
    (iblk3 V c 1 t : Vec Ideal S5000x32 .f32) (ix2 r q) = (V c main_v23_2 : S100000x32.Idx → EReal) i := by
  have e := idx_facts t
  unfold iblk3
  rw [View.read_apply]
  show (V c main_v23_2 : S100000x32.Idx → EReal) _ = _
  refine congrArg _ (funext fun a => Fin.ext ?_)
  match a with
  | ⟨0, _⟩ => show win3_1.index t (0 : Fin 2) * 5000 + 1 * r.val = (i 0).val; rw [e.2.2.1, h0]; omega
  | ⟨1, _⟩ => show win3_1.index t (1 : Fin 2) * 32 + 1 * q.val = (i 1).val; rw [e.2.2.2.1, h1]; omega

/-- Entry `(r, q)` of input window 2's block `t` is entry `(5000 t + r, q)` of its array. -/
theorem b2_blk (c : Dev nD) (t : Fin cfg3.N) (r : Fin 5000) (q : Fin 32) (i : S100000x32.Idx)
    (h0 : (i 0).val = t.val * 5000 + r.val) (h1 : (i 1).val = q.val) :
    (iblk3 V c 2 t : Vec Ideal S5000x32 .f32) (ix2 r q) = (V c main_v33 : S100000x32.Idx → EReal) i := by
  have e := idx_facts t
  unfold iblk3
  rw [View.read_apply]
  show (V c main_v33 : S100000x32.Idx → EReal) _ = _
  refine congrArg _ (funext fun a => Fin.ext ?_)
  match a with
  | ⟨0, _⟩ => show win3_2.index t (0 : Fin 2) * 5000 + 1 * r.val = (i 0).val; rw [e.2.2.2.2.1, h0]; omega
  | ⟨1, _⟩ => show win3_2.index t (1 : Fin 2) * 32 + 1 * q.val = (i 1).val; rw [e.2.2.2.2.2.1, h1]; omega

/-- The bias row's one block is its whole array. -/
theorem w3_blk (c : Dev nD) (t : Fin cfg3.N) (y : S1x32.Idx) :
    (iblk3 V c 3 t : Vec Ideal S1x32 .f32) y = (V c main_v34 : S1x32.Idx → EReal) y := by
  have e := idx_facts t
  unfold iblk3
  rw [View.read_apply]
  show (V c main_v34 : S1x32.Idx → EReal) _ = _
  refine congrArg _ (funext fun a => Fin.ext ?_)
  match a with
  | ⟨0, _⟩ => show win3_3.index t (0 : Fin 2) * 1 + 1 * (y 0).val = (y 0).val; rw [e.2.2.2.2.2.2.1]; omega
  | ⟨1, _⟩ => show win3_3.index t (1 : Fin 2) * 32 + 1 * (y 1).val = (y 1).val; rw [e.2.2.2.2.2.2.2.1]; omega

/-! ## What each point writes back, and the array after the region -/

/-- A bias row `[1, 32]` as a vector over the columns. -/
abbrev rowOf (b : S1x32.Idx → EReal) : Gnn.Vect 32 := fun i => b (ix2 0 (i 0))

/-- Block `t` of the output window, as written back, is block `t` of the three branches joined. -/
theorem flushed_4 (c : Dev nD) (t : Fin cfg3.N) :
    (dat3 V c).flushed 4 t = ((cfg3.win 4).blk t).view.read (Elt Ideal)
      (Gnn.join (V c main_v23_0) (Gnn.spect (V c main_v33) (rowOf (V c main_v34))) (V c main_v23_2) : S100000x32.Idx → EReal) := by
  show (cfg3.win 4).cut (grid3.coords t) ((dat3 V c).after 4 t) = _
  rw [after3_4]
  unfold out3_4
  rw [View.canon_unit_zero hz]
  simp only [View.ld_unit_zero (S := S5000x32) hz, View.ld_unit_zero (S := S1x32) hz]
  have e := idx_facts t
  funext j
  obtain ⟨r, q, rfl⟩ : ∃ (r : Fin 5000) (q : Fin 32), j = ix2 r q := ⟨j 0, j 1, eq_ix2 j⟩
  rw [View.read_apply]
  refine (pay_comb (iblk3 V c 2 t) (iblk3 V c 3 t) (iblk3 V c 0 t) (iblk3 V c 1 t) r q).trans ?_
  have hi0 : ((((cfg3.win 4).blk t).view.emb (ix2 r q)) 0).val = t.val * 5000 + r.val := by
    show win3_4.index t (0 : Fin 2) * 5000 + 1 * r.val = _; rw [e.2.2.2.2.2.2.2.2.1]; omega
  have hi1 : ((((cfg3.win 4).blk t).view.emb (ix2 r q)) 1).val = q.val := by
    show win3_4.index t (1 : Fin 2) * 32 + 1 * q.val = _; rw [e.2.2.2.2.2.2.2.2.2]; omega
  unfold Gnn.join Gnn.spect Gnn.relu
  show _ + max (_ + _) _ + _ = _ + max (_ + _) _ + _
  refine congrArg₂ HAdd.hAdd (congrArg₂ HAdd.hAdd ?_ (congrArg₂ max (congrArg₂ HAdd.hAdd ?_ ?_) rfl)) ?_
  · exact b0_blk V c t r q _ hi0 hi1
  · exact b2_blk V c t r q _ hi0 hi1
  · exact (w3_blk V c t (ix2 0 q)).trans (congrArg (fun z => (V c main_v34 : S1x32.Idx → EReal) (ix2 0 z)) (Fin.ext hi1.symm))
  · exact b1_blk V c t r q _ hi0 hi1

/-- An index of the output array is in point `t`'s block iff each coordinate is in the block's range. -/
theorem mem_blk_4 (t : Fin cfg3.N) (i : S100000x32.Idx) :
    i ∈ ((cfg3.win 4).blk t).view.set ↔ ∀ a : Fin 2, win3_4.index t a * S5000x32.size a ≤ (i a).val ∧ (i a).val < win3_4.index t a * S5000x32.size a + S5000x32.size a := by
  show i ∈ ((View.whole main_v35).slice (win3_4.rect t)).set ↔ _
  rw [View.set_slice_whole, Rect.mem_set_unit]
  exact Iff.rfl

/-- Every row lies in the block of the point `row / 5000`: the blocks cover the array. -/
theorem cover_4 (i : S100000x32.Idx) :
    ∃ t : Fin cfg3.N, (cfg3.win 4).flush t = true ∧ i ∈ ((cfg3.win 4).blk t).view.set := by
  have hi0 : (i 0).val < 100000 := (i 0).isLt
  have hi1 : (i 1).val < 32 := (i 1).isLt
  have hN : cfg3.N = 20 := N_3
  have ht : (i 0).val / 5000 < cfg3.N := by rw [hN]; omega
  have e := idx_facts ⟨(i 0).val / 5000, ht⟩
  refine ⟨⟨(i 0).val / 5000, ht⟩, flush3_4 _, ?_⟩
  rw [mem_blk_4]
  intro a
  match a with
  | ⟨0, _⟩ =>
    show win3_4.index ⟨(i 0).val / 5000, ht⟩ (0 : Fin 2) * 5000 ≤ (i 0).val ∧ (i 0).val < win3_4.index ⟨(i 0).val / 5000, ht⟩ (0 : Fin 2) * 5000 + 5000
    rw [e.2.2.2.2.2.2.2.2.1]
    show (i 0).val / 5000 * 5000 ≤ (i 0).val ∧ (i 0).val < (i 0).val / 5000 * 5000 + 5000
    omega
  | ⟨1, _⟩ =>
    show win3_4.index ⟨(i 0).val / 5000, ht⟩ (1 : Fin 2) * 32 ≤ (i 1).val ∧ (i 1).val < win3_4.index ⟨(i 0).val / 5000, ht⟩ (1 : Fin 2) * 32 + 32
    rw [e.2.2.2.2.2.2.2.2.2]
    omega

/-- After the region the output array holds the three branches joined. -/
theorem final_4 (c : Dev nD) :
    (dat3 V c).arrAt 4 cfg3.N
      = (Gnn.join (V c main_v23_0) (Gnn.spect (V c main_v33) (rowOf (V c main_v34))) (V c main_v23_2) : S100000x32.Idx → EReal) :=
  (dat3 V c).arrAt_eq_of_cover 4 _ (fun t _ => flushed_4 V c t) cover_4

end Cert.KernelIdeal.Comb3

end
-- ==== Proof.Pay4.lean ====
/-
  The arithmetic of region 4's body, the dense stage of a layer, at one entry of a block.  The body multiplies its
  block of the layer's input (5000 rows) by four weight matrices — the rounding to bf16 on the way into the
  multiplier is the identity on the extended reals, and the multiplier starts from a zero accumulator, so each
  product's entry `(r, c)` is the plain sum over `k` of `x (r, k) * w (k, c)` —, adds a bias row to three of the
  products, and stores  max (x·Wa + ba, 0),  x·Wc  and  max ((x·Wm1 + bm1) ⊙ (x·Wm2 + bm2), 0).
-/
import proofs.«152414_j64991445123447_1_alg».proof.Proof.Gen.KernelIdeal.Skeleton
import proofs.«152414_j64991445123447_1_alg».proof.Proof.Spec
import proofs.«152414_j64991445123447_1_alg».proof.Proof.LibDotRows
import Idealize.ShloMosaic.Lib.Pipeline.Value

noncomputable section

open Idealize.ShloMosaic Idealize.ShloMosaic.ValueIdx
open scoped BigOperators

namespace Cert.KernelIdeal.Pay4

open Cert.KernelIdeal Cert.KernelIdeal.Gen

/-- The bias row broadcast down the block: entry `(r, c)` is the row's entry `c`. -/
theorem bias_at (b : Vec Ideal S1x32 .f32) (r : Fin 5000) (c : Fin 32) :
    broadcastTo S5000x32 (shapeCast S1x32 b shapeCasts_S1x32_S1x32) broadcasts_S1x32_S5000x32 (ix2 r c) = b (ix2 0 c) := by
  rw [shapeCast_self]
  refine broadcastTo_apply b broadcasts_S1x32_S5000x32 (ix2 r c) (ix2 0 c) fun a => ?_
  match a with
  | ⟨0, _⟩ => rfl
  | ⟨1, _⟩ => rfl

/-- What goes into the multiplier on the left is the input block itself. -/
theorem lhs_eq (x : Vec Ideal S5000x32 .f32) : k4_pay2 (F := Ideal) x = truncf .bf16 x bitsLt_bf16_f32 := by
  unfold k4_pay2
  first | rfl | rw [shapeCast_self]

/-- The multiplier's product into a zero accumulator: entry `(r, c)` is the sum over `k` of `x (r, k) * w (k, c)`. -/
theorem mm_at (x : Vec Ideal S5000x32 .f32) (w : Vec Ideal S32x32 .f32) (r : Fin 5000) (c : Fin 32) :
    matmul dot_S5000x32_S32x32_S5000x32_1_0_0_1_n_n none (k4_pay2 (F := Ideal) x) (truncf .bf16 w bitsLt_bf16_f32)
        (constant S5000x32 .f32 0x00000000#32) (ix2 r c)
      = ∑ k : Fin 32, x (ix2 r k) * w (ix2 k c) := by
  rw [lhs_eq]
  exact matmul_zero_rows dot_S5000x32_S32x32_S5000x32_1_0_0_1_n_n none rfl rfl
    (fun j k => by
      unfold DotDims.lhsIdx
      rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
      rfl)
    (fun j k => dot_S5000x32_S32x32_S5000x32_1_0_0_1_n_n.lhsIdx_val_of_single rfl j k)
    (fun j k => dot_S5000x32_S32x32_S5000x32_1_0_0_1_n_n.rhsIdx_val_of_single rfl j k)
    (fun j k => by
      unfold DotDims.rhsIdx
      rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
      rfl)
    (truncf .bf16 x bitsLt_bf16_f32) (truncf .bf16 w bitsLt_bf16_f32) r c

/-- The dense branch's payload at `(r, c)`. -/
theorem pay_dense (x : Vec Ideal S5000x32 .f32) (w : Vec Ideal S32x32 .f32) (b : Vec Ideal S1x32 .f32) (r : Fin 5000) (c : Fin 32) :
    k4_pay3 (F := Ideal) x w b (ix2 r c) = max ((∑ k : Fin 32, x (ix2 r k) * w (ix2 k c)) + b (ix2 0 c)) Gnn.zero := by
  unfold k4_pay3
  try dsimp only
  rw [maximumf_apply, addf_apply, mm_at x w r c, bias_at b r c]
  rfl

/-- The product's payload at `(r, c)`. -/
theorem pay_prod (x : Vec Ideal S5000x32 .f32) (w : Vec Ideal S32x32 .f32) (r : Fin 5000) (c : Fin 32) :
    k4_pay4 (F := Ideal) x w (ix2 r c) = ∑ k : Fin 32, x (ix2 r k) * w (ix2 k c) := by
  unfold k4_pay4
  try dsimp only
  exact mm_at x w r c

/-- The gated branch's payload at `(r, c)`. -/
theorem pay_gated (x : Vec Ideal S5000x32 .f32) (w1 w2 : Vec Ideal S32x32 .f32) (b1 b2 : Vec Ideal S1x32 .f32) (r : Fin 5000) (c : Fin 32) :
    k4_pay1 (F := Ideal) (k4_pay5 x w1 w2 b1 b2) (ix2 r c)
      = max (((∑ k : Fin 32, x (ix2 r k) * w1 (ix2 k c)) + b1 (ix2 0 c)) * ((∑ k : Fin 32, x (ix2 r k) * w2 (ix2 k c)) + b2 (ix2 0 c))) Gnn.zero := by
  unfold k4_pay1 k4_pay5
  try dsimp only
  rw [maximumf_apply, mulf_apply, addf_apply, addf_apply, mm_at x w1 r c, mm_at x w2 r c, bias_at b1 r c, bias_at b2 r c]
  rfl

end Cert.KernelIdeal.Pay4

end
-- ==== Proof.Dense4.lean ====
/-
  Region 4, the dense stage of a layer, read as values of whole arrays.  At grid point `t` the body reads rows
  `5000 t … 5000 t + 4999` of the layer's input and the whole weight matrices and bias rows, and writes block `t` of
  three output arrays.  Entry `(r, c)` of an output block depends only on row `r` of the input block, so block `t` of
  each output is block `t` of ONE function of the arrays the region finds — the dense branch, the product with the
  graph weights, the gated branch of the layer —, and as the twenty blocks tile the rows, each output array ends
  holding that function.  The region's entry contents `V` are a parameter.
-/
import proofs.«152414_j64991445123447_1_alg».proof.Proof.KernelIdealFrameP
import proofs.«152414_j64991445123447_1_alg».proof.Proof.Pay4

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Dense4

open Cert.KernelIdeal Cert.KernelIdeal.Gen Cert.KernelIdeal.Pay4

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input and the three outputs are cut into row blocks, block `t` at
    point `t`; the weights and the bias rows are single blocks, the same at every point. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = t.val ∧ win4_8.index t (1 : Fin 2) = 0
    ∧ win4_9.index t (0 : Fin 2) = t.val ∧ win4_9.index t (1 : Fin 2) = 0
    ∧ win4_10.index t (0 : Fin 2) = t.val ∧ win4_10.index t (1 : Fin 2) = 0 :=
  (by decide +kernel : ∀ t : Fin grid4.N, _)

/-! ## The input blocks, read off the arrays -/

/-- Row `r` of input block `t` is row `5000 t + r` of the layer's input. -/
theorem x_blk (c : Dev nD) (t : Fin cfg4.N) (r : Fin 5000) (k : Fin 32) (i : S100000x32.Idx)
    (h0 : (i 0).val = t.val * 5000 + r.val) (h1 : (i 1).val = k.val) :
    (iblk4 V c 0 t : Vec Ideal S5000x32 .f32) (ix2 r k) = (V c main_v35 : S100000x32.Idx → EReal) i := by
  obtain ⟨e0, e1, -⟩ := idx_facts t
  unfold iblk4
  rw [View.read_apply]
  show (V c main_v35 : S100000x32.Idx → EReal) _ = _
  refine congrArg _ (funext fun a => Fin.ext ?_)
  match a with
  | ⟨0, _⟩ => show win4_0.index t (0 : Fin 2) * 5000 + 1 * r.val = (i 0).val; rw [e0, h0]; omega
  | ⟨1, _⟩ => show win4_0.index t (1 : Fin 2) * 32 + 1 * k.val = (i 1).val; rw [e1, h1]; omega

/-- Window 1's one block is its whole array. -/
theorem w1_blk (c : Dev nD) (t : Fin cfg4.N) (y : S32x32.Idx) :
    (iblk4 V c 1 t : Vec Ideal S32x32 .f32) y = (V c main_arg20 : S32x32.Idx → EReal) y := by
  have e := idx_facts t
  unfold iblk4
  rw [View.read_apply]
  show (V c main_arg20 : S32x32.Idx → EReal) _ = _
  refine congrArg _ (funext fun a => Fin.ext ?_)
  match a with
  | ⟨0, _⟩ => show win4_1.index t (0 : Fin 2) * 32 + 1 * (y 0).val = (y 0).val; rw [e.2.2.1]; omega
  | ⟨1, _⟩ => show win4_1.index t (1 : Fin 2) * 32 + 1 * (y 1).val = (y 1).val; rw [e.2.2.2.1]; omega

/-- Window 3's one block is its whole array. -/
theorem w3_blk (c : Dev nD) (t : Fin cfg4.N) (y : S32x32.Idx) :
    (iblk4 V c 3 t : Vec Ideal S32x32 .f32) y = (V c main_arg6 : S32x32.Idx → EReal) y := by
  have e := idx_facts t
  unfold iblk4
  rw [View.read_apply]
  show (V c main_arg6 : S32x32.Idx → EReal) _ = _
  refine congrArg _ (funext fun a => Fin.ext ?_)
  match a with
  | ⟨0, _⟩ => show win4_3.index t (0 : Fin 2) * 32 + 1 * (y 0).val = (y 0).val; rw [e.2.2.2.2.2.2.1]; omega
  | ⟨1, _⟩ => show win4_3.index t (1 : Fin 2) * 32 + 1 * (y 1).val = (y 1).val; rw [e.2.2.2.2.2.2.2.1]; omega

/-- Window 4's one block is its whole array. -/
theorem w4_blk (c : Dev nD) (t : Fin cfg4.N) (y : S32x32.Idx) :
    (iblk4 V c 4 t : Vec Ideal S32x32 .f32) y = (V c main_arg22 : S32x32.Idx → EReal) y := by
  have e := idx_facts t
  unfold iblk4
  rw [View.read_apply]
  show (V c main_arg22 : S32x32.Idx → EReal) _ = _
  refine congrArg _ (funext fun a => Fin.ext ?_)
  match a with
  | ⟨0, _⟩ => show win4_4.index t (0 : Fin 2) * 32 + 1 * (y 0).val = (y 0).val; rw [e.2.2.2.2.2.2.2.2.1]; omega
  | ⟨1, _⟩ => show win4_4.index t (1 : Fin 2) * 32 + 1 * (y 1).val = (y 1).val; rw [e.2.2.2.2.2.2.2.2.2.1]; omega

/-- Window 6's one block is its whole array. -/
theorem w6_blk (c : Dev nD) (t : Fin cfg4.N) (y : S32x32.Idx) :
    (iblk4 V c 6 t : Vec Ideal S32x32 .f32) y = (V c main_arg24 : S32x32.Idx → EReal) y := by
  have e := idx_facts t
  unfold iblk4
  rw [View.read_apply]
  show (V c main_arg24 : S32x32.Idx → EReal) _ = _
  refine congrArg _ (funext fun a => Fin.ext ?_)
  match a with
  | ⟨0, _⟩ => show win4_6.index t (0 : Fin 2) * 32 + 1 * (y 0).val = (y 0).val; rw [e.2.2.2.2.2.2.2.2.2.2.2.2.1]; omega
  | ⟨1, _⟩ => show win4_6.index t (1 : Fin 2) * 32 + 1 * (y 1).val = (y 1).val; rw [e.2.2.2.2.2.2.2.2.2.2.2.2.2.1]; omega

/-- Window 2's one block is its whole array. -/
theorem w2_blk (c : Dev nD) (t : Fin cfg4.N) (y : S1x32.Idx) :
    (iblk4 V c 2 t : Vec Ideal S1x32 .f32) y = (V c main_v36 : S1x32.Idx → EReal) y := by
  have e := idx_facts t
  unfold iblk4
  rw [View.read_apply]
  show (V c main_v36 : S1x32.Idx → EReal) _ = _
  refine congrArg _ (funext fun a => Fin.ext ?_)
  match a with
  | ⟨0, _⟩ => show win4_2.index t (0 : Fin 2) * 1 + 1 * (y 0).val = (y 0).val; rw [e.2.2.2.2.1]; omega
  | ⟨1, _⟩ => show win4_2.index t (1 : Fin 2) * 32 + 1 * (y 1).val = (y 1).val; rw [e.2.2.2.2.2.1]; omega

/-- Window 5's one block is its whole array. -/
theorem w5_blk (c : Dev nD) (t : Fin cfg4.N) (y : S1x32.Idx) :
    (iblk4 V c 5 t : Vec Ideal S1x32 .f32) y = (V c main_v37 : S1x32.Idx → EReal) y := by
  have e := idx_facts t
  unfold iblk4
  rw [View.read_apply]
  show (V c main_v37 : S1x32.Idx → EReal) _ = _
  refine congrArg _ (funext fun a => Fin.ext ?_)
  match a with
  | ⟨0, _⟩ => show win4_5.index t (0 : Fin 2) * 1 + 1 * (y 0).val = (y 0).val; rw [e.2.2.2.2.2.2.2.2.2.2.1]; omega
  | ⟨1, _⟩ => show win4_5.index t (1 : Fin 2) * 32 + 1 * (y 1).val = (y 1).val; rw [e.2.2.2.2.2.2.2.2.2.2.2.1]; omega

/-- Window 7's one block is its whole array. -/
theorem w7_blk (c : Dev nD) (t : Fin cfg4.N) (y : S1x32.Idx) :
    (iblk4 V c 7 t : Vec Ideal S1x32 .f32) y = (V c main_v38 : S1x32.Idx → EReal) y := by
  have e := idx_facts t
  unfold iblk4
  rw [View.read_apply]
  show (V c main_v38 : S1x32.Idx → EReal) _ = _
  refine congrArg _ (funext fun a => Fin.ext ?_)
  match a with
  | ⟨0, _⟩ => show win4_7.index t (0 : Fin 2) * 1 + 1 * (y 0).val = (y 0).val; rw [e.2.2.2.2.2.2.2.2.2.2.2.2.2.2.1]; omega
  | ⟨1, _⟩ => show win4_7.index t (1 : Fin 2) * 32 + 1 * (y 1).val = (y 1).val; rw [e.2.2.2.2.2.2.2.2.2.2.2.2.2.2.2.1]; omega

/-! ## What each point writes back, and the arrays after the region -/

/-- A bias row `[1, 32]` as a vector over the columns. -/
abbrev rowOf (b : S1x32.Idx → EReal) : Gnn.Vect 32 := fun i => b (ix2 0 (i 0))

/-- Block `t` of output window 8, as written back, is block `t` of the dense branch of the arrays. -/
theorem flushed_8 (c : Dev nD) (t : Fin cfg4.N) :
    (dat4 V c).flushed 8 t = ((cfg4.win 8).blk t).view.read (Elt Ideal) (Gnn.dense (V c main_v35) (V c main_arg20) (rowOf (V c main_v36)) : S100000x32.Idx → EReal) := by
  show (cfg4.win 8).cut (grid4.coords t) ((dat4 V c).after 8 t) = _
  rw [after4_8]
  unfold out4_8
  rw [View.canon_unit_zero hz]
  simp only [View.ld_unit_zero (S := S5000x32) hz, View.ld_unit_zero (S := S32x32) hz, View.ld_unit_zero (S := S1x32) hz]
  have e := idx_facts t
  funext j
  obtain ⟨r, q, rfl⟩ : ∃ (r : Fin 5000) (q : Fin 32), j = ix2 r q := ⟨j 0, j 1, eq_ix2 j⟩
  rw [View.read_apply]
  refine (pay_dense (iblk4 V c 0 t) (iblk4 V c 1 t) (iblk4 V c 2 t) r q).trans ?_
  have hi0 : ((((cfg4.win 8).blk t).view.emb (ix2 r q)) 0).val = t.val * 5000 + r.val := by
    show win4_8.index t (0 : Fin 2) * 5000 + 1 * r.val = _; rw [e.2.2.2.2.2.2.2.2.2.2.2.2.2.2.2.2.1]; omega
  have hi1 : ((((cfg4.win 8).blk t).view.emb (ix2 r q)) 1).val = q.val := by
    show win4_8.index t (1 : Fin 2) * 32 + 1 * q.val = _; rw [e.2.2.2.2.2.2.2.2.2.2.2.2.2.2.2.2.2.1]; omega
  unfold Gnn.dense Gnn.relu Gnn.lin Gnn.prod
  show max (_ + _) _ = max (_ + _) _
  refine congrArg₂ max (congrArg₂ HAdd.hAdd (Finset.sum_congr rfl fun k _ => congrArg₂ HMul.hMul ?_ ?_) ?_) rfl
  · exact x_blk V c t r k _ hi0 rfl
  · exact (w1_blk V c t (ix2 k q)).trans (congrArg (fun z => (V c main_arg20 : S32x32.Idx → EReal) (ix2 k z)) (Fin.ext hi1.symm))
  · exact (w2_blk V c t (ix2 0 q)).trans (congrArg (fun z => (V c main_v36 : S1x32.Idx → EReal) (ix2 0 z)) (Fin.ext hi1.symm))

/-- An index of output window 8's array is in point `t`'s block iff each coordinate is in the block's range. -/
theorem mem_blk_8 (t : Fin cfg4.N) (i : S100000x32.Idx) :
    i ∈ ((cfg4.win 8).blk t).view.set ↔ ∀ a : Fin 2, win4_8.index t a * S5000x32.size a ≤ (i a).val ∧ (i a).val < win4_8.index t a * S5000x32.size a + S5000x32.size a := by
  show i ∈ ((View.whole main_v39_0).slice (win4_8.rect t)).set ↔ _
  rw [View.set_slice_whole, Rect.mem_set_unit]
  exact Iff.rfl

/-- Every row lies in the block of the point `row / 5000`: the blocks cover the array. -/
theorem cover_8 (i : S100000x32.Idx) :
    ∃ t : Fin cfg4.N, (cfg4.win 8).flush t = true ∧ i ∈ ((cfg4.win 8).blk t).view.set := by
  have hi0 : (i 0).val < 100000 := (i 0).isLt
  have hi1 : (i 1).val < 32 := (i 1).isLt
  have hN : cfg4.N = 20 := N_4
  have ht : (i 0).val / 5000 < cfg4.N := by rw [hN]; omega
  have e := idx_facts ⟨(i 0).val / 5000, ht⟩
  refine ⟨⟨(i 0).val / 5000, ht⟩, flush4_8 _, ?_⟩
  rw [mem_blk_8]
  intro a
  match a with
  | ⟨0, _⟩ =>
    show win4_8.index ⟨(i 0).val / 5000, ht⟩ (0 : Fin 2) * 5000 ≤ (i 0).val ∧ (i 0).val < win4_8.index ⟨(i 0).val / 5000, ht⟩ (0 : Fin 2) * 5000 + 5000
    rw [e.2.2.2.2.2.2.2.2.2.2.2.2.2.2.2.2.1]
    show (i 0).val / 5000 * 5000 ≤ (i 0).val ∧ (i 0).val < (i 0).val / 5000 * 5000 + 5000
    omega
  | ⟨1, _⟩ =>
    show win4_8.index ⟨(i 0).val / 5000, ht⟩ (1 : Fin 2) * 32 ≤ (i 1).val ∧ (i 1).val < win4_8.index ⟨(i 0).val / 5000, ht⟩ (1 : Fin 2) * 32 + 32
    rw [e.2.2.2.2.2.2.2.2.2.2.2.2.2.2.2.2.2.1]
    omega

/-- After the region output window 8's array holds the dense branch. -/
theorem final_8 (c : Dev nD) :
    (dat4 V c).arrAt 8 cfg4.N = (Gnn.dense (V c main_v35) (V c main_arg20) (rowOf (V c main_v36)) : S100000x32.Idx → EReal) :=
  (dat4 V c).arrAt_eq_of_cover 8 _ (fun t _ => flushed_8 V c t) cover_8

/-- Block `t` of output window 9, as written back, is block `t` of the product with the graph weights of the arrays. -/
theorem flushed_9 (c : Dev nD) (t : Fin cfg4.N) :
    (dat4 V c).flushed 9 t = ((cfg4.win 9).blk t).view.read (Elt Ideal) (Gnn.prod (V c main_v35) (V c main_arg6) : S100000x32.Idx → EReal) := by
  show (cfg4.win 9).cut (grid4.coords t) ((dat4 V c).after 9 t) = _
  rw [after4_9]
  unfold out4_9
  rw [View.canon_unit_zero hz]
  simp only [View.ld_unit_zero (S := S5000x32) hz, View.ld_unit_zero (S := S32x32) hz, View.ld_unit_zero (S := S1x32) hz]
  have e := idx_facts t
  funext j
  obtain ⟨r, q, rfl⟩ : ∃ (r : Fin 5000) (q : Fin 32), j = ix2 r q := ⟨j 0, j 1, eq_ix2 j⟩
  rw [View.read_apply]
  refine (pay_prod (iblk4 V c 0 t) (iblk4 V c 3 t) r q).trans ?_
  have hi0 : ((((cfg4.win 9).blk t).view.emb (ix2 r q)) 0).val = t.val * 5000 + r.val := by
    show win4_9.index t (0 : Fin 2) * 5000 + 1 * r.val = _; rw [e.2.2.2.2.2.2.2.2.2.2.2.2.2.2.2.2.2.2.1]; omega
  have hi1 : ((((cfg4.win 9).blk t).view.emb (ix2 r q)) 1).val = q.val := by
    show win4_9.index t (1 : Fin 2) * 32 + 1 * q.val = _; rw [e.2.2.2.2.2.2.2.2.2.2.2.2.2.2.2.2.2.2.2.1]; omega
  unfold Gnn.prod
  show Finset.sum _ _ = Finset.sum _ _
  refine Finset.sum_congr rfl fun k _ => congrArg₂ HMul.hMul ?_ ?_
  · exact x_blk V c t r k _ hi0 rfl
  · exact (w3_blk V c t (ix2 k q)).trans (congrArg (fun z => (V c main_arg6 : S32x32.Idx → EReal) (ix2 k z)) (Fin.ext hi1.symm))

/-- An index of output window 9's array is in point `t`'s block iff each coordinate is in the block's range. -/
theorem mem_blk_9 (t : Fin cfg4.N) (i : S100000x32.Idx) :
    i ∈ ((cfg4.win 9).blk t).view.set ↔ ∀ a : Fin 2, win4_9.index t a * S5000x32.size a ≤ (i a).val ∧ (i a).val < win4_9.index t a * S5000x32.size a + S5000x32.size a := by
  show i ∈ ((View.whole main_v39_1).slice (win4_9.rect t)).set ↔ _
  rw [View.set_slice_whole, Rect.mem_set_unit]
  exact Iff.rfl

/-- Every row lies in the block of the point `row / 5000`: the blocks cover the array. -/
theorem cover_9 (i : S100000x32.Idx) :
    ∃ t : Fin cfg4.N, (cfg4.win 9).flush t = true ∧ i ∈ ((cfg4.win 9).blk t).view.set := by
  have hi0 : (i 0).val < 100000 := (i 0).isLt
  have hi1 : (i 1).val < 32 := (i 1).isLt
  have hN : cfg4.N = 20 := N_4
  have ht : (i 0).val / 5000 < cfg4.N := by rw [hN]; omega
  have e := idx_facts ⟨(i 0).val / 5000, ht⟩
  refine ⟨⟨(i 0).val / 5000, ht⟩, flush4_9 _, ?_⟩
  rw [mem_blk_9]
  intro a
  match a with
  | ⟨0, _⟩ =>
    show win4_9.index ⟨(i 0).val / 5000, ht⟩ (0 : Fin 2) * 5000 ≤ (i 0).val ∧ (i 0).val < win4_9.index ⟨(i 0).val / 5000, ht⟩ (0 : Fin 2) * 5000 + 5000
    rw [e.2.2.2.2.2.2.2.2.2.2.2.2.2.2.2.2.2.2.1]
    show (i 0).val / 5000 * 5000 ≤ (i 0).val ∧ (i 0).val < (i 0).val / 5000 * 5000 + 5000
    omega
  | ⟨1, _⟩ =>
    show win4_9.index ⟨(i 0).val / 5000, ht⟩ (1 : Fin 2) * 32 ≤ (i 1).val ∧ (i 1).val < win4_9.index ⟨(i 0).val / 5000, ht⟩ (1 : Fin 2) * 32 + 32
    rw [e.2.2.2.2.2.2.2.2.2.2.2.2.2.2.2.2.2.2.2.1]
    omega

/-- After the region output window 9's array holds the product with the graph weights. -/
theorem final_9 (c : Dev nD) :
    (dat4 V c).arrAt 9 cfg4.N = (Gnn.prod (V c main_v35) (V c main_arg6) : S100000x32.Idx → EReal) :=
  (dat4 V c).arrAt_eq_of_cover 9 _ (fun t _ => flushed_9 V c t) cover_9

/-- Block `t` of output window 10, as written back, is block `t` of the gated branch of the arrays. -/
theorem flushed_10 (c : Dev nD) (t : Fin cfg4.N) :
    (dat4 V c).flushed 10 t = ((cfg4.win 10).blk t).view.read (Elt Ideal) (Gnn.gated (V c main_v35) (V c main_arg22) (rowOf (V c main_v37)) (V c main_arg24) (rowOf (V c main_v38)) : S100000x32.Idx → EReal) := by
  show (cfg4.win 10).cut (grid4.coords t) ((dat4 V c).after 10 t) = _
  rw [after4_10]
  unfold out4_10
  rw [View.canon_unit_zero hz]
  simp only [View.ld_unit_zero (S := S5000x32) hz, View.ld_unit_zero (S := S32x32) hz, View.ld_unit_zero (S := S1x32) hz]
  have e := idx_facts t
  funext j
  obtain ⟨r, q, rfl⟩ : ∃ (r : Fin 5000) (q : Fin 32), j = ix2 r q := ⟨j 0, j 1, eq_ix2 j⟩
  rw [View.read_apply]
  refine (pay_gated (iblk4 V c 0 t) (iblk4 V c 4 t) (iblk4 V c 6 t) (iblk4 V c 5 t) (iblk4 V c 7 t) r q).trans ?_
  have hi0 : ((((cfg4.win 10).blk t).view.emb (ix2 r q)) 0).val = t.val * 5000 + r.val := by
    show win4_10.index t (0 : Fin 2) * 5000 + 1 * r.val = _; rw [e.2.2.2.2.2.2.2.2.2.2.2.2.2.2.2.2.2.2.2.2.1]; omega
  have hi1 : ((((cfg4.win 10).blk t).view.emb (ix2 r q)) 1).val = q.val := by
    show win4_10.index t (1 : Fin 2) * 32 + 1 * q.val = _; rw [e.2.2.2.2.2.2.2.2.2.2.2.2.2.2.2.2.2.2.2.2.2]; omega
  unfold Gnn.gated Gnn.relu Gnn.lin Gnn.prod
  show max ((_ + _) * (_ + _)) _ = max ((_ + _) * (_ + _)) _
  refine congrArg₂ max (congrArg₂ HMul.hMul
    (congrArg₂ HAdd.hAdd (Finset.sum_congr rfl fun k _ => congrArg₂ HMul.hMul ?_ ?_) ?_)
    (congrArg₂ HAdd.hAdd (Finset.sum_congr rfl fun k _ => congrArg₂ HMul.hMul ?_ ?_) ?_)) rfl
  · exact x_blk V c t r k _ hi0 rfl
  · exact (w4_blk V c t (ix2 k q)).trans (congrArg (fun z => (V c main_arg22 : S32x32.Idx → EReal) (ix2 k z)) (Fin.ext hi1.symm))
  · exact (w5_blk V c t (ix2 0 q)).trans (congrArg (fun z => (V c main_v37 : S1x32.Idx → EReal) (ix2 0 z)) (Fin.ext hi1.symm))
  · exact x_blk V c t r k _ hi0 rfl
  · exact (w6_blk V c t (ix2 k q)).trans (congrArg (fun z => (V c main_arg24 : S32x32.Idx → EReal) (ix2 k z)) (Fin.ext hi1.symm))
  · exact (w7_blk V c t (ix2 0 q)).trans (congrArg (fun z => (V c main_v38 : S1x32.Idx → EReal) (ix2 0 z)) (Fin.ext hi1.symm))

/-- An index of output window 10's array is in point `t`'s block iff each coordinate is in the block's range. -/
theorem mem_blk_10 (t : Fin cfg4.N) (i : S100000x32.Idx) :
    i ∈ ((cfg4.win 10).blk t).view.set ↔ ∀ a : Fin 2, win4_10.index t a * S5000x32.size a ≤ (i a).val ∧ (i a).val < win4_10.index t a * S5000x32.size a + S5000x32.size a := by
  show i ∈ ((View.whole main_v39_2).slice (win4_10.rect t)).set ↔ _
  rw [View.set_slice_whole, Rect.mem_set_unit]
  exact Iff.rfl

/-- Every row lies in the block of the point `row / 5000`: the blocks cover the array. -/
theorem cover_10 (i : S100000x32.Idx) :
    ∃ t : Fin cfg4.N, (cfg4.win 10).flush t = true ∧ i ∈ ((cfg4.win 10).blk t).view.set := by
  have hi0 : (i 0).val < 100000 := (i 0).isLt
  have hi1 : (i 1).val < 32 := (i 1).isLt
  have hN : cfg4.N = 20 := N_4
  have ht : (i 0).val / 5000 < cfg4.N := by rw [hN]; omega
  have e := idx_facts ⟨(i 0).val / 5000, ht⟩
  refine ⟨⟨(i 0).val / 5000, ht⟩, flush4_10 _, ?_⟩
  rw [mem_blk_10]
  intro a
  match a with
  | ⟨0, _⟩ =>
    show win4_10.index ⟨(i 0).val / 5000, ht⟩ (0 : Fin 2) * 5000 ≤ (i 0).val ∧ (i 0).val < win4_10.index ⟨(i 0).val / 5000, ht⟩ (0 : Fin 2) * 5000 + 5000
    rw [e.2.2.2.2.2.2.2.2.2.2.2.2.2.2.2.2.2.2.2.2.1]
    show (i 0).val / 5000 * 5000 ≤ (i 0).val ∧ (i 0).val < (i 0).val / 5000 * 5000 + 5000
    omega
  | ⟨1, _⟩ =>
    show win4_10.index ⟨(i 0).val / 5000, ht⟩ (1 : Fin 2) * 32 ≤ (i 1).val ∧ (i 1).val < win4_10.index ⟨(i 0).val / 5000, ht⟩ (1 : Fin 2) * 32 + 32
    rw [e.2.2.2.2.2.2.2.2.2.2.2.2.2.2.2.2.2.2.2.2.2]
    omega

/-- After the region output window 10's array holds the gated branch. -/
theorem final_10 (c : Dev nD) :
    (dat4 V c).arrAt 10 cfg4.N = (Gnn.gated (V c main_v35) (V c main_arg22) (rowOf (V c main_v37)) (V c main_arg24) (rowOf (V c main_v38)) : S100000x32.Idx → EReal) :=
  (dat4 V c).arrAt_eq_of_cover 10 _ (fun t _ => flushed_10 V c t) cover_10

end Cert.KernelIdeal.Dense4

end
-- ==== Proof.Pay5.lean ====
/-
  The arithmetic of region 5's body, the combine stage of a layer, at one entry of a block: from blocks of the
  dense branch `da`, the gated branch `dm` and the aggregated matrix `agg`, and the bias row `bc`, it stores
  (da + max (agg + bc, 0)) + dm — the dense and the graph branch added first, the gated branch last.
-/
import proofs.«152414_j64991445123447_1_alg».proof.Proof.Gen.KernelIdeal.Skeleton
import proofs.«152414_j64991445123447_1_alg».proof.Proof.Spec
import proofs.«152414_j64991445123447_1_alg».proof.Proof.LibDotRows
import Idealize.ShloMosaic.Lib.Pipeline.Value

noncomputable section

open Idealize.ShloMosaic Idealize.ShloMosaic.ValueIdx
open scoped BigOperators

namespace Cert.KernelIdeal.Pay5

open Cert.KernelIdeal Cert.KernelIdeal.Gen

/-- The bias row broadcast down the block: entry `(r, c)` is the row's entry `c`. -/
theorem bias_at (b : Vec Ideal S1x32 .f32) (r : Fin 5000) (c : Fin 32) :
    broadcastTo S5000x32 b broadcasts_S1x32_S5000x32 (ix2 r c) = b (ix2 0 c) := by
  refine broadcastTo_apply b broadcasts_S1x32_S5000x32 (ix2 r c) (ix2 0 c) fun a => ?_
  match a with
  | ⟨0, _⟩ => rfl
  | ⟨1, _⟩ => rfl

/-- The combine stage's payload at `(r, c)`. -/
theorem pay_comb (agg : Vec Ideal S5000x32 .f32) (bc : Vec Ideal S1x32 .f32) (da dm : Vec Ideal S5000x32 .f32) (r : Fin 5000) (c : Fin 32) :
    k5_pay1 (F := Ideal) agg bc da dm (ix2 r c)
      = da (ix2 r c) + max (agg (ix2 r c) + bc (ix2 0 c)) Gnn.zero + dm (ix2 r c) := by
  unfold k5_pay1
  try dsimp only
  simp only [shapeCast_self]
  rw [addf_apply, addf_apply, maximumf_apply, addf_apply, bias_at bc r c]
  rfl

end Cert.KernelIdeal.Pay5

end
-- ==== Proof.Comb5.lean ====
/-
  Region 5, the combine stage of a layer, read as values of whole arrays.  At grid point `t` the body reads block `t`
  (rows `5000 t … 5000 t + 4999`) of the dense branch, of the gated branch and of the aggregated matrix, and the whole
  bias row, and writes block `t` of the layer's output: entry by entry `(da + max (agg + bc, 0)) + dm`.  Every block
  is the same entrywise function of the arrays read through the same rows, and the twenty blocks tile the rows, so
  the output array ends holding the three branches joined.  The region's entry contents `V` are a parameter.
-/
import proofs.«152414_j64991445123447_1_alg».proof.Proof.KernelIdealFrameP
import proofs.«152414_j64991445123447_1_alg».proof.Proof.Pay5

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Comb5

open Cert.KernelIdeal Cert.KernelIdeal.Gen Cert.KernelIdeal.Pay5

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three branch inputs and the output are cut into row blocks, block `t`
    at point `t`; the bias row is a single block, the same at every point. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-! ## The input blocks, read off the arrays -/

/-- Entry `(r, q)` of input window 0's block `t` is entry `(5000 t + r, q)` of its array. -/
theorem b0_blk (c : Dev nD) (t : Fin cfg5.N) (r : Fin 5000) (q : Fin 32) (i : S100000x32.Idx)
    (h0 : (i 0).val = t.val * 5000 + r.val) (h1 : (i 1).val = q.val) :
    (iblk5 V c 0 t : Vec Ideal S5000x32 .f32) (ix2 r q) = (V c main_v39_0 : S100000x32.Idx → EReal) i := by
  have e := idx_facts t
  unfold iblk5
  rw [View.read_apply]
  show (V c main_v39_0 : S100000x32.Idx → EReal) _ = _
  refine congrArg _ (funext fun a => Fin.ext ?_)
  match a with
  | ⟨0, _⟩ => show win5_0.index t (0 : Fin 2) * 5000 + 1 * r.val = (i 0).val; rw [e.1, h0]; omega
  | ⟨1, _⟩ => show win5_0.index t (1 : Fin 2) * 32 + 1 * q.val = (i 1).val; rw [e.2.1, h1]; omega

/-- Entry `(r, q)` of input window 1's block `t` is entry `(5000 t + r, q)` of its array. -/
theorem b1_blk (c : Dev nD) (t : Fin cfg5.N) (r : Fin 5000) (q : Fin 32) (i : S100000x32.Idx)
    (h0 : (i 0).val = t.val * 5000 + r.val) (h1 : (i 1).val = q.val) :
    (iblk5 V c 1 t : Vec Ideal S5000x32 .f32) (ix2 r q) = (V c main_v39_2 : S100000x32.Idx → EReal) i := by
  have e := idx_facts t
  unfold iblk5
  rw [View.read_apply]
  show (V c main_v39_2 : S100000x32.Idx → EReal) _ = _
  refine congrArg _ (funext fun a => Fin.ext ?_)
  match a with
  | ⟨0, _⟩ => show win5_1.index t (0 : Fin 2) * 5000 + 1 * r.val = (i 0).val; rw [e.2.2.1, h0]; omega
  | ⟨1, _⟩ => show win5_1.index t (1 : Fin 2) * 32 + 1 * q.val = (i 1).val; rw [e.2.2.2.1, h1]; omega

/-- Entry `(r, q)` of input window 2's block `t` is entry `(5000 t + r, q)` of its array. -/
theorem b2_blk (c : Dev nD) (t : Fin cfg5.N) (r : Fin 5000) (q : Fin 32) (i : S100000x32.Idx)
    (h0 : (i 0).val = t.val * 5000 + r.val) (h1 : (i 1).val = q.val) :
    (iblk5 V c 2 t : Vec Ideal S5000x32 .f32) (ix2 r q) = (V c main_v49 : S100000x32.Idx → EReal) i := by
  have e := idx_facts t
  unfold iblk5
  rw [View.read_apply]
  show (V c main_v49 : S100000x32.Idx → EReal) _ = _
  refine congrArg _ (funext fun a => Fin.ext ?_)
  match a with
  | ⟨0, _⟩ => show win5_2.index t (0 : Fin 2) * 5000 + 1 * r.val = (i 0).val; rw [e.2.2.2.2.1, h0]; omega
  | ⟨1, _⟩ => show win5_2.index t (1 : Fin 2) * 32 + 1 * q.val = (i 1).val; rw [e.2.2.2.2.2.1, h1]; omega

/-- The bias row's one block is its whole array. -/
theorem w3_blk (c : Dev nD) (t : Fin cfg5.N) (y : S1x32.Idx) :
    (iblk5 V c 3 t : Vec Ideal S1x32 .f32) y = (V c main_v50 : S1x32.Idx → EReal) y := by
  have e := idx_facts t
  unfold iblk5
  rw [View.read_apply]
  show (V c main_v50 : S1x32.Idx → EReal) _ = _
  refine congrArg _ (funext fun a => Fin.ext ?_)
  match a with
  | ⟨0, _⟩ => show win5_3.index t (0 : Fin 2) * 1 + 1 * (y 0).val = (y 0).val; rw [e.2.2.2.2.2.2.1]; omega
  | ⟨1, _⟩ => show win5_3.index t (1 : Fin 2) * 32 + 1 * (y 1).val = (y 1).val; rw [e.2.2.2.2.2.2.2.1]; omega

/-! ## What each point writes back, and the array after the region -/

/-- A bias row `[1, 32]` as a vector over the columns. -/
abbrev rowOf (b : S1x32.Idx → EReal) : Gnn.Vect 32 := fun i => b (ix2 0 (i 0))

/-- Block `t` of the output window, as written back, is block `t` of the three branches joined. -/
theorem flushed_4 (c : Dev nD) (t : Fin cfg5.N) :
    (dat5 V c).flushed 4 t = ((cfg5.win 4).blk t).view.read (Elt Ideal)
      (Gnn.join (V c main_v39_0) (Gnn.spect (V c main_v49) (rowOf (V c main_v50))) (V c main_v39_2) : S100000x32.Idx → EReal) := by
  show (cfg5.win 4).cut (grid5.coords t) ((dat5 V c).after 4 t) = _
  rw [after5_4]
  unfold out5_4
  rw [View.canon_unit_zero hz]
  simp only [View.ld_unit_zero (S := S5000x32) hz, View.ld_unit_zero (S := S1x32) hz]
  have e := idx_facts t
  funext j
  obtain ⟨r, q, rfl⟩ : ∃ (r : Fin 5000) (q : Fin 32), j = ix2 r q := ⟨j 0, j 1, eq_ix2 j⟩
  rw [View.read_apply]
  refine (pay_comb (iblk5 V c 2 t) (iblk5 V c 3 t) (iblk5 V c 0 t) (iblk5 V c 1 t) r q).trans ?_
  have hi0 : ((((cfg5.win 4).blk t).view.emb (ix2 r q)) 0).val = t.val * 5000 + r.val := by
    show win5_4.index t (0 : Fin 2) * 5000 + 1 * r.val = _; rw [e.2.2.2.2.2.2.2.2.1]; omega
  have hi1 : ((((cfg5.win 4).blk t).view.emb (ix2 r q)) 1).val = q.val := by
    show win5_4.index t (1 : Fin 2) * 32 + 1 * q.val = _; rw [e.2.2.2.2.2.2.2.2.2]; omega
  unfold Gnn.join Gnn.spect Gnn.relu
  show _ + max (_ + _) _ + _ = _ + max (_ + _) _ + _
  refine congrArg₂ HAdd.hAdd (congrArg₂ HAdd.hAdd ?_ (congrArg₂ max (congrArg₂ HAdd.hAdd ?_ ?_) rfl)) ?_
  · exact b0_blk V c t r q _ hi0 hi1
  · exact b2_blk V c t r q _ hi0 hi1
  · exact (w3_blk V c t (ix2 0 q)).trans (congrArg (fun z => (V c main_v50 : S1x32.Idx → EReal) (ix2 0 z)) (Fin.ext hi1.symm))
  · exact b1_blk V c t r q _ hi0 hi1

/-- An index of the output array is in point `t`'s block iff each coordinate is in the block's range. -/
theorem mem_blk_4 (t : Fin cfg5.N) (i : S100000x32.Idx) :
    i ∈ ((cfg5.win 4).blk t).view.set ↔ ∀ a : Fin 2, win5_4.index t a * S5000x32.size a ≤ (i a).val ∧ (i a).val < win5_4.index t a * S5000x32.size a + S5000x32.size a := by
  show i ∈ ((View.whole main_v51).slice (win5_4.rect t)).set ↔ _
  rw [View.set_slice_whole, Rect.mem_set_unit]
  exact Iff.rfl

/-- Every row lies in the block of the point `row / 5000`: the blocks cover the array. -/
theorem cover_4 (i : S100000x32.Idx) :
    ∃ t : Fin cfg5.N, (cfg5.win 4).flush t = true ∧ i ∈ ((cfg5.win 4).blk t).view.set := by
  have hi0 : (i 0).val < 100000 := (i 0).isLt
  have hi1 : (i 1).val < 32 := (i 1).isLt
  have hN : cfg5.N = 20 := N_5
  have ht : (i 0).val / 5000 < cfg5.N := by rw [hN]; omega
  have e := idx_facts ⟨(i 0).val / 5000, ht⟩
  refine ⟨⟨(i 0).val / 5000, ht⟩, flush5_4 _, ?_⟩
  rw [mem_blk_4]
  intro a
  match a with
  | ⟨0, _⟩ =>
    show win5_4.index ⟨(i 0).val / 5000, ht⟩ (0 : Fin 2) * 5000 ≤ (i 0).val ∧ (i 0).val < win5_4.index ⟨(i 0).val / 5000, ht⟩ (0 : Fin 2) * 5000 + 5000
    rw [e.2.2.2.2.2.2.2.2.1]
    show (i 0).val / 5000 * 5000 ≤ (i 0).val ∧ (i 0).val < (i 0).val / 5000 * 5000 + 5000
    omega
  | ⟨1, _⟩ =>
    show win5_4.index ⟨(i 0).val / 5000, ht⟩ (1 : Fin 2) * 32 ≤ (i 1).val ∧ (i 1).val < win5_4.index ⟨(i 0).val / 5000, ht⟩ (1 : Fin 2) * 32 + 32
    rw [e.2.2.2.2.2.2.2.2.2]
    omega

/-- After the region the output array holds the three branches joined. -/
theorem final_4 (c : Dev nD) :
    (dat5 V c).arrAt 4 cfg5.N
      = (Gnn.join (V c main_v39_0) (Gnn.spect (V c main_v49) (rowOf (V c main_v50))) (V c main_v39_2) : S100000x32.Idx → EReal) :=
  (dat5 V c).arrAt_eq_of_cover 4 _ (fun t _ => flushed_4 V c t) cover_4

end Cert.KernelIdeal.Comb5

end
-- ==== Proof.Pay6.lean ====
/-
  The arithmetic of region 6's body, the output map, at one entry of a block: the block of the last layer's output
  (5000 rows of 32) times the one-column weight matrix — rounding to bf16 on the way into the multiplier is the
  identity on the extended reals, the accumulator starts at zero — plus the one bias entry.
-/
import proofs.«152414_j64991445123447_1_alg».proof.Proof.Gen.KernelIdeal.Skeleton
import proofs.«152414_j64991445123447_1_alg».proof.Proof.Spec
import proofs.«152414_j64991445123447_1_alg».proof.Proof.LibDotRows
import Idealize.ShloMosaic.Lib.Pipeline.Value

noncomputable section

open Idealize.ShloMosaic Idealize.ShloMosaic.ValueIdx
open scoped BigOperators

namespace Cert.KernelIdeal.Pay6

open Cert.KernelIdeal Cert.KernelIdeal.Gen

/-- The single bias entry broadcast down the block's one column. -/
theorem bias_at (b : Vec Ideal S1x1 .f32) (r : Fin 5000) (c : Fin 1) :
    broadcastTo S5000x1 (shapeCast S1x1 b shapeCasts_S1x1_S1x1) broadcasts_S1x1_S5000x1 (ix2 r c) = b (ix2 0 0) := by
  rw [shapeCast_self]
  refine broadcastTo_apply b broadcasts_S1x1_S5000x1 (ix2 r c) (ix2 0 0) fun a => ?_
  match a with
  | ⟨0, _⟩ => rfl
  | ⟨1, _⟩ => rfl

/-- The multiplier's product into a zero accumulator: entry `(r, c)` is the sum over `k` of `x (r, k) * w (k, c)`. -/
theorem mm_at (x : Vec Ideal S5000x32 .f32) (w : Vec Ideal S32x1 .f32) (r : Fin 5000) (c : Fin 1) :
    matmul dot_S5000x32_S32x1_S5000x1_1_0_0_1_n_n none (truncf .bf16 x bitsLt_bf16_f32 : FVec Ideal S5000x32 .bf16)
        (truncf .bf16 w bitsLt_bf16_f32 : FVec Ideal S32x1 .bf16) (constant (F := Ideal) S5000x1 .f32 0x00000000#32) (ix2 r c)
      = ∑ k : Fin 32, x (ix2 r k) * w (ix2 k c) :=
  matmul_zero_rows dot_S5000x32_S32x1_S5000x1_1_0_0_1_n_n none rfl rfl
    (fun j k => by
      unfold DotDims.lhsIdx
      rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
      rfl)
    (fun j k => dot_S5000x32_S32x1_S5000x1_1_0_0_1_n_n.lhsIdx_val_of_single rfl j k)
    (fun j k => dot_S5000x32_S32x1_S5000x1_1_0_0_1_n_n.rhsIdx_val_of_single rfl j k)
    (fun j k => by
      unfold DotDims.rhsIdx
      rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
      rfl)
    (truncf .bf16 x bitsLt_bf16_f32) (truncf .bf16 w bitsLt_bf16_f32) r c

/-- The output map's payload at `(r, c)`. -/
theorem pay_proj (x : Vec Ideal S5000x32 .f32) (w : Vec Ideal S32x1 .f32) (b : Vec Ideal S1x1 .f32) (r : Fin 5000) (c : Fin 1) :
    k6_pay1 (F := Ideal) x w b (ix2 r c) = (∑ k : Fin 32, x (ix2 r k) * w (ix2 k c)) + b (ix2 0 0) := by
  unfold k6_pay1
  try dsimp only
  rw [shapeCast_self x]
  rw [addf_apply, mm_at x w r c, bias_at b r c]

end Cert.KernelIdeal.Pay6

end
-- ==== Proof.Proj6.lean ====
/-
  Region 6, the output map, read as values of whole arrays.  At grid point `t` the body reads block `t` (rows
  `5000 t … 5000 t + 4999`) of the last layer's output `h`, the whole one-column weight matrix and the one bias entry,
  and writes block `t` of the result: entry `(r, 0)` is the sum over `k` of `h (r, k) * W (k, 0)` plus the bias.  Every
  block is the same function of the arrays read through the same rows, and the twenty blocks tile the rows, so the
  result array ends holding `h·W + b`.  The region's entry contents `V` are a parameter.
-/
import proofs.«152414_j64991445123447_1_alg».proof.Proof.KernelIdealFrameP
import proofs.«152414_j64991445123447_1_alg».proof.Proof.Pay6

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Proj6

open Cert.KernelIdeal Cert.KernelIdeal.Gen Cert.KernelIdeal.Pay6

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input and the output are cut into row blocks, block `t` at point `t`;
    the weights and the bias are single blocks, the same at every point. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-! ## The input blocks, read off the arrays -/

/-- Row `r` of input block `t` is row `5000 t + r` of the last layer's output. -/
theorem x_blk (c : Dev nD) (t : Fin cfg6.N) (r : Fin 5000) (k : Fin 32) (i : S100000x32.Idx)
    (h0 : (i 0).val = t.val * 5000 + r.val) (h1 : (i 1).val = k.val) :
    (iblk6 V c 0 t : Vec Ideal S5000x32 .f32) (ix2 r k) = (V c main_v51 : S100000x32.Idx → EReal) i := by
  have e := idx_facts t
  unfold iblk6
  rw [View.read_apply]
  show (V c main_v51 : S100000x32.Idx → EReal) _ = _
  refine congrArg _ (funext fun a => Fin.ext ?_)
  match a with
  | ⟨0, _⟩ => show win6_0.index t (0 : Fin 2) * 5000 + 1 * r.val = (i 0).val; rw [e.1, h0]; omega
  | ⟨1, _⟩ => show win6_0.index t (1 : Fin 2) * 32 + 1 * k.val = (i 1).val; rw [e.2.1, h1]; omega

/-- The weight matrix's one block is its whole array. -/
theorem w1_blk (c : Dev nD) (t : Fin cfg6.N) (y : S32x1.Idx) :
    (iblk6 V c 1 t : Vec Ideal S32x1 .f32) y = (V c main_arg26 : S32x1.Idx → EReal) y := by
  have e := idx_facts t
  unfold iblk6
  rw [View.read_apply]
  show (V c main_arg26 : S32x1.Idx → EReal) _ = _
  refine congrArg _ (funext fun a => Fin.ext ?_)
  match a with
  | ⟨0, _⟩ => show win6_1.index t (0 : Fin 2) * 32 + 1 * (y 0).val = (y 0).val; rw [e.2.2.1]; omega
  | ⟨1, _⟩ => show win6_1.index t (1 : Fin 2) * 1 + 1 * (y 1).val = (y 1).val; rw [e.2.2.2.1]; omega

/-- The bias's one block is its whole array. -/
theorem w2_blk (c : Dev nD) (t : Fin cfg6.N) (y : S1x1.Idx) :
    (iblk6 V c 2 t : Vec Ideal S1x1 .f32) y = (V c main_v52 : S1x1.Idx → EReal) y := by
  have e := idx_facts t
  unfold iblk6
  rw [View.read_apply]
  show (V c main_v52 : S1x1.Idx → EReal) _ = _
  refine congrArg _ (funext fun a => Fin.ext ?_)
  match a with
  | ⟨0, _⟩ => show win6_2.index t (0 : Fin 2) * 1 + 1 * (y 0).val = (y 0).val; rw [e.2.2.2.2.1]; omega
  | ⟨1, _⟩ => show win6_2.index t (1 : Fin 2) * 1 + 1 * (y 1).val = (y 1).val; rw [e.2.2.2.2.2.1]; omega

/-! ## What each point writes back, and the array after the region -/

/-- The bias `[1, 1]` as a vector of length one. -/
abbrev rowOf (b : S1x1.Idx → EReal) : Gnn.Vect 1 := fun i => b (ix2 0 (i 0))

/-- Block `t` of the result, as written back, is block `t` of `h·W + b`. -/
theorem flushed_3 (c : Dev nD) (t : Fin cfg6.N) :
    (dat6 V c).flushed 3 t = ((cfg6.win 3).blk t).view.read (Elt Ideal)
      (Gnn.lin (V c main_v51) (V c main_arg26) (rowOf (V c main_v52)) : S100000x1.Idx → EReal) := by
  show (cfg6.win 3).cut (grid6.coords t) ((dat6 V c).after 3 t) = _
  rw [after6_3]
  unfold out6_3
  rw [View.canon_unit_zero hz]
  simp only [View.ld_unit_zero (S := S5000x32) hz, View.ld_unit_zero (S := S32x1) hz, View.ld_unit_zero (S := S1x1) hz]
  have e := idx_facts t
  funext j
  obtain ⟨r, q, rfl⟩ : ∃ (r : Fin 5000) (q : Fin 1), j = ix2 r q := ⟨j 0, j 1, eq_ix2 j⟩
  rw [View.read_apply]
  refine (pay_proj (iblk6 V c 0 t) (iblk6 V c 1 t) (iblk6 V c 2 t) r q).trans ?_
  have hi0 : ((((cfg6.win 3).blk t).view.emb (ix2 r q)) 0).val = t.val * 5000 + r.val := by
    show win6_3.index t (0 : Fin 2) * 5000 + 1 * r.val = _; rw [e.2.2.2.2.2.2.1]; omega
  have hi1 : ((((cfg6.win 3).blk t).view.emb (ix2 r q)) 1).val = q.val := by
    show win6_3.index t (1 : Fin 2) * 1 + 1 * q.val = _; rw [e.2.2.2.2.2.2.2]; omega
  have hq : q.val = 0 := by have := q.isLt; omega
  unfold Gnn.lin Gnn.prod
  show _ + _ = _ + _
  refine congrArg₂ HAdd.hAdd (Finset.sum_congr rfl fun k _ => congrArg₂ HMul.hMul ?_ ?_) ?_
  · exact x_blk V c t r k _ hi0 rfl
  · exact (w1_blk V c t (ix2 k q)).trans (congrArg (fun z => (V c main_arg26 : S32x1.Idx → EReal) (ix2 k z)) (Fin.ext hi1.symm))
  · exact (w2_blk V c t (ix2 0 0)).trans (congrArg (fun z => (V c main_v52 : S1x1.Idx → EReal) (ix2 0 z)) (Fin.ext (by rw [hi1, hq]; rfl)))

/-- An index of the result array is in point `t`'s block iff each coordinate is in the block's range. -/
theorem mem_blk_3 (t : Fin cfg6.N) (i : S100000x1.Idx) :
    i ∈ ((cfg6.win 3).blk t).view.set ↔ ∀ a : Fin 2, win6_3.index t a * S5000x1.size a ≤ (i a).val ∧ (i a).val < win6_3.index t a * S5000x1.size a + S5000x1.size a := by
  show i ∈ ((View.whole main_v53).slice (win6_3.rect t)).set ↔ _
  rw [View.set_slice_whole, Rect.mem_set_unit]
  exact Iff.rfl

/-- Every row lies in the block of the point `row / 5000`: the blocks cover the array. -/
theorem cover_3 (i : S100000x1.Idx) :
    ∃ t : Fin cfg6.N, (cfg6.win 3).flush t = true ∧ i ∈ ((cfg6.win 3).blk t).view.set := by
  have hi0 : (i 0).val < 100000 := (i 0).isLt
  have hi1 : (i 1).val < 1 := (i 1).isLt
  have hN : cfg6.N = 20 := N_6
  have ht : (i 0).val / 5000 < cfg6.N := by rw [hN]; omega
  have e := idx_facts ⟨(i 0).val / 5000, ht⟩
  refine ⟨⟨(i 0).val / 5000, ht⟩, flush6_3 _, ?_⟩
  rw [mem_blk_3]
  intro a
  match a with
  | ⟨0, _⟩ =>
    show win6_3.index ⟨(i 0).val / 5000, ht⟩ (0 : Fin 2) * 5000 ≤ (i 0).val ∧ (i 0).val < win6_3.index ⟨(i 0).val / 5000, ht⟩ (0 : Fin 2) * 5000 + 5000
    rw [e.2.2.2.2.2.2.1]
    show (i 0).val / 5000 * 5000 ≤ (i 0).val ∧ (i 0).val < (i 0).val / 5000 * 5000 + 5000
    omega
  | ⟨1, _⟩ =>
    show win6_3.index ⟨(i 0).val / 5000, ht⟩ (1 : Fin 2) * 1 ≤ (i 1).val ∧ (i 1).val < win6_3.index ⟨(i 0).val / 5000, ht⟩ (1 : Fin 2) * 1 + 1
    rw [e.2.2.2.2.2.2.2]
    omega

/-- After the region the result array holds `h·W + b`. -/
theorem final_3 (c : Dev nD) :
    (dat6 V c).arrAt 3 cfg6.N
      = (Gnn.lin (V c main_v51) (V c main_arg26) (rowOf (V c main_v52)) : S100000x1.Idx → EReal) :=
  (dat6 V c).arrAt_eq_of_cover 3 _ (fun t _ => flushed_3 V c t) cover_3

end Cert.KernelIdeal.Proj6

end
-- ==== Proof.KernelNet.lean ====
/-
  The kernel's result as one function of its arguments.  The run leaves in the result array what the last region
  writes; walking back through the seven regions and the host operations between them, each region's output array is
  the stage of the network it computes (the dense stage's three branches, the combine stage's join, the output map)
  of the arrays the region found, and those are the previous stage's outputs, the arguments, a bias vector laid out
  as one row, or the edge aggregation of the previous product.  Composed, the result array is the network of the
  arguments.
-/
import proofs.«152414_j64991445123447_1_alg».proof.Proof.Chain
import proofs.«152414_j64991445123447_1_alg».proof.Proof.Dense0
import proofs.«152414_j64991445123447_1_alg».proof.Proof.Comb1
import proofs.«152414_j64991445123447_1_alg».proof.Proof.Dense2
import proofs.«152414_j64991445123447_1_alg».proof.Proof.Comb3
import proofs.«152414_j64991445123447_1_alg».proof.Proof.Dense4
import proofs.«152414_j64991445123447_1_alg».proof.Proof.Comb5
import proofs.«152414_j64991445123447_1_alg».proof.Proof.Proj6

noncomputable section

open Idealize.ShloMosaic Idealize.ShloMosaic.TcCoe Idealize.SL.Sem Idealize.ShloMosaic.ValueIdx

namespace Cert.KernelIdeal.Net

open Cert.KernelIdeal Cert.KernelIdeal.Gen

/-- A vector laid out as one row and read back along that row is the vector. -/
theorem row_of_reshape {n : Nat} (b : (⟨1, ![n]⟩ : Shape).Idx → EReal)
    (h : (⟨1, ![n]⟩ : Shape).ShapeCasts ⟨2, ![1, n]⟩) :
    (fun i : (⟨1, ![n]⟩ : Shape).Idx => shapeCast ⟨2, ![1, n]⟩ b h (ix2 0 (i 0))) = b := by
  funext i
  refine shapeCast_apply b h (ix2 0 (i 0)) i ?_
  rw [Shape.rowMajor_val_one, Shape.rowMajor_val_two]
  show (i 0).val = 0 * n + (i 0).val
  omega

variable (m : (ℓ : Loc nD τ sig) → Buf (Elt Ideal) ℓ) (ρ : Dev nD → PrngReg)

set_option maxHeartbeats 2000000 in
/-- After the first layer's two regions the combine stage's output is the first layer of the arguments. -/
theorem layer1 (c : Dev nD) :
    ((dat1 (V3 m ρ) c).arrAt 4 cfg1.N : S100000x32.Idx → EReal) = (Gnn.layer (Cert.KernelIdeal.Hand.agg (m ((c : Thread nD τ).loc main_arg1))) (m ((c : Thread nD τ).loc main_arg0)) (m ((c : Thread nD τ).loc main_arg8)) (m ((c : Thread nD τ).loc main_arg9)) (m ((c : Thread nD τ).loc main_arg2)) (m ((c : Thread nD τ).loc main_arg3)) (m ((c : Thread nD τ).loc main_arg10)) (m ((c : Thread nD τ).loc main_arg11)) (m ((c : Thread nD τ).loc main_arg12)) (m ((c : Thread nD τ).loc main_arg13))) := by
  rw [Comb1.final_4 (V3 m ρ) c, Chain.r1_v7_0 m ρ c, Chain.r1_v7_2 m ρ c, Chain.r1_v17 m ρ c, Chain.r1_v18 m ρ c,
    Dense0.final_8 (V1 m ρ) c, Dense0.final_9 (V1 m ρ) c, Dense0.final_10 (V1 m ρ) c,
    Chain.r0_arg0 m ρ c, Chain.r0_arg8 m ρ c, Chain.r0_arg2 m ρ c, Chain.r0_arg10 m ρ c, Chain.r0_arg12 m ρ c,
    Chain.r0_v4 m ρ c, Chain.r0_v5 m ρ c, Chain.r0_v6 m ρ c]
  unfold Gnn.layer Comb1.rowOf Dense0.rowOf
  rw [row_of_reshape, row_of_reshape, row_of_reshape, row_of_reshape]

set_option maxHeartbeats 2000000 in
/-- After the second layer's two regions: the second layer of the first. -/
theorem layer2 (c : Dev nD) :
    ((dat3 (V7 m ρ) c).arrAt 4 cfg3.N : S100000x32.Idx → EReal) = (Gnn.layer (Cert.KernelIdeal.Hand.agg (m ((c : Thread nD τ).loc main_arg1))) (Gnn.layer (Cert.KernelIdeal.Hand.agg (m ((c : Thread nD τ).loc main_arg1))) (m ((c : Thread nD τ).loc main_arg0)) (m ((c : Thread nD τ).loc main_arg8)) (m ((c : Thread nD τ).loc main_arg9)) (m ((c : Thread nD τ).loc main_arg2)) (m ((c : Thread nD τ).loc main_arg3)) (m ((c : Thread nD τ).loc main_arg10)) (m ((c : Thread nD τ).loc main_arg11)) (m ((c : Thread nD τ).loc main_arg12)) (m ((c : Thread nD τ).loc main_arg13))) (m ((c : Thread nD τ).loc main_arg14)) (m ((c : Thread nD τ).loc main_arg15)) (m ((c : Thread nD τ).loc main_arg4)) (m ((c : Thread nD τ).loc main_arg5)) (m ((c : Thread nD τ).loc main_arg16)) (m ((c : Thread nD τ).loc main_arg17)) (m ((c : Thread nD τ).loc main_arg18)) (m ((c : Thread nD τ).loc main_arg19))) := by
  rw [Comb3.final_4 (V7 m ρ) c, Chain.r3_v23_0 m ρ c, Chain.r3_v23_2 m ρ c, Chain.r3_v33 m ρ c, Chain.r3_v34 m ρ c,
    Dense2.final_8 (V5 m ρ) c, Dense2.final_9 (V5 m ρ) c, Dense2.final_10 (V5 m ρ) c,
    Chain.r2_v19 m ρ c, Chain.r2_arg14 m ρ c, Chain.r2_arg4 m ρ c, Chain.r2_arg16 m ρ c, Chain.r2_arg18 m ρ c,
    Chain.r2_v20 m ρ c, Chain.r2_v21 m ρ c, Chain.r2_v22 m ρ c, layer1 m ρ c]
  unfold Gnn.layer Comb3.rowOf Dense2.rowOf
  rw [row_of_reshape, row_of_reshape, row_of_reshape, row_of_reshape]

set_option maxHeartbeats 2000000 in
/-- After the third layer's two regions: the third layer of the second. -/
theorem layer3 (c : Dev nD) :
    ((dat5 (V11 m ρ) c).arrAt 4 cfg5.N : S100000x32.Idx → EReal) = (Gnn.layer (Cert.KernelIdeal.Hand.agg (m ((c : Thread nD τ).loc main_arg1))) (Gnn.layer (Cert.KernelIdeal.Hand.agg (m ((c : Thread nD τ).loc main_arg1))) (Gnn.layer (Cert.KernelIdeal.Hand.agg (m ((c : Thread nD τ).loc main_arg1))) (m ((c : Thread nD τ).loc main_arg0)) (m ((c : Thread nD τ).loc main_arg8)) (m ((c : Thread nD τ).loc main_arg9)) (m ((c : Thread nD τ).loc main_arg2)) (m ((c : Thread nD τ).loc main_arg3)) (m ((c : Thread nD τ).loc main_arg10)) (m ((c : Thread nD τ).loc main_arg11)) (m ((c : Thread nD τ).loc main_arg12)) (m ((c : Thread nD τ).loc main_arg13))) (m ((c : Thread nD τ).loc main_arg14)) (m ((c : Thread nD τ).loc main_arg15)) (m ((c : Thread nD τ).loc main_arg4)) (m ((c : Thread nD τ).loc main_arg5)) (m ((c : Thread nD τ).loc main_arg16)) (m ((c : Thread nD τ).loc main_arg17)) (m ((c : Thread nD τ).loc main_arg18)) (m ((c : Thread nD τ).loc main_arg19))) (m ((c : Thread nD τ).loc main_arg20)) (m ((c : Thread nD τ).loc main_arg21)) (m ((c : Thread nD τ).loc main_arg6)) (m ((c : Thread nD τ).loc main_arg7)) (m ((c : Thread nD τ).loc main_arg22)) (m ((c : Thread nD τ).loc main_arg23)) (m ((c : Thread nD τ).loc main_arg24)) (m ((c : Thread nD τ).loc main_arg25))) := by
  rw [Comb5.final_4 (V11 m ρ) c, Chain.r5_v39_0 m ρ c, Chain.r5_v39_2 m ρ c, Chain.r5_v49 m ρ c, Chain.r5_v50 m ρ c,
    Dense4.final_8 (V9 m ρ) c, Dense4.final_9 (V9 m ρ) c, Dense4.final_10 (V9 m ρ) c,
    Chain.r4_v35 m ρ c, Chain.r4_arg20 m ρ c, Chain.r4_arg6 m ρ c, Chain.r4_arg22 m ρ c, Chain.r4_arg24 m ρ c,
    Chain.r4_v36 m ρ c, Chain.r4_v37 m ρ c, Chain.r4_v38 m ρ c, layer2 m ρ c]
  unfold Gnn.layer Comb5.rowOf Dense4.rowOf
  rw [row_of_reshape, row_of_reshape, row_of_reshape, row_of_reshape]

/-- The network of the kernel's arguments on core `c`. -/
def knet (c : Dev nD) : S100000x1.Idx → EReal :=
  Gnn.net (Cert.KernelIdeal.Hand.agg (m ((c : Thread nD τ).loc main_arg1)))
    (m ((c : Thread nD τ).loc main_arg0))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))
    (m ((c : Thread nD τ).loc main_arg16))
    (m ((c : Thread nD τ).loc main_arg17))
    (m ((c : Thread nD τ).loc main_arg18))
    (m ((c : Thread nD τ).loc main_arg19))
    (m ((c : Thread nD τ).loc main_arg20))
    (m ((c : Thread nD τ).loc main_arg21))
    (m ((c : Thread nD τ).loc main_arg22))
    (m ((c : Thread nD τ).loc main_arg23))
    (m ((c : Thread nD τ).loc main_arg24))
    (m ((c : Thread nD τ).loc main_arg25))
    (m ((c : Thread nD τ).loc main_arg26))
    (m ((c : Thread nD τ).loc main_arg27))

set_option maxHeartbeats 2000000 in
/-- What the run leaves in the result array is the network of the arguments. -/
theorem out_eq (c : Dev nD) : (W14 m ρ c (Proc.devRef .tc main_v53) : S100000x1.Idx → EReal) = knet m c := by
  rw [Chain.end_v53 m ρ c, Proj6.final_3 (V13 m ρ) c, Chain.r6_v51 m ρ c, Chain.r6_arg26 m ρ c, Chain.r6_v52 m ρ c, layer3 m ρ c]
  unfold knet Gnn.net Proj6.rowOf
  rw [row_of_reshape]

/-- The kernel's run, read: the result array ends at the network of the arguments, the arguments unchanged. -/
theorem run : θ_run defs (onTc (τ := τ) (main (F := Ideal))) ⟨m, fun _ => 0, ρ⟩ (fun r => ∀ c : Dev nD,
      r.2.mem ((c.tc : Thread nD τ).loc main_v53) = knet m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c => ⟨(h c).1.trans (out_eq m ρ c), (h c).2⟩) (Chain.run_out m ρ)

end Cert.KernelIdeal.Net

end
-- ==== Proof.RefNet.lean ====
/-
  The reference program computes the network of `Gnn.net`.

  Each host operation of the reference is read as a whole array: a `dot_general` contracting the left
  operand's columns with the right operand's rows is the matrix product `Gnn.prod`; a bias broadcast along the
  rows and added is the `+ b` of `Gnn.lin`; the maximum with the broadcast zero is `Gnn.relu`.  The gather and
  the accumulating scatter over the edges are never opened: the reference applies to `h·Wc` the very same
  operations, with the same index vectors read off the edge list, as the aggregation `agg`, so the two are
  one and the same function of `h·Wc`.  The three layers are then assembled in the order the sums are written.
-/
import proofs.«152414_j64991445123447_1_alg».proof.Proof.Gen.ReferenceIdeal.Read
import proofs.«152414_j64991445123447_1_alg».proof.Proof.Spec
import proofs.«152414_j64991445123447_1_alg».proof.Proof.Agg
import proofs.«152414_j64991445123447_1_alg».proof.Proof.LibDotRows

noncomputable section

open scoped BigOperators

namespace Cert.ReferenceIdeal.RefNet

open Cert.ReferenceIdeal Cert.ReferenceIdeal.Read Idealize.ShloMosaic Idealize.ShloMosaic.ValueIdx

/-- A `dot_general` of an `[N, K]` by a `[K, J]` matrix whose dimension numbers contract the left operand's
    axis 1 with the right operand's axis 0 is, as a whole array, the matrix product. -/
theorem dot_eq_prod {N K J : Nat} (d : DotDims ⟨2, ![N, K]⟩ ⟨2, ![K, J]⟩ ⟨2, ![N, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (h : Gnn.Mat N K) (W : Gnn.Mat K J) :
    (Host.dotGeneral (F := Ideal) (φ₁ := .f32) (φ₂ := .f32) d none h W : Gnn.Mat N J) = Gnn.prod h W := by
  funext i
  obtain ⟨a, b, rfl⟩ : ∃ a b, i = ix2 a b := ⟨i 0, i 1, eq_ix2 i⟩
  exact dotGeneral_rows d none .single hr hs h1 h2 h3 h4 h W a b

variable (x0 : (⟨S100000x128, .f32⟩ : BufTy).Contents (Elt Ideal))
  (x1 : (⟨S2x3200000, .i32⟩ : BufTy).Contents (Elt Ideal))
  (x2 : (⟨S128x32, .f32⟩ : BufTy).Contents (Elt Ideal))
  (x3 : (⟨S32, .f32⟩ : BufTy).Contents (Elt Ideal))
  (x4 : (⟨S32x32, .f32⟩ : BufTy).Contents (Elt Ideal))
  (x5 : (⟨S32, .f32⟩ : BufTy).Contents (Elt Ideal))
  (x6 : (⟨S32x32, .f32⟩ : BufTy).Contents (Elt Ideal))
  (x7 : (⟨S32, .f32⟩ : BufTy).Contents (Elt Ideal))
  (x8 : (⟨S128x32, .f32⟩ : BufTy).Contents (Elt Ideal))
  (x9 : (⟨S32, .f32⟩ : BufTy).Contents (Elt Ideal))
  (x10 : (⟨S128x32, .f32⟩ : BufTy).Contents (Elt Ideal))
  (x11 : (⟨S32, .f32⟩ : BufTy).Contents (Elt Ideal))
  (x12 : (⟨S128x32, .f32⟩ : BufTy).Contents (Elt Ideal))
  (x13 : (⟨S32, .f32⟩ : BufTy).Contents (Elt Ideal))
  (x14 : (⟨S32x32, .f32⟩ : BufTy).Contents (Elt Ideal))
  (x15 : (⟨S32, .f32⟩ : BufTy).Contents (Elt Ideal))
  (x16 : (⟨S32x32, .f32⟩ : BufTy).Contents (Elt Ideal))
  (x17 : (⟨S32, .f32⟩ : BufTy).Contents (Elt Ideal))
  (x18 : (⟨S32x32, .f32⟩ : BufTy).Contents (Elt Ideal))
  (x19 : (⟨S32, .f32⟩ : BufTy).Contents (Elt Ideal))
  (x20 : (⟨S32x32, .f32⟩ : BufTy).Contents (Elt Ideal))
  (x21 : (⟨S32, .f32⟩ : BufTy).Contents (Elt Ideal))
  (x22 : (⟨S32x32, .f32⟩ : BufTy).Contents (Elt Ideal))
  (x23 : (⟨S32, .f32⟩ : BufTy).Contents (Elt Ideal))
  (x24 : (⟨S32x32, .f32⟩ : BufTy).Contents (Elt Ideal))
  (x25 : (⟨S32, .f32⟩ : BufTy).Contents (Elt Ideal))
  (x26 : (⟨S32x1, .f32⟩ : BufTy).Contents (Elt Ideal))
  (x27 : (⟨S1, .f32⟩ : BufTy).Contents (Elt Ideal))

/-! ### The first layer, on the node features: its three branches as whole arrays, then their sum -/

theorem v4_eq : val_main_v4 (F := Ideal) x0 x8 = Gnn.prod x0 x8 := by
  unfold val_main_v4
  exact dot_eq_prod _ rfl rfl lhs_main_v4_0 lhs_main_v4_1 rhs_main_v4_0 rhs_main_v4_1 _ _

theorem v6_rd (i : S100000x32.Idx) : val_main_v6 (F := Ideal) x9 i = x9 (ix1 (i 1)) := by
  rw [val_main_v6_apply, val_main_v5_apply]
  exact congrArg x9 (funext fun a => match a with | ⟨0, _⟩ => rfl)

theorem call0_rd (i : S100000x32.Idx) : val_main_call0_v0 (F := Ideal) i = Gnn.zero := by
  rw [val_main_call0_v0_apply]
  rfl

theorem v8_eq : val_main_v8 (F := Ideal) x0 x8 x9 = Gnn.dense x0 x8 x9 := by
  funext i
  rw [val_main_v8_apply, val_main_v7_apply, v4_eq, v6_rd, call0_rd]
  rfl

theorem v9_eq : val_main_v9 (F := Ideal) x0 x2 = Gnn.prod x0 x2 := by
  unfold val_main_v9
  exact dot_eq_prod _ rfl rfl lhs_main_v9_0 lhs_main_v9_1 rhs_main_v9_0 rhs_main_v9_1 _ _

theorem v19_eq : val_main_v19 (F := Ideal) x0 x1 x2 = Cert.KernelIdeal.Hand.agg x1 (val_main_v9 (F := Ideal) x0 x2) := by
  unfold val_main_v19 val_main_v16
  generalize val_main_v9 (F := Ideal) x0 x2 = hc
  rfl

theorem v21_rd (i : S100000x32.Idx) : val_main_v21 (F := Ideal) x3 i = x3 (ix1 (i 1)) := by
  rw [val_main_v21_apply, val_main_v20_apply]
  exact congrArg x3 (funext fun a => match a with | ⟨0, _⟩ => rfl)

theorem call1_rd (i : S100000x32.Idx) : val_main_call1_v0 (F := Ideal) i = Gnn.zero := by
  rw [val_main_call1_v0_apply]
  rfl

theorem v23_eq : val_main_v23 (F := Ideal) x0 x1 x2 x3 = Gnn.spect (Cert.KernelIdeal.Hand.agg x1 (Gnn.prod x0 x2)) x3 := by
  funext i
  rw [val_main_v23_apply, val_main_v22_apply, v19_eq, v9_eq, v21_rd, call1_rd]
  rfl

theorem v25_eq : val_main_v25 (F := Ideal) x0 x10 = Gnn.prod x0 x10 := by
  unfold val_main_v25
  exact dot_eq_prod _ rfl rfl lhs_main_v25_0 lhs_main_v25_1 rhs_main_v25_0 rhs_main_v25_1 _ _

theorem v27_rd (i : S100000x32.Idx) : val_main_v27 (F := Ideal) x11 i = x11 (ix1 (i 1)) := by
  rw [val_main_v27_apply, val_main_v26_apply]
  exact congrArg x11 (funext fun a => match a with | ⟨0, _⟩ => rfl)

theorem v28_eq : val_main_v28 (F := Ideal) x0 x10 x11 = Gnn.lin x0 x10 x11 := by
  funext i
  rw [val_main_v28_apply, v25_eq, v27_rd]
  rfl

theorem v29_eq : val_main_v29 (F := Ideal) x0 x12 = Gnn.prod x0 x12 := by
  unfold val_main_v29
  exact dot_eq_prod _ rfl rfl lhs_main_v29_0 lhs_main_v29_1 rhs_main_v29_0 rhs_main_v29_1 _ _

theorem v31_rd (i : S100000x32.Idx) : val_main_v31 (F := Ideal) x13 i = x13 (ix1 (i 1)) := by
  rw [val_main_v31_apply, val_main_v30_apply]
  exact congrArg x13 (funext fun a => match a with | ⟨0, _⟩ => rfl)

theorem v32_eq : val_main_v32 (F := Ideal) x0 x12 x13 = Gnn.lin x0 x12 x13 := by
  funext i
  rw [val_main_v32_apply, v29_eq, v31_rd]
  rfl

theorem call2_rd (i : S100000x32.Idx) : val_main_call2_v0 (F := Ideal) i = Gnn.zero := by
  rw [val_main_call2_v0_apply]
  rfl

theorem v34_eq : val_main_v34 (F := Ideal) x0 x10 x11 x12 x13 = Gnn.gated x0 x10 x11 x12 x13 := by
  funext i
  rw [val_main_v34_apply, val_main_v33_apply, v28_eq, v32_eq, call2_rd]
  rfl

theorem v35_eq : val_main_v35 (F := Ideal) x0 x1 x2 x3 x8 x9 x10 x11 x12 x13 = Gnn.layer (Cert.KernelIdeal.Hand.agg x1) x0 x8 x9 x2 x3 x10 x11 x12 x13 := by
  funext i
  rw [val_main_v35_apply, val_main_v24_apply, v8_eq, v23_eq, v34_eq]
  rfl

/-! ### The second layer, on the first layer's result: the same statements with 32 input columns -/

theorem v36_eq : val_main_v36 (F := Ideal) x0 x1 x2 x3 x8 x9 x10 x11 x12 x13 x14 = Gnn.prod (val_main_v35 (F := Ideal) x0 x1 x2 x3 x8 x9 x10 x11 x12 x13) x14 := by
  unfold val_main_v36
  exact dot_eq_prod _ rfl rfl lhs_main_v36_0 lhs_main_v36_1 rhs_main_v36_0 rhs_main_v36_1 _ _

theorem v38_rd (i : S100000x32.Idx) : val_main_v38 (F := Ideal) x15 i = x15 (ix1 (i 1)) := by
  rw [val_main_v38_apply, val_main_v37_apply]
  exact congrArg x15 (funext fun a => match a with | ⟨0, _⟩ => rfl)

theorem call3_rd (i : S100000x32.Idx) : val_main_call3_v0 (F := Ideal) i = Gnn.zero := by
  rw [val_main_call3_v0_apply]
  rfl

theorem v40_eq : val_main_v40 (F := Ideal) x0 x1 x2 x3 x8 x9 x10 x11 x12 x13 x14 x15 = Gnn.dense (val_main_v35 (F := Ideal) x0 x1 x2 x3 x8 x9 x10 x11 x12 x13) x14 x15 := by
  funext i
  rw [val_main_v40_apply, val_main_v39_apply, v36_eq, v38_rd, call3_rd]
  rfl

theorem v41_eq : val_main_v41 (F := Ideal) x0 x1 x2 x3 x4 x8 x9 x10 x11 x12 x13 = Gnn.prod (val_main_v35 (F := Ideal) x0 x1 x2 x3 x8 x9 x10 x11 x12 x13) x4 := by
  unfold val_main_v41
  exact dot_eq_prod _ rfl rfl lhs_main_v41_0 lhs_main_v41_1 rhs_main_v41_0 rhs_main_v41_1 _ _

theorem v51_eq : val_main_v51 (F := Ideal) x0 x1 x2 x3 x4 x8 x9 x10 x11 x12 x13 = Cert.KernelIdeal.Hand.agg x1 (val_main_v41 (F := Ideal) x0 x1 x2 x3 x4 x8 x9 x10 x11 x12 x13) := by
  unfold val_main_v51 val_main_v48
  generalize val_main_v41 (F := Ideal) x0 x1 x2 x3 x4 x8 x9 x10 x11 x12 x13 = hc
  rfl

theorem v53_rd (i : S100000x32.Idx) : val_main_v53 (F := Ideal) x5 i = x5 (ix1 (i 1)) := by
  rw [val_main_v53_apply, val_main_v52_apply]
  exact congrArg x5 (funext fun a => match a with | ⟨0, _⟩ => rfl)

theorem call4_rd (i : S100000x32.Idx) : val_main_call4_v0 (F := Ideal) i = Gnn.zero := by
  rw [val_main_call4_v0_apply]
  rfl

theorem v55_eq : val_main_v55 (F := Ideal) x0 x1 x2 x3 x4 x5 x8 x9 x10 x11 x12 x13 = Gnn.spect (Cert.KernelIdeal.Hand.agg x1 (Gnn.prod (val_main_v35 (F := Ideal) x0 x1 x2 x3 x8 x9 x10 x11 x12 x13) x4)) x5 := by
  funext i
  rw [val_main_v55_apply, val_main_v54_apply, v51_eq, v41_eq, v53_rd, call4_rd]
  rfl

theorem v57_eq : val_main_v57 (F := Ideal) x0 x1 x2 x3 x8 x9 x10 x11 x12 x13 x16 = Gnn.prod (val_main_v35 (F := Ideal) x0 x1 x2 x3 x8 x9 x10 x11 x12 x13) x16 := by
  unfold val_main_v57
  exact dot_eq_prod _ rfl rfl lhs_main_v57_0 lhs_main_v57_1 rhs_main_v57_0 rhs_main_v57_1 _ _

theorem v59_rd (i : S100000x32.Idx) : val_main_v59 (F := Ideal) x17 i = x17 (ix1 (i 1)) := by
  rw [val_main_v59_apply, val_main_v58_apply]
  exact congrArg x17 (funext fun a => match a with | ⟨0, _⟩ => rfl)

theorem v60_eq : val_main_v60 (F := Ideal) x0 x1 x2 x3 x8 x9 x10 x11 x12 x13 x16 x17 = Gnn.lin (val_main_v35 (F := Ideal) x0 x1 x2 x3 x8 x9 x10 x11 x12 x13) x16 x17 := by
  funext i
  rw [val_main_v60_apply, v57_eq, v59_rd]
  rfl

theorem v61_eq : val_main_v61 (F := Ideal) x0 x1 x2 x3 x8 x9 x10 x11 x12 x13 x18 = Gnn.prod (val_main_v35 (F := Ideal) x0 x1 x2 x3 x8 x9 x10 x11 x12 x13) x18 := by
  unfold val_main_v61
  exact dot_eq_prod _ rfl rfl lhs_main_v61_0 lhs_main_v61_1 rhs_main_v61_0 rhs_main_v61_1 _ _

theorem v63_rd (i : S100000x32.Idx) : val_main_v63 (F := Ideal) x19 i = x19 (ix1 (i 1)) := by
  rw [val_main_v63_apply, val_main_v62_apply]
  exact congrArg x19 (funext fun a => match a with | ⟨0, _⟩ => rfl)

theorem v64_eq : val_main_v64 (F := Ideal) x0 x1 x2 x3 x8 x9 x10 x11 x12 x13 x18 x19 = Gnn.lin (val_main_v35 (F := Ideal) x0 x1 x2 x3 x8 x9 x10 x11 x12 x13) x18 x19 := by
  funext i
  rw [val_main_v64_apply, v61_eq, v63_rd]
  rfl

theorem call5_rd (i : S100000x32.Idx) : val_main_call5_v0 (F := Ideal) i = Gnn.zero := by
  rw [val_main_call5_v0_apply]
  rfl

theorem v66_eq : val_main_v66 (F := Ideal) x0 x1 x2 x3 x8 x9 x10 x11 x12 x13 x16 x17 x18 x19 = Gnn.gated (val_main_v35 (F := Ideal) x0 x1 x2 x3 x8 x9 x10 x11 x12 x13) x16 x17 x18 x19 := by
  funext i
  rw [val_main_v66_apply, val_main_v65_apply, v60_eq, v64_eq, call5_rd]
  rfl

theorem v67_eq : val_main_v67 (F := Ideal) x0 x1 x2 x3 x4 x5 x8 x9 x10 x11 x12 x13 x14 x15 x16 x17 x18 x19 = Gnn.layer (Cert.KernelIdeal.Hand.agg x1) (val_main_v35 (F := Ideal) x0 x1 x2 x3 x8 x9 x10 x11 x12 x13) x14 x15 x4 x5 x16 x17 x18 x19 := by
  funext i
  rw [val_main_v67_apply, val_main_v56_apply, v40_eq, v55_eq, v66_eq]
  rfl

/-! ### The third layer, on the second layer's result -/

theorem v68_eq : val_main_v68 (F := Ideal) x0 x1 x2 x3 x4 x5 x8 x9 x10 x11 x12 x13 x14 x15 x16 x17 x18 x19 x20 = Gnn.prod (val_main_v67 (F := Ideal) x0 x1 x2 x3 x4 x5 x8 x9 x10 x11 x12 x13 x14 x15 x16 x17 x18 x19) x20 := by
  unfold val_main_v68
  exact dot_eq_prod _ rfl rfl lhs_main_v68_0 lhs_main_v68_1 rhs_main_v68_0 rhs_main_v68_1 _ _

theorem v70_rd (i : S100000x32.Idx) : val_main_v70 (F := Ideal) x21 i = x21 (ix1 (i 1)) := by
  rw [val_main_v70_apply, val_main_v69_apply]
  exact congrArg x21 (funext fun a => match a with | ⟨0, _⟩ => rfl)

theorem call6_rd (i : S100000x32.Idx) : val_main_call6_v0 (F := Ideal) i = Gnn.zero := by
  rw [val_main_call6_v0_apply]
  rfl

theorem v72_eq : val_main_v72 (F := Ideal) x0 x1 x2 x3 x4 x5 x8 x9 x10 x11 x12 x13 x14 x15 x16 x17 x18 x19 x20 x21 = Gnn.dense (val_main_v67 (F := Ideal) x0 x1 x2 x3 x4 x5 x8 x9 x10 x11 x12 x13 x14 x15 x16 x17 x18 x19) x20 x21 := by
  funext i
  rw [val_main_v72_apply, val_main_v71_apply, v68_eq, v70_rd, call6_rd]
  rfl

theorem v73_eq : val_main_v73 (F := Ideal) x0 x1 x2 x3 x4 x5 x6 x8 x9 x10 x11 x12 x13 x14 x15 x16 x17 x18 x19 = Gnn.prod (val_main_v67 (F := Ideal) x0 x1 x2 x3 x4 x5 x8 x9 x10 x11 x12 x13 x14 x15 x16 x17 x18 x19) x6 := by
  unfold val_main_v73
  exact dot_eq_prod _ rfl rfl lhs_main_v73_0 lhs_main_v73_1 rhs_main_v73_0 rhs_main_v73_1 _ _

theorem v83_eq : val_main_v83 (F := Ideal) x0 x1 x2 x3 x4 x5 x6 x8 x9 x10 x11 x12 x13 x14 x15 x16 x17 x18 x19 = Cert.KernelIdeal.Hand.agg x1 (val_main_v73 (F := Ideal) x0 x1 x2 x3 x4 x5 x6 x8 x9 x10 x11 x12 x13 x14 x15 x16 x17 x18 x19) := by
  unfold val_main_v83 val_main_v80
  generalize val_main_v73 (F := Ideal) x0 x1 x2 x3 x4 x5 x6 x8 x9 x10 x11 x12 x13 x14 x15 x16 x17 x18 x19 = hc
  rfl

theorem v85_rd (i : S100000x32.Idx) : val_main_v85 (F := Ideal) x7 i = x7 (ix1 (i 1)) := by
  rw [val_main_v85_apply, val_main_v84_apply]
  exact congrArg x7 (funext fun a => match a with | ⟨0, _⟩ => rfl)

theorem call7_rd (i : S100000x32.Idx) : val_main_call7_v0 (F := Ideal) i = Gnn.zero := by
  rw [val_main_call7_v0_apply]
  rfl

theorem v87_eq : val_main_v87 (F := Ideal) x0 x1 x2 x3 x4 x5 x6 x7 x8 x9 x10 x11 x12 x13 x14 x15 x16 x17 x18 x19 = Gnn.spect (Cert.KernelIdeal.Hand.agg x1 (Gnn.prod (val_main_v67 (F := Ideal) x0 x1 x2 x3 x4 x5 x8 x9 x10 x11 x12 x13 x14 x15 x16 x17 x18 x19) x6)) x7 := by
  funext i
  rw [val_main_v87_apply, val_main_v86_apply, v83_eq, v73_eq, v85_rd, call7_rd]
  rfl

theorem v89_eq : val_main_v89 (F := Ideal) x0 x1 x2 x3 x4 x5 x8 x9 x10 x11 x12 x13 x14 x15 x16 x17 x18 x19 x22 = Gnn.prod (val_main_v67 (F := Ideal) x0 x1 x2 x3 x4 x5 x8 x9 x10 x11 x12 x13 x14 x15 x16 x17 x18 x19) x22 := by
  unfold val_main_v89
  exact dot_eq_prod _ rfl rfl lhs_main_v89_0 lhs_main_v89_1 rhs_main_v89_0 rhs_main_v89_1 _ _

theorem v91_rd (i : S100000x32.Idx) : val_main_v91 (F := Ideal) x23 i = x23 (ix1 (i 1)) := by
  rw [val_main_v91_apply, val_main_v90_apply]
  exact congrArg x23 (funext fun a => match a with | ⟨0, _⟩ => rfl)

theorem v92_eq : val_main_v92 (F := Ideal) x0 x1 x2 x3 x4 x5 x8 x9 x10 x11 x12 x13 x14 x15 x16 x17 x18 x19 x22 x23 = Gnn.lin (val_main_v67 (F := Ideal) x0 x1 x2 x3 x4 x5 x8 x9 x10 x11 x12 x13 x14 x15 x16 x17 x18 x19) x22 x23 := by
  funext i
  rw [val_main_v92_apply, v89_eq, v91_rd]
  rfl

theorem v93_eq : val_main_v93 (F := Ideal) x0 x1 x2 x3 x4 x5 x8 x9 x10 x11 x12 x13 x14 x15 x16 x17 x18 x19 x24 = Gnn.prod (val_main_v67 (F := Ideal) x0 x1 x2 x3 x4 x5 x8 x9 x10 x11 x12 x13 x14 x15 x16 x17 x18 x19) x24 := by
  unfold val_main_v93
  exact dot_eq_prod _ rfl rfl lhs_main_v93_0 lhs_main_v93_1 rhs_main_v93_0 rhs_main_v93_1 _ _

theorem v95_rd (i : S100000x32.Idx) : val_main_v95 (F := Ideal) x25 i = x25 (ix1 (i 1)) := by
  rw [val_main_v95_apply, val_main_v94_apply]
  exact congrArg x25 (funext fun a => match a with | ⟨0, _⟩ => rfl)

theorem v96_eq : val_main_v96 (F := Ideal) x0 x1 x2 x3 x4 x5 x8 x9 x10 x11 x12 x13 x14 x15 x16 x17 x18 x19 x24 x25 = Gnn.lin (val_main_v67 (F := Ideal) x0 x1 x2 x3 x4 x5 x8 x9 x10 x11 x12 x13 x14 x15 x16 x17 x18 x19) x24 x25 := by
  funext i
  rw [val_main_v96_apply, v93_eq, v95_rd]
  rfl

theorem call8_rd (i : S100000x32.Idx) : val_main_call8_v0 (F := Ideal) i = Gnn.zero := by
  rw [val_main_call8_v0_apply]
  rfl

theorem v98_eq : val_main_v98 (F := Ideal) x0 x1 x2 x3 x4 x5 x8 x9 x10 x11 x12 x13 x14 x15 x16 x17 x18 x19 x22 x23 x24 x25 = Gnn.gated (val_main_v67 (F := Ideal) x0 x1 x2 x3 x4 x5 x8 x9 x10 x11 x12 x13 x14 x15 x16 x17 x18 x19) x22 x23 x24 x25 := by
  funext i
  rw [val_main_v98_apply, val_main_v97_apply, v92_eq, v96_eq, call8_rd]
  rfl

theorem v99_eq : val_main_v99 (F := Ideal) x0 x1 x2 x3 x4 x5 x6 x7 x8 x9 x10 x11 x12 x13 x14 x15 x16 x17 x18 x19 x20 x21 x22 x23 x24 x25 = Gnn.layer (Cert.KernelIdeal.Hand.agg x1) (val_main_v67 (F := Ideal) x0 x1 x2 x3 x4 x5 x8 x9 x10 x11 x12 x13 x14 x15 x16 x17 x18 x19) x20 x21 x6 x7 x22 x23 x24 x25 := by
  funext i
  rw [val_main_v99_apply, val_main_v88_apply, v72_eq, v87_eq, v98_eq]
  rfl

/-! ### The output map `h·W2 + b2` on the third layer's result, and the whole network -/

theorem v100_eq : val_main_v100 (F := Ideal) x0 x1 x2 x3 x4 x5 x6 x7 x8 x9 x10 x11 x12 x13 x14 x15 x16 x17 x18 x19 x20 x21 x22 x23 x24 x25 x26 = Gnn.prod (val_main_v99 (F := Ideal) x0 x1 x2 x3 x4 x5 x6 x7 x8 x9 x10 x11 x12 x13 x14 x15 x16 x17 x18 x19 x20 x21 x22 x23 x24 x25) x26 := by
  unfold val_main_v100
  exact dot_eq_prod _ rfl rfl lhs_main_v100_0 lhs_main_v100_1 rhs_main_v100_0 rhs_main_v100_1 _ _

theorem v102_rd (i : S100000x1.Idx) : val_main_v102 (F := Ideal) x27 i = x27 (ix1 (i 1)) := by
  rw [val_main_v102_apply, val_main_v101_apply]
  exact congrArg x27 (funext fun a => match a with
    | ⟨0, _⟩ => Fin.ext (by have h : (i 1).val < 1 := (i 1).isLt; show 0 = (i 1).val; omega))

theorem v103_eq : val_main_v103 (F := Ideal) x0 x1 x2 x3 x4 x5 x6 x7 x8 x9 x10 x11 x12 x13 x14 x15 x16 x17 x18 x19 x20 x21 x22 x23 x24 x25 x26 x27 = Gnn.lin (val_main_v99 (F := Ideal) x0 x1 x2 x3 x4 x5 x6 x7 x8 x9 x10 x11 x12 x13 x14 x15 x16 x17 x18 x19 x20 x21 x22 x23 x24 x25) x26 x27 := by
  funext i
  rw [val_main_v103_apply, v100_eq, v102_rd]
  rfl

/-- The reference program's result is the network, with the aggregation over the edge list for `A`. -/
theorem result_eq :
    Cert.ReferenceIdeal.Read.val_main_v103 (F := Ideal) x0 x1 x2 x3 x4 x5 x6 x7 x8 x9 x10 x11 x12 x13 x14 x15 x16 x17 x18 x19 x20 x21 x22 x23 x24 x25 x26 x27
      = Gnn.net (Cert.KernelIdeal.Hand.agg x1) x0 x2 x3 x4 x5 x6 x7 x8 x9 x10 x11 x12 x13 x14 x15 x16 x17 x18 x19 x20 x21 x22 x23 x24 x25 x26 x27 := by
  rw [v103_eq, v99_eq, v67_eq, v35_eq]
  rfl

end Cert.ReferenceIdeal.RefNet

end
-- ==== Proof.lean ====
/-
  The certificate.  The kernel is a three-layer graph network in seven regions — per layer a dense stage (four
  matrix products of the node features, three of them with a bias row, then relu and a gate) and a combine stage
  (the three branches joined), with the edge aggregation (a gather of rows and an accumulating scatter) done between
  them by host operations, and a final affine map to one column; the reference is the same network in plain array
  operations.  On the extended reals the rounding to bf16 before each product is the identity and a product into a
  zero accumulator is the plain sum of products, so both programs compute the same function of the arguments, with
  the same order of additions and the very same aggregation applied to equal matrices: `Gnn.net`.

  The three frames: the two kernel programs' by the frame certificates of their seven regions; the reference's by
  its run with the result dropped.  No operation was rewritten by the idealization, so there is nothing to preserve.
  The value claim: the kernel's run ends at the network of its arguments (each region's output array read as a
  whole-array function, composed through the host operations), the reference's run at the same network of its own
  arguments (its operations read one at a time), and the two memories agree on the arguments.
-/
import proofs.«152414_j64991445123447_1_alg».proof.Defs
import proofs.«152414_j64991445123447_1_alg».proof.Proof.Gen.Kernel
import proofs.«152414_j64991445123447_1_alg».proof.Proof.Gen.Kernel.Skeleton
import proofs.«152414_j64991445123447_1_alg».proof.Proof.KernelLaunchP
import proofs.«152414_j64991445123447_1_alg».proof.Proof.Gen.Kernel.Points
import proofs.«152414_j64991445123447_1_alg».proof.Proof.KernelFrameP
import proofs.«152414_j64991445123447_1_alg».proof.Proof.Gen.KernelIdeal
import proofs.«152414_j64991445123447_1_alg».proof.Proof.Gen.KernelIdeal.Skeleton
import proofs.«152414_j64991445123447_1_alg».proof.Proof.KernelIdealLaunchP
import proofs.«152414_j64991445123447_1_alg».proof.Proof.Gen.KernelIdeal.Points
import proofs.«152414_j64991445123447_1_alg».proof.Proof.KernelIdealFrameP
import proofs.«152414_j64991445123447_1_alg».proof.Proof.Gen.ReferenceIdeal
import proofs.«152414_j64991445123447_1_alg».proof.Proof.Gen.Pre_finite_inputs
import proofs.«152414_j64991445123447_1_alg».proof.Proof.Gen.ReferenceIdeal.Run
import proofs.«152414_j64991445123447_1_alg».proof.Proof.Gen.ReferenceIdeal.Read
import proofs.«152414_j64991445123447_1_alg».proof.Proof.KernelNet
import proofs.«152414_j64991445123447_1_alg».proof.Proof.RefNet
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end at the network of the arguments, and the arguments agree. -/
theorem algebraic : Cert.algebraic_KernelIdeal_ReferenceIdeal := by
  intro m ρ m' ρ' _ hagree
  refine ⟨fun c => Cert.KernelIdeal.Net.knet m c, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24, h25, h26, h27⟩ := hagree c
  rw [Cert.ReferenceIdeal.Read.val_main_v103_eq, Cert.ReferenceIdeal.RefNet.result_eq,
    h0, h1, h2, h3, h4, h5, h6, h7, h8, h9, h10, h11, h12, h13, h14, h15, h16, h17, h18, h19, h20, h21, h22, h23, h24, h25, h26, h27]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
